-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8192x4096 : Shape := ⟨2, ![8192, 4096]⟩
abbrev S6144x2048 : Shape := ⟨2, ![6144, 2048]⟩
abbrev S6144 : Shape := ⟨1, ![6144]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x4096 : S_.BroadcastsInDim S8192x4096 (![] : Fin 0 → Fin S8192x4096.rank)
  reducesTo_S8192x4096_S_d0_1 : S8192x4096.ReducesTo [0, 1] S_
  bcast_S_S6144x2048 : S_.BroadcastsInDim S6144x2048 (![] : Fin 0 → Fin S6144x2048.rank)
  reducesTo_S6144x2048_S_d0_1 : S6144x2048.ReducesTo [0, 1] S_
  bcast_S_S6144 : S_.BroadcastsInDim S6144 (![] : Fin 0 → Fin S6144.rank)
  reducesTo_S6144_S_d0 : S6144.ReducesTo [0] S_

variable [Facts]

def fn_part2 {F : FTy → Type} [FloatOps F] (main_arg7 : FVec F S6144x2048 .f32) (main_arg8 : FVec F S6144 .f32) (main_arg9 : FVec F S6144 .f32) (main_v33 : IVec S_ 1) : IVec S_ 1 :=
  let main_v34 : FVec F S6144x2048 .f32 := Host.absf main_arg7
  let main_cst_12 : FVec F S_ .f32 := constant S_ .f32 0x7F800000#32
  let main_v35 : FVec F S6144x2048 .f32 := broadcastInDim S6144x2048 ![] bcast_S_S6144x2048 main_cst_12
  let main_v36 : IVec S6144x2048 1 := cmpf .olt main_v34 main_v35
  let main_c_13 : IVec S_ 1 := constantI S_ 1 1#1
  let main_v37 : IVec S_ 1 := (fun x v => Host.reduce IntOp.andi x v reducesTo_S6144x2048_S_d0_1 h_S_) main_v36 main_c_13
  let main_v38 : IVec S_ 1 := andi main_v33 main_v37
  let main_v39 : FVec F S6144 .f32 := Host.absf main_arg8
  let main_cst_14 : FVec F S_ .f32 := constant S_ .f32 0x7F800000#32
  let main_v40 : FVec F S6144 .f32 := broadcastInDim S6144 ![] bcast_S_S6144 main_cst_14
  let main_v41 : IVec S6144 1 := cmpf .olt main_v39 main_v40
  let main_c_15 : IVec S_ 1 := constantI S_ 1 1#1
  let main_v42 : IVec S_ 1 := (fun x v => Host.reduce IntOp.andi x v reducesTo_S6144_S_d0 h_S_) main_v41 main_c_15
  let main_v43 : IVec S_ 1 := andi main_v38 main_v42
  let main_v44 : FVec F S6144 .f32 := Host.absf main_arg9
  let main_cst_16 : FVec F S_ .f32 := constant S_ .f32 0x7F800000#32
  let main_v45 : FVec F S6144 .f32 := broadcastInDim S6144 ![] bcast_S_S6144 main_cst_16
  let main_v46 : IVec S6144 1 := cmpf .olt main_v44 main_v45
  let main_c_17 : IVec S_ 1 := constantI S_ 1 1#1
  let main_v47 : IVec S_ 1 := (fun x v => Host.reduce IntOp.andi x v reducesTo_S6144_S_d0 h_S_) main_v46 main_c_17
  let main_v48 : IVec S_ 1 := andi main_v43 main_v47
  main_v48

def fn_part1 {F : FTy → Type} [FloatOps F] (main_arg4 : FVec F S6144 .f32) (main_arg5 : FVec F S6144 .f32) (main_arg6 : FVec F S6144x2048 .f32) (main_arg7 : FVec F S6144x2048 .f32) (main_arg8 : FVec F S6144 .f32) (main_arg9 : FVec F S6144 .f32) (main_v13 : IVec S_ 1) (main_v16 : IVec S6144x2048 1) : IVec S_ 1 :=
  let main_c_5 : IVec S_ 1 := constantI S_ 1 1#1
  let main_v17 : IVec S_ 1 := (fun x v => Host.reduce IntOp.andi x v reducesTo_S6144x2048_S_d0_1 h_S_) main_v16 main_c_5
  let main_v18 : IVec S_ 1 := andi main_v13 main_v17
  let main_v19 : FVec F S6144 .f32 := Host.absf main_arg4
  let main_cst_6 : FVec F S_ .f32 := constant S_ .f32 0x7F800000#32
  let main_v20 : FVec F S6144 .f32 := broadcastInDim S6144 ![] bcast_S_S6144 main_cst_6
  let main_v21 : IVec S6144 1 := cmpf .olt main_v19 main_v20
  let main_c_7 : IVec S_ 1 := constantI S_ 1 1#1
  let main_v22 : IVec S_ 1 := (fun x v => Host.reduce IntOp.andi x v reducesTo_S6144_S_d0 h_S_) main_v21 main_c_7
  let main_v23 : IVec S_ 1 := andi main_v18 main_v22
  let main_v24 : FVec F S6144 .f32 := Host.absf main_arg5
  let main_cst_8 : FVec F S_ .f32 := constant S_ .f32 0x7F800000#32
  let main_v25 : FVec F S6144 .f32 := broadcastInDim S6144 ![] bcast_S_S6144 main_cst_8
  let main_v26 : IVec S6144 1 := cmpf .olt main_v24 main_v25
  let main_c_9 : IVec S_ 1 := constantI S_ 1 1#1
  let main_v27 : IVec S_ 1 := (fun x v => Host.reduce IntOp.andi x v reducesTo_S6144_S_d0 h_S_) main_v26 main_c_9
  let main_v28 : IVec S_ 1 := andi main_v23 main_v27
  let main_v29 : FVec F S6144x2048 .f32 := Host.absf main_arg6
  let main_cst_10 : FVec F S_ .f32 := constant S_ .f32 0x7F800000#32
  let main_v30 : FVec F S6144x2048 .f32 := broadcastInDim S6144x2048 ![] bcast_S_S6144x2048 main_cst_10
  let main_v31 : IVec S6144x2048 1 := cmpf .olt main_v29 main_v30
  let main_c_11 : IVec S_ 1 := constantI S_ 1 1#1
  let main_v32 : IVec S_ 1 := (fun x v => Host.reduce IntOp.andi x v reducesTo_S6144x2048_S_d0_1 h_S_) main_v31 main_c_11
  let main_v33 : IVec S_ 1 := andi main_v28 main_v32
  fn_part2 (F := F) main_arg7 main_arg8 main_arg9 main_v33

def fn {F : FTy → Type} [FloatOps F] (main_arg0 : FVec F S8192x2048 .f32) (main_arg1 : FVec F S8192x4096 .f32) (main_arg2 : FVec F S6144x2048 .f32) (main_arg3 : FVec F S6144x2048 .f32) (main_arg4 : FVec F S6144 .f32) (main_arg5 : FVec F S6144 .f32) (main_arg6 : FVec F S6144x2048 .f32) (main_arg7 : FVec F S6144x2048 .f32) (main_arg8 : FVec F S6144 .f32) (main_arg9 : FVec F S6144 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S6144x2048 .f32 := Host.absf main_arg2
  let main_cst_2 : FVec F S_ .f32 := constant S_ .f32 0x7F800000#32
  let main_v10 : FVec F S6144x2048 .f32 := broadcastInDim S6144x2048 ![] bcast_S_S6144x2048 main_cst_2
  let main_v11 : IVec S6144x2048 1 := cmpf .olt main_v9 main_v10
  let main_c_3 : IVec S_ 1 := constantI S_ 1 1#1
  let main_v12 : IVec S_ 1 := (fun x v => Host.reduce IntOp.andi x v reducesTo_S6144x2048_S_d0_1 h_S_) main_v11 main_c_3
  let main_v13 : IVec S_ 1 := andi main_v8 main_v12
  let main_v14 : FVec F S6144x2048 .f32 := Host.absf main_arg3
  let main_cst_4 : FVec F S_ .f32 := constant S_ .f32 0x7F800000#32
  let main_v15 : FVec F S6144x2048 .f32 := broadcastInDim S6144x2048 ![] bcast_S_S6144x2048 main_cst_4
  let main_v16 : IVec S6144x2048 1 := cmpf .olt main_v14 main_v15
  fn_part1 (F := F) main_arg4 main_arg5 main_arg6 main_arg7 main_arg8 main_arg9 main_v13 main_v16
-- ==== Kernel.lean ====
abbrev S8192x2048 : Shape := ⟨2, ![8192, 2048]⟩
abbrev S8192x4096 : Shape := ⟨2, ![8192, 4096]⟩
abbrev S6144x2048 : Shape := ⟨2, ![6144, 2048]⟩
abbrev S6144 : Shape := ⟨1, ![6144]⟩
abbrev S1x6144 : Shape := ⟨2, ![1, 6144]⟩
abbrev S256x256 : Shape := ⟨2, ![256, 256]⟩
abbrev S6144x256 : Shape := ⟨2, ![6144, 256]⟩
abbrev S256x2048 : Shape := ⟨2, ![256, 2048]⟩
abbrev S256x6144 : Shape := ⟨2, ![256, 6144]⟩

abbrev nBuf : Space → Nat
  | .hbm => 23
  | .vmem => 28
  | .smem => 0
  | _ => 0

abbrev bufTy : (tb : Table) → Fin (tcTables nBuf tb) → BufTy
  | .hbm, ⟨0, _⟩ => ⟨S8192x2048, .f32⟩
  | .hbm, ⟨1, _⟩ => ⟨S8192x4096, .f32⟩
  | .hbm, ⟨2, _⟩ => ⟨S6144x2048, .f32⟩
  | .hbm, ⟨3, _⟩ => ⟨S6144x2048, .f32⟩
  | .hbm, ⟨4, _⟩ => ⟨S6144, .f32⟩
  | .hbm, ⟨5, _⟩ => ⟨S6144, .f32⟩
  | .hbm, ⟨6, _⟩ => ⟨S6144x2048, .f32⟩
  | .hbm, ⟨7, _⟩ => ⟨S6144x2048, .f32⟩
  | .hbm, ⟨8, _⟩ => ⟨S6144, .f32⟩
  | .hbm, ⟨9, _⟩ => ⟨S6144, .f32⟩
  | .hbm, ⟨10, _⟩ => ⟨S8192x2048, .f32⟩
  | .hbm, ⟨11, _⟩ => ⟨S8192x2048, .f32⟩
  | .hbm, ⟨12, _⟩ => ⟨S6144x2048, .bf16⟩
  | .hbm, ⟨13, _⟩ => ⟨S6144x2048, .bf16⟩
  | .hbm, ⟨14, _⟩ => ⟨S1x6144, .f32⟩
  | .hbm, ⟨15, _⟩ => ⟨S1x6144, .f32⟩
  | .hbm, ⟨16, _⟩ => ⟨S8192x2048, .f32⟩
  | .hbm, ⟨17, _⟩ => ⟨S6144x2048, .bf16⟩
  | .hbm, ⟨18, _⟩ => ⟨S6144x2048, .bf16⟩
  | .hbm, ⟨19, _⟩ => ⟨S1x6144, .f32⟩
  | .hbm, ⟨20, _⟩ => ⟨S1x6144, .f32⟩
  | .hbm, ⟨21, _⟩ => ⟨S8192x2048, .f32⟩
  | .hbm, ⟨22, _⟩ => ⟨S8192x4096, .f32⟩
  | .local _ .vmem, ⟨0, _⟩ => ⟨S256x256, .f32⟩
  | .local _ .vmem, ⟨1, _⟩ => ⟨S256x256, .f32⟩
  | .local _ .vmem, ⟨2, _⟩ => ⟨S6144x256, .bf16⟩
  | .local _ .vmem, ⟨3, _⟩ => ⟨S6144x256, .bf16⟩
  | .local _ .vmem, ⟨4, _⟩ => ⟨S256x2048, .f32⟩
  | .local _ .vmem, ⟨5, _⟩ => ⟨S256x2048, .f32⟩
  | .local _ .vmem, ⟨6, _⟩ => ⟨S6144x256, .bf16⟩
  | .local _ .vmem, ⟨7, _⟩ => ⟨S6144x256, .bf16⟩
  | .local _ .vmem, ⟨8, _⟩ => ⟨S1x6144, .f32⟩
  | .local _ .vmem, ⟨9, _⟩ => ⟨S1x6144, .f32⟩
  | .local _ .vmem, ⟨10, _⟩ => ⟨S256x2048, .f32⟩
  | .local _ .vmem, ⟨11, _⟩ => ⟨S256x2048, .f32⟩
  | .local _ .vmem, ⟨12, _⟩ => ⟨S256x6144, .f32⟩
  | .local _ .vmem, ⟨13, _⟩ => ⟨S256x6144, .f32⟩
  | .local _ .vmem, ⟨14, _⟩ => ⟨S256x256, .f32⟩
  | .local _ .vmem, ⟨15, _⟩ => ⟨S256x256, .f32⟩
  | .local _ .vmem, ⟨16, _⟩ => ⟨S6144x256, .bf16⟩
  | .local _ .vmem, ⟨17, _⟩ => ⟨S6144x256, .bf16⟩
  | .local _ .vmem, ⟨18, _⟩ => ⟨S256x2048, .f32⟩
  | .local _ .vmem, ⟨19, _⟩ => ⟨S256x2048, .f32⟩
  | .local _ .vmem, ⟨20, _⟩ => ⟨S6144x256, .bf16⟩
  | .local _ .vmem, ⟨21, _⟩ => ⟨S6144x256, .bf16⟩
  | .local _ .vmem, ⟨22, _⟩ => ⟨S1x6144, .f32⟩
  | .local _ .vmem, ⟨23, _⟩ => ⟨S1x6144, .f32⟩
  | .local _ .vmem, ⟨24, _⟩ => ⟨S256x2048, .f32⟩
  | .local _ .vmem, ⟨25, _⟩ => ⟨S256x2048, .f32⟩
  | .local _ .vmem, ⟨26, _⟩ => ⟨S256x6144, .f32⟩
  | .local _ .vmem, ⟨27, _⟩ => ⟨S256x6144, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg6_1 : Ref sig .tc := ⟨.vmem, 25, rfl⟩
abbrev cc1_scratch0 : Ref sig .tc := ⟨.vmem, 26, rfl⟩
abbrev cc1_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem5_0 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨2, ![32, 8], ![false, false]⟩

def k0_mult1 (i : grid0.Coords) : BitVec 32 :=
  let arg1 : BitVec 32 := BitVec.ofNat 32 (i 1).val
  let c256_i32 : BitVec 32 := 256#32
  let v5 : BitVec 32 := Scalar.muli arg1 c256_i32
  v5
def k0_off1 (i : grid0.Coords) : Fin 2 → Nat :=
  let c0_2 : Index := 0#32
  let arg1 : BitVec 32 := BitVec.ofNat 32 (i 1).val
  let c256_i32 : BitVec 32 := 256#32
  let v5 : BitVec 32 := Scalar.muli arg1 c256_i32
  let v6 : BitVec 32 := v5
  let v7 : Index := Scalar.indexCast v6
  ![0, v7.toNat]
def k0_cond2 (i : grid0.Coords) : BitVec 1 :=
  let arg1 : BitVec 32 := BitVec.ofNat 32 (i 1).val
  let c7_i32 : BitVec 32 := 7#32
  let v27 : BitVec 1 := Scalar.cmpi .eq arg1 c7_i32
  let v28 : BitVec 32 := Scalar.extui v27
  let c0_i32_16 : BitVec 32 := 0#32
  let v29 : BitVec 1 := Scalar.cmpi .ne v28 c0_i32_16
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S6144x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S6144x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![32, 8], ![false, false]⟩

def k1_mult1 (i : grid1.Coords) : BitVec 32 :=
  let arg1 : BitVec 32 := BitVec.ofNat 32 (i 1).val
  let c256_i32 : BitVec 32 := 256#32
  let v6 : BitVec 32 := Scalar.muli arg1 c256_i32
  v6
def k1_off1 (i : grid1.Coords) : Fin 2 → Nat :=
  let c0_2 : Index := 0#32
  let arg1 : BitVec 32 := BitVec.ofNat 32 (i 1).val
  let c256_i32 : BitVec 32 := 256#32
  let v6 : BitVec 32 := Scalar.muli arg1 c256_i32
  let v7 : BitVec 32 := v6
  let v8 : Index := Scalar.indexCast v7
  ![0, v8.toNat]
def k1_cond2 (i : grid1.Coords) : BitVec 1 :=
  let arg1 : BitVec 32 := BitVec.ofNat 32 (i 1).val
  let c7_i32 : BitVec 32 := 7#32
  let v28 : BitVec 1 := Scalar.cmpi .eq arg1 c7_i32
  let v29 : BitVec 32 := Scalar.extui v28
  let c0_i32_16 : BitVec 32 := 0#32
  let v30 : BitVec 1 := Scalar.cmpi .ne v29 c0_i32_16
  v30

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S6144x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S6144x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S1x6144 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x6144 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S256x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  slices_S8192x4096_S8192x2048_0_0 : S8192x4096.Slices ![0, 0] S8192x2048
  slices_S8192x4096_S8192x2048_0_2048 : S8192x4096.Slices ![0, 2048] S8192x2048
  bitsLt_bf16_f32 : FTy.bits .bf16 < FTy.bits .f32
  shapeCasts_S6144_S1x6144 : S6144.ShapeCasts S1x6144
  inb_S256x6144_S256x6144_0_0 : ∀ a, (![0, 0] : Fin 2 → Nat) a + S256x6144.size a ≤ S256x6144.size a
  h_S256x6144 : 0 < S256x6144.numel
  shapeCasts_S256x6144_S256x6144 : S256x6144.ShapeCasts S256x6144
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S6144x256_S6144x256_0_0 : ∀ a, (![0, 0] : Fin 2 → Nat) a + S6144x256.size a ≤ S6144x256.size a
  h_S6144x256 : 0 < S6144x256.numel
  shapeCasts_S6144x256_S6144x256 : S6144x256.ShapeCasts S6144x256
  inb_S1x6144_S1x6144_0_0 : ∀ a, (![0, 0] : Fin 2 → Nat) a + S1x6144.size a ≤ S1x6144.size a
  h_S1x6144 : 0 < S1x6144.numel
  shapeCasts_S1x6144_S1x6144 : S1x6144.ShapeCasts S1x6144
  broadcasts_S1x6144_S256x6144 : S1x6144.Broadcasts S256x6144
  slices_S256x6144_o0_0_S256x2048 : S256x6144.Slices ![0, 0] S256x2048
  slices_S256x6144_o0_2048_S256x2048 : S256x6144.Slices ![0, 2048] S256x2048
  slices_S256x6144_o0_4096_S256x2048 : S256x6144.Slices ![0, 4096] S256x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  concatenates_S8192x2048_S8192x2048_S8192x4096_d1 : Shape.Concatenates [S8192x2048, S8192x2048] S8192x4096 1
  dot_S256x256_S6144x256_S256x6144_1_1_0_0_n_n_wf : DotDims.WF S256x256 S6144x256 S256x6144 [1] [1] [0] [0] [] []
  hrank0 : 0 < grid0.rank
  k0_mult1_dvd : ∀ i : grid0.Coords, 256 ∣ (k0_mult1 i).toNat
  k0_off1_inb : ∀ i : grid0.Coords, ∀ a, (k0_off1 i) a + S256x256.size a ≤ S256x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S8192x2048.size a
  hwx0_0 : ∀ i : grid0.Coords, EltTy.bits .f32 = 32 ∨ (Rect.block (s := S8192x2048) S256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6144x256.size a ≤ S6144x2048.size a
  hwx0_1 : ∀ i : grid0.Coords, EltTy.bits .bf16 = 32 ∨ (Rect.block (s := S6144x2048) S6144x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S8192x2048.size a
  hwx0_2 : ∀ i : grid0.Coords, EltTy.bits .f32 = 32 ∨ (Rect.block (s := S8192x2048) S256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S6144x256.size a ≤ S6144x2048.size a
  hwx0_3 : ∀ i : grid0.Coords, EltTy.bits .bf16 = 32 ∨ (Rect.block (s := S6144x2048) S6144x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x6144.size a ≤ S1x6144.size a
  hwx0_4 : ∀ i : grid0.Coords, EltTy.bits .f32 = 32 ∨ (Rect.block (s := S1x6144) S1x6144.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x6144.size a ≤ S1x6144.size a
  hwx0_5 : ∀ i : grid0.Coords, EltTy.bits .f32 = 32 ∨ (Rect.block (s := S1x6144) S1x6144.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x2048.size a ≤ S8192x2048.size a
  hwx0_6 : ∀ i : grid0.Coords, EltTy.bits .f32 = 32 ∨ (Rect.block (s := S8192x2048) S256x2048.size (cc0_transform_6 i) (hinb0_6 i)).WholeWords (EltTy.packing .f32)
  hrank1 : 0 < grid1.rank
  k1_mult1_dvd : ∀ i : grid1.Coords, 256 ∣ (k1_mult1 i).toNat
  k1_off1_inb : ∀ i : grid1.Coords, ∀ a, (k1_off1 i) a + S256x256.size a ≤ S256x2048.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x256.size a ≤ S8192x2048.size a
  hwx1_0 : ∀ i : grid1.Coords, EltTy.bits .f32 = 32 ∨ (Rect.block (s := S8192x2048) S256x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6144x256.size a ≤ S6144x2048.size a
  hwx1_1 : ∀ i : grid1.Coords, EltTy.bits .bf16 = 32 ∨ (Rect.block (s := S6144x2048) S6144x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x2048.size a ≤ S8192x2048.size a
  hwx1_2 : ∀ i : grid1.Coords, EltTy.bits .f32 = 32 ∨ (Rect.block (s := S8192x2048) S256x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S6144x256.size a ≤ S6144x2048.size a
  hwx1_3 : ∀ i : grid1.Coords, EltTy.bits .bf16 = 32 ∨ (Rect.block (s := S6144x2048) S6144x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x6144.size a ≤ S1x6144.size a
  hwx1_4 : ∀ i : grid1.Coords, EltTy.bits .f32 = 32 ∨ (Rect.block (s := S1x6144) S1x6144.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x6144.size a ≤ S1x6144.size a
  hwx1_5 : ∀ i : grid1.Coords, EltTy.bits .f32 = 32 ∨ (Rect.block (s := S1x6144) S1x6144.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S256x2048.size a ≤ S8192x2048.size a
  hwx1_6 : ∀ i : grid1.Coords, EltTy.bits .f32 = 32 ∨ (Rect.block (s := S8192x2048) S256x2048.size (cc1_transform_6 i) (hinb1_6 i)).WholeWords (EltTy.packing .f32)

variable [Facts₀]

def dot_S256x256_S6144x256_S256x6144_1_1_0_0_n_n : DotDims S256x256 S6144x256 S256x6144 where
  lhsContracting := [1]
  rhsContracting := [1]
  lhsNonContracting := [0]
  rhsNonContracting := [0]
  lhsBatch := []
  rhsBatch := []
  wf := dot_S256x256_S6144x256_S256x6144_1_1_0_0_n_n_wf

abbrev win0_0 : Pipeline.Window sig grid0 :=
  Pipeline.Window.ofSpec (Memref.whole main_arg0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S6144x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S6144x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x6144.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x6144.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S256x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v6) S256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S6144x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S256x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S6144x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v9) S1x6144.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v10) S1x6144.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v11) S256x2048.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S8192x2048 : Shape := ⟨2, ![8192, 2048]⟩
abbrev S8192x4096 : Shape := ⟨2, ![8192, 4096]⟩
abbrev S6144x2048 : Shape := ⟨2, ![6144, 2048]⟩
abbrev S6144 : Shape := ⟨1, ![6144]⟩
abbrev S2048x6144 : Shape := ⟨2, ![2048, 6144]⟩
abbrev S8192x6144 : Shape := ⟨2, ![8192, 6144]⟩
abbrev S1x6144 : Shape := ⟨2, ![1, 6144]⟩
abbrev S_ : Shape := ⟨0, ![]⟩

abbrev nBuf : Space → Nat
  | .hbm => 99
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x4096, .f32⟩
  | .hbm, ⟨2, _⟩ => ⟨S6144x2048, .f32⟩
  | .hbm, ⟨3, _⟩ => ⟨S6144x2048, .f32⟩
  | .hbm, ⟨4, _⟩ => ⟨S6144, .f32⟩
  | .hbm, ⟨5, _⟩ => ⟨S6144, .f32⟩
  | .hbm, ⟨6, _⟩ => ⟨S6144x2048, .f32⟩
  | .hbm, ⟨7, _⟩ => ⟨S6144x2048, .f32⟩
  | .hbm, ⟨8, _⟩ => ⟨S6144, .f32⟩
  | .hbm, ⟨9, _⟩ => ⟨S6144, .f32⟩
  | .hbm, ⟨10, _⟩ => ⟨S8192x2048, .f32⟩
  | .hbm, ⟨11, _⟩ => ⟨S8192x2048, .f32⟩
  | .hbm, ⟨12, _⟩ => ⟨S2048x6144, .f32⟩
  | .hbm, ⟨13, _⟩ => ⟨S8192x6144, .f32⟩
  | .hbm, ⟨14, _⟩ => ⟨S1x6144, .f32⟩
  | .hbm, ⟨15, _⟩ => ⟨S8192x6144, .f32⟩
  | .hbm, ⟨16, _⟩ => ⟨S8192x6144, .f32⟩
  | .hbm, ⟨17, _⟩ => ⟨S2048x6144, .f32⟩
  | .hbm, ⟨18, _⟩ => ⟨S8192x6144, .f32⟩
  | .hbm, ⟨19, _⟩ => ⟨S1x6144, .f32⟩
  | .hbm, ⟨20, _⟩ => ⟨S8192x6144, .f32⟩
  | .hbm, ⟨21, _⟩ => ⟨S8192x6144, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S_, .f32⟩
  | .hbm, ⟨41, _⟩ => ⟨S8192x2048, .f32⟩
  | .hbm, ⟨42, _⟩ => ⟨S8192x2048, .f32⟩
  | .hbm, ⟨43, _⟩ => ⟨S_, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S_, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S2048x6144, .f32⟩
  | .hbm, ⟨56, _⟩ => ⟨S8192x6144, .f32⟩
  | .hbm, ⟨57, _⟩ => ⟨S1x6144, .f32⟩
  | .hbm, ⟨58, _⟩ => ⟨S8192x6144, .f32⟩
  | .hbm, ⟨59, _⟩ => ⟨S8192x6144, .f32⟩
  | .hbm, ⟨60, _⟩ => ⟨S2048x6144, .f32⟩
  | .hbm, ⟨61, _⟩ => ⟨S8192x6144, .f32⟩
  | .hbm, ⟨62, _⟩ => ⟨S1x6144, .f32⟩
  | .hbm, ⟨63, _⟩ => ⟨S8192x6144, .f32⟩
  | .hbm, ⟨64, _⟩ => ⟨S8192x6144, .f32⟩
  | .hbm, ⟨65, _⟩ => ⟨S8192x2048, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S8192x2048, .f32⟩
  | .hbm, ⟨72, _⟩ => ⟨S8192x2048, .f32⟩
  | .hbm, ⟨73, _⟩ => ⟨S8192x2048, .f32⟩
  | .hbm, ⟨74, _⟩ => ⟨S_, .f32⟩
  | .hbm, ⟨75, _⟩ => ⟨S8192x2048, .f32⟩
  | .hbm, ⟨76, _⟩ => ⟨S8192x2048, .f32⟩
  | .hbm, ⟨77, _⟩ => ⟨S_, .f32⟩
  | .hbm, ⟨78, _⟩ => ⟨S8192x2048, .f32⟩
  | .hbm, ⟨79, _⟩ => ⟨S8192x2048, .f32⟩
  | .hbm, ⟨80, _⟩ => ⟨S8192x2048, .f32⟩
  | .hbm, ⟨81, _⟩ => ⟨S8192x2048, .f32⟩
  | .hbm, ⟨82, _⟩ => ⟨S8192x2048, .f32⟩
  | .hbm, ⟨83, _⟩ => ⟨S_, .f32⟩
  | .hbm, ⟨84, _⟩ => ⟨S8192x2048, .f32⟩
  | .hbm, ⟨85, _⟩ => ⟨S8192x2048, .f32⟩
  | .hbm, ⟨86, _⟩ => ⟨S_, .f32⟩
  | .hbm, ⟨87, _⟩ => ⟨S8192x2048, .f32⟩
  | .hbm, ⟨88, _⟩ => ⟨S8192x2048, .f32⟩
  | .hbm, ⟨89, _⟩ => ⟨S8192x2048, .f32⟩
  | .hbm, ⟨90, _⟩ => ⟨S8192x2048, .f32⟩
  | .hbm, ⟨91, _⟩ => ⟨S8192x2048, .f32⟩
  | .hbm, ⟨92, _⟩ => ⟨S_, .f32⟩
  | .hbm, ⟨93, _⟩ => ⟨S8192x2048, .f32⟩
  | .hbm, ⟨94, _⟩ => ⟨S8192x2048, .f32⟩
  | .hbm, ⟨95, _⟩ => ⟨S8192x2048, .f32⟩
  | .hbm, ⟨96, _⟩ => ⟨S8192x2048, .f32⟩
  | .hbm, ⟨97, _⟩ => ⟨S8192x2048, .f32⟩
  | .hbm, ⟨98, _⟩ => ⟨S8192x4096, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst : Ref sig .tc := ⟨.hbm, 31, rfl⟩
abbrev main_v21 : Ref sig .tc := ⟨.hbm, 32, rfl⟩
abbrev main_v22 : Ref sig .tc := ⟨.hbm, 33, rfl⟩
abbrev main_cst_0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_1 : Ref sig .tc := ⟨.hbm, 40, rfl⟩
abbrev main_v28 : Ref sig .tc := ⟨.hbm, 41, rfl⟩
abbrev main_v29 : Ref sig .tc := ⟨.hbm, 42, rfl⟩
abbrev main_cst_2 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_4 : Ref sig .tc := ⟨.hbm, 74, rfl⟩
abbrev main_v59 : Ref sig .tc := ⟨.hbm, 75, rfl⟩
abbrev main_v60 : Ref sig .tc := ⟨.hbm, 76, rfl⟩
abbrev main_cst_5 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_6 : Ref sig .tc := ⟨.hbm, 83, rfl⟩
abbrev main_v66 : Ref sig .tc := ⟨.hbm, 84, rfl⟩
abbrev main_v67 : Ref sig .tc := ⟨.hbm, 85, rfl⟩
abbrev main_cst_7 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_8 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩

abbrev nD : Nat := 1
abbrev τ : Topo := Topo.v7x

variable {F : FTy → Type} [FloatOps F]

class Facts₀ : Prop where
  slices_S8192x4096_S8192x2048_0_0 : S8192x4096.Slices ![0, 0] S8192x2048
  slices_S8192x4096_S8192x2048_0_2048 : S8192x4096.Slices ![0, 2048] S8192x2048
  transposes_S6144x2048_S2048x6144_1_0 : S6144x2048.Transposes [1, 0] S2048x6144
  bcast_S6144_S1x6144_1 : S6144.BroadcastsInDim S1x6144 (![1] : Fin 1 → Fin S1x6144.rank)
  bcast_S1x6144_S8192x6144_0_1 : S1x6144.BroadcastsInDim S8192x6144 (![0, 1] : Fin 2 → Fin S8192x6144.rank)
  slices_S8192x6144_S8192x2048_0_0 : S8192x6144.Slices ![0, 0] S8192x2048
  slices_S8192x6144_S8192x2048_0_2048 : S8192x6144.Slices ![0, 2048] S8192x2048
  slices_S8192x6144_S8192x2048_0_4096 : S8192x6144.Slices ![0, 4096] S8192x2048
  bcast_S_S8192x2048 : S_.BroadcastsInDim S8192x2048 (![] : Fin 0 → Fin S8192x2048.rank)
  concatenates_S8192x2048_S8192x2048_S8192x4096_d1 : Shape.Concatenates [S8192x2048, S8192x2048] S8192x4096 1
  dot_S8192x2048_S2048x6144_S8192x6144_1_0_0_1_n_n_wf : DotDims.WF S8192x2048 S2048x6144 S8192x6144 [1] [0] [0] [1] [] []

variable [Facts₀]

def dot_S8192x2048_S2048x6144_S8192x6144_1_0_0_1_n_n : DotDims S8192x2048 S2048x6144 S8192x6144 where
  lhsContracting := [1]
  rhsContracting := [0]
  lhsNonContracting := [0]
  rhsNonContracting := [1]
  lhsBatch := []
  rhsBatch := []
  wf := dot_S8192x2048_S2048x6144_S8192x6144_1_0_0_1_n_n_wf

class Facts : Prop extends Facts₀ where

variable [Facts]
-- ==== Proof.KnR0Base.lean ====
import proofs.«154160_j33036888441278_1_alg».proof.Proof.Gen.Kernel.Launch
import proofs.«154160_j33036888441278_1_alg».proof.Proof.Gen.Kernel.Skeleton
import proofs.«154160_j33036888441278_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 0: what its runs share

The region is entered with the TensorCore's buffers at contents `V`. A grid point is a pair (batch tile, contraction
tile); the body zeroes its two accumulators where the contraction tile is the first, adds one tile's products at every
point, and gates and stores the output block where the contraction tile is the last. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not: where it is not fetched the
    block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not: where it is not fetched the
    block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not: where it is not fetched the
    block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not: where it is not fetched the
    block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not: where it is not fetched the
    block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every point, fetched there or not: where it is not fetched the
    block index has not moved. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The two branch conditions, decided over the grid -/

/-- The contraction tile is the first one. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The contraction tile is the last one. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Away from the last contraction tile the output block is neither stored into nor written back. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
/-- At the last contraction tile it is stored. -/
theorem liveAt0_6 : ∀ t : Fin cfg0.N, cond0_1 (grid0.coords t) → cfg0.idle 6 (grid0.coords t) = false := by decide +kernel

/-! ## The memrefs the body is called with -/

abbrev ms0_0 (t : Fin cfg0.N) : Memref sig .tc .vmem S256x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S6144x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S6144x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x6144 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x6144 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x2048 .f32 := win0_6.stage (cfg0.slots t 6)
abbrev hs0_6 (t : Fin cfg0.N) : (ms0_6 t).IsWhole := hstage0_6 ((cfg0.slots t 6).cast nbuf0_6)
/-- One staging buffer of the output window, through which its contents are stated. -/
abbrev VO0_6 : View sig .tc .vmem S256x2048 .f32 := (Memref.whole cc0_stg6_0 : Memref sig .tc .vmem S256x2048 .f32).view
/-- The two accumulators: whole scoped buffers of the kernel's own. -/
abbrev scM0_0 : Memref sig .tc .vmem S256x6144 .f32 := Memref.whole cc0_scratch0
abbrev scM0_1 : Memref sig .tc .vmem S256x6144 .f32 := Memref.whole cc0_scratch1
abbrev VS0_0 : View sig .tc .vmem S256x6144 .f32 := scM0_0.view
abbrev VS0_1 : View sig .tc .vmem S256x6144 .f32 := scM0_1.view

/-- The scoped buffers of the core that belong to the other region: whole, at some contents. -/
def Oth0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The class invariant (every scoped buffer no window stages, at some contents, and the generator register) with the
    two accumulators taken out. -/
theorem PhiA0_split (c : Dev nD) :
    (Pipeline.ΦA spec0 c : sProp 𝕄)
      ⊢ iprop((∃ d, owns (c : Thread nD τ) scM0_0 fullShare d) ∗ (∃ d, owns (c : Thread nD τ) scM0_1 fullShare d) ∗ Oth0 c ∗ (∃ g, prngReg c g)) := by
  unfold Pipeline.ΦA Oth0; rw [scopedRest0_eq]; simp only [scM0_0, scM0_1, owns_whole]
  iintro ⟨⟨HS0, HS1, O0, O1, O2, O3, O4, O5, O6, O7, O8, O9, O10, O11, O12, O13⟩, Hp⟩
  isplitl [HS0]; · iexact HS0
  isplitl [HS1]; · iexact HS1
  isplitr [Hp]
  · isplitl [O0]; · iexact O0
    isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    isplitl [O9]; · iexact O9
    isplitl [O10]; · iexact O10
    isplitl [O11]; · iexact O11
    isplitl [O12]; · iexact O12
    iexact O13
  iexact Hp

theorem PhiA0_join (c : Dev nD) :
    iprop((∃ d, owns (c : Thread nD τ) scM0_0 fullShare d) ∗ (∃ d, owns (c : Thread nD τ) scM0_1 fullShare d) ∗ Oth0 c ∗ (∃ g, prngReg c g))
      ⊢ (Pipeline.ΦA spec0 c : sProp 𝕄) := by
  unfold Pipeline.ΦA Oth0; rw [scopedRest0_eq]; simp only [scM0_0, scM0_1, owns_whole]
  iintro ⟨HS0, HS1, ⟨O0, O1, O2, O3, O4, O5, O6, O7, O8, O9, O10, O11, O12, O13⟩, Hp⟩
  isplitr [Hp]
  · isplitl [HS0]; · iexact HS0
    isplitl [HS1]; · iexact HS1
    isplitl [O0]; · iexact O0
    isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    isplitl [O9]; · iexact O9
    isplitl [O10]; · iexact O10
    isplitl [O11]; · iexact O11
    isplitl [O12]; · iexact O12
    iexact O13
  iexact Hp

end Cert.Kernel.Fr

end
-- ==== Proof.KnR0RunA.lean ====
import proofs.«154160_j33036888441278_1_alg».proof.Proof.KnR0Base

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- (the run's proof term is large)
set_option maxHeartbeats 4000000 in
/-- The body on whole staging memrefs where the contraction tile is the first: the inputs' buffers at their
    contents and handed back as they were; the output's buffer handed back untouched; the two accumulators
    at anything, left with the pieces the body stored. The pieces are the witness the run finds. -/
noncomputable def kernelRun0_A (c : Dev nD) (i : grid0.Coords) (arg2 : Memref sig .tc .vmem S256x256 .f32) (harg2 : arg2.IsWhole) (arg3 : Memref sig .tc .vmem S6144x256 .bf16) (harg3 : arg3.IsWhole) (arg4 : Memref sig .tc .vmem S256x2048 .f32) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S256x2048 .f32) (harg8 : arg8.IsWhole) (arg9 : Memref sig .tc .vmem S256x6144 .f32) (harg9 : arg9.IsWhole) (arg10 : Memref sig .tc .vmem S256x6144 .f32) (harg10 : arg10.IsWhole) (hc0 : cond0_0 i) (hc1 : ¬cond0_1 i)
    (x0 : Vec F S256x256 .f32) (x1 : Vec F S6144x256 .bf16) (x2 : Vec F S256x2048 .f32) (x3 : Vec F S6144x256 .bf16) (x4 : Vec F S1x6144 .f32) (x5 : Vec F S1x6144 .f32) :
    Σ' (L6 : List (View.Piece (Elt F) S256x2048 .f32)) (LS0 : List (View.Piece (Elt F) S256x6144 .f32)), { LS1 : List (View.Piece (Elt F) S256x6144 .f32) //
      ∀ (xi6 : Vec F S256x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__gru_kernel i arg2 harg2 arg3 harg3 arg4 harg4 arg5 harg5 arg6 harg6 arg7 harg7 arg8 harg8 arg9 harg9 arg10 harg10) K } := by
  refine ⟨[], ?_, ?_, fun xi6 E K => ?run⟩
  case run =>
    simp only [cc0__gru_kernel_eq_skeleton]; unfold cc0__gru_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.Kernel.Fr

end
-- ==== Proof.KnR0RunB.lean ====
import proofs.«154160_j33036888441278_1_alg».proof.Proof.KnR0RunA

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- (the run's proof term is large)
set_option maxHeartbeats 4000000 in
/-- The body on whole staging memrefs where the contraction tile is neither the first nor the last: the inputs' buffers at their
    contents and handed back as they were; the output's buffer handed back untouched; the two accumulators
    at what the point before left, left with the pieces the body stored. The pieces are the witness the run finds. -/
noncomputable def kernelRun0_B (c : Dev nD) (i : grid0.Coords) (arg2 : Memref sig .tc .vmem S256x256 .f32) (harg2 : arg2.IsWhole) (arg3 : Memref sig .tc .vmem S6144x256 .bf16) (harg3 : arg3.IsWhole) (arg4 : Memref sig .tc .vmem S256x2048 .f32) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S256x2048 .f32) (harg8 : arg8.IsWhole) (arg9 : Memref sig .tc .vmem S256x6144 .f32) (harg9 : arg9.IsWhole) (arg10 : Memref sig .tc .vmem S256x6144 .f32) (harg10 : arg10.IsWhole) (hc0 : ¬cond0_0 i) (hc1 : ¬cond0_1 i)
    (x0 : Vec F S256x256 .f32) (x1 : Vec F S6144x256 .bf16) (x2 : Vec F S256x2048 .f32) (x3 : Vec F S6144x256 .bf16) (x4 : Vec F S1x6144 .f32) (x5 : Vec F S1x6144 .f32) (xs0 xs1 : Vec F S256x6144 .f32) :
    Σ' (L6 : List (View.Piece (Elt F) S256x2048 .f32)) (LS0 : List (View.Piece (Elt F) S256x6144 .f32)), { LS1 : List (View.Piece (Elt F) S256x6144 .f32) //
      ∀ (xi6 : Vec F S256x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__gru_kernel i arg2 harg2 arg3 harg3 arg4 harg4 arg5 harg5 arg6 harg6 arg7 harg7 arg8 harg8 arg9 harg9 arg10 harg10) K } := by
  refine ⟨[], ?_, ?_, fun xi6 E K => ?run⟩
  case run =>
    simp only [cc0__gru_kernel_eq_skeleton]; unfold cc0__gru_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.Kernel.Fr

end
-- ==== Proof.KnR0RunC.lean ====
import proofs.«154160_j33036888441278_1_alg».proof.Proof.KnR0RunB

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- (the run's proof term is large)
set_option maxHeartbeats 4000000 in
/-- The body on whole staging memrefs where the contraction tile is the last: the inputs' buffers at their
    contents and handed back as they were; the output's buffer at anything, left with the pieces the body stored; the two accumulators
    at what the point before left, left with the pieces the body stored. The pieces are the witness the run finds. -/
noncomputable def kernelRun0_C (c : Dev nD) (i : grid0.Coords) (arg2 : Memref sig .tc .vmem S256x256 .f32) (harg2 : arg2.IsWhole) (arg3 : Memref sig .tc .vmem S6144x256 .bf16) (harg3 : arg3.IsWhole) (arg4 : Memref sig .tc .vmem S256x2048 .f32) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S256x2048 .f32) (harg8 : arg8.IsWhole) (arg9 : Memref sig .tc .vmem S256x6144 .f32) (harg9 : arg9.IsWhole) (arg10 : Memref sig .tc .vmem S256x6144 .f32) (harg10 : arg10.IsWhole) (hc0 : ¬cond0_0 i) (hc1 : cond0_1 i)
    (x0 : Vec F S256x256 .f32) (x1 : Vec F S6144x256 .bf16) (x2 : Vec F S256x2048 .f32) (x3 : Vec F S6144x256 .bf16) (x4 : Vec F S1x6144 .f32) (x5 : Vec F S1x6144 .f32) (xs0 xs1 : Vec F S256x6144 .f32) :
    Σ' (L6 : List (View.Piece (Elt F) S256x2048 .f32)) (LS0 : List (View.Piece (Elt F) S256x6144 .f32)), { LS1 : List (View.Piece (Elt F) S256x6144 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__gru_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc0__gru_kernel_eq_skeleton]; unfold cc0__gru_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    iexists _; iexact HS1

end Cert.Kernel.Fr

end
-- ==== Proof.KnR0Frame.lean ====
import proofs.«154160_j33036888441278_1_alg».proof.Proof.KnR0RunC

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: what the accumulators and the output block hold point by point, and the body obligation -/

/-- The body's run at point `t`, on the memrefs the pipeline passes there and the input blocks read off `V`. -/
def runA0 (c : Dev nD) (t : Fin cfg0.N) (h0 : t.val % 8 = 0) (h1 : ¬t.val % 8 = 7) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)

/-- Its pieces for accumulator 0 tile the buffer, so they cover it. -/
theorem scoverA0_0 (c : Dev nD) (t : Fin cfg0.N) (h0 : t.val % 8 = 0) (h1 : ¬t.val % 8 = 7) (y : S256x6144.Idx) :
    ∃ pc ∈ (runA0 V c t h0 h1).2.1, y ∈ pc.1.set :=
  View.cover_of_tiledL (runA0 V c t h0 h1).2.1 S256x6144.size (by sl_kernel_rfl) y

/-- What it leaves in accumulator 0: its pieces read back. -/
def soutA0_0 (c : Dev nD) (t : Fin cfg0.N) (h0 : t.val % 8 = 0) (h1 : ¬t.val % 8 = 7) : Vec F S256x6144 .f32 :=
  VS0_0.read (Elt F) (VS0_0.writes (Elt F) VS0_0.junk (runA0 V c t h0 h1).2.1)

/-- Its pieces for accumulator 1 tile the buffer, so they cover it. -/
theorem scoverA0_1 (c : Dev nD) (t : Fin cfg0.N) (h0 : t.val % 8 = 0) (h1 : ¬t.val % 8 = 7) (y : S256x6144.Idx) :
    ∃ pc ∈ (runA0 V c t h0 h1).2.2.1, y ∈ pc.1.set :=
  View.cover_of_tiledL (runA0 V c t h0 h1).2.2.1 S256x6144.size (by sl_kernel_rfl) y

/-- What it leaves in accumulator 1: its pieces read back. -/
def soutA0_1 (c : Dev nD) (t : Fin cfg0.N) (h0 : t.val % 8 = 0) (h1 : ¬t.val % 8 = 7) : Vec F S256x6144 .f32 :=
  VS0_1.read (Elt F) (VS0_1.writes (Elt F) VS0_1.junk (runA0 V c t h0 h1).2.2.1)

/-- The body's run at point `t`, on the memrefs the pipeline passes there and the input blocks read off `V`. -/
def runB0 (c : Dev nD) (t : Fin cfg0.N) (h0 : ¬t.val % 8 = 0) (h1 : ¬t.val % 8 = 7) (xs0 xs1 : Vec F S256x6144 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) xs0 xs1

/-- Its pieces for accumulator 0 tile the buffer, so they cover it. -/
theorem scoverB0_0 (c : Dev nD) (t : Fin cfg0.N) (h0 : ¬t.val % 8 = 0) (h1 : ¬t.val % 8 = 7) (xs0 xs1 : Vec F S256x6144 .f32) (y : S256x6144.Idx) :
    ∃ pc ∈ (runB0 V c t h0 h1 xs0 xs1).2.1, y ∈ pc.1.set :=
  View.cover_of_tiledL (runB0 V c t h0 h1 xs0 xs1).2.1 S256x6144.size (by sl_kernel_rfl) y

/-- What it leaves in accumulator 0: its pieces read back. -/
def soutB0_0 (c : Dev nD) (t : Fin cfg0.N) (h0 : ¬t.val % 8 = 0) (h1 : ¬t.val % 8 = 7) (xs0 xs1 : Vec F S256x6144 .f32) : Vec F S256x6144 .f32 :=
  VS0_0.read (Elt F) (VS0_0.writes (Elt F) VS0_0.junk (runB0 V c t h0 h1 xs0 xs1).2.1)

/-- Its pieces for accumulator 1 tile the buffer, so they cover it. -/
theorem scoverB0_1 (c : Dev nD) (t : Fin cfg0.N) (h0 : ¬t.val % 8 = 0) (h1 : ¬t.val % 8 = 7) (xs0 xs1 : Vec F S256x6144 .f32) (y : S256x6144.Idx) :
    ∃ pc ∈ (runB0 V c t h0 h1 xs0 xs1).2.2.1, y ∈ pc.1.set :=
  View.cover_of_tiledL (runB0 V c t h0 h1 xs0 xs1).2.2.1 S256x6144.size (by sl_kernel_rfl) y

/-- What it leaves in accumulator 1: its pieces read back. -/
def soutB0_1 (c : Dev nD) (t : Fin cfg0.N) (h0 : ¬t.val % 8 = 0) (h1 : ¬t.val % 8 = 7) (xs0 xs1 : Vec F S256x6144 .f32) : Vec F S256x6144 .f32 :=
  VS0_1.read (Elt F) (VS0_1.writes (Elt F) VS0_1.junk (runB0 V c t h0 h1 xs0 xs1).2.2.1)

/-- The body's run at point `t`, on the memrefs the pipeline passes there and the input blocks read off `V`. -/
def runC0 (c : Dev nD) (t : Fin cfg0.N) (h0 : ¬t.val % 8 = 0) (h1 : t.val % 8 = 7) (xs0 xs1 : Vec F S256x6144 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) xs0 xs1

/-- Its pieces for accumulator 0 tile the buffer, so they cover it. -/
theorem scoverC0_0 (c : Dev nD) (t : Fin cfg0.N) (h0 : ¬t.val % 8 = 0) (h1 : t.val % 8 = 7) (xs0 xs1 : Vec F S256x6144 .f32) (y : S256x6144.Idx) :
    ∃ pc ∈ (runC0 V c t h0 h1 xs0 xs1).2.1, y ∈ pc.1.set :=
  View.cover_of_tiledL (runC0 V c t h0 h1 xs0 xs1).2.1 S256x6144.size (by sl_kernel_rfl) y

/-- What it leaves in accumulator 0: its pieces read back. -/
def soutC0_0 (c : Dev nD) (t : Fin cfg0.N) (h0 : ¬t.val % 8 = 0) (h1 : t.val % 8 = 7) (xs0 xs1 : Vec F S256x6144 .f32) : Vec F S256x6144 .f32 :=
  VS0_0.read (Elt F) (VS0_0.writes (Elt F) VS0_0.junk (runC0 V c t h0 h1 xs0 xs1).2.1)

/-- Its pieces for accumulator 1 tile the buffer, so they cover it. -/
theorem scoverC0_1 (c : Dev nD) (t : Fin cfg0.N) (h0 : ¬t.val % 8 = 0) (h1 : t.val % 8 = 7) (xs0 xs1 : Vec F S256x6144 .f32) (y : S256x6144.Idx) :
    ∃ pc ∈ (runC0 V c t h0 h1 xs0 xs1).2.2.1, y ∈ pc.1.set :=
  View.cover_of_tiledL (runC0 V c t h0 h1 xs0 xs1).2.2.1 S256x6144.size (by sl_kernel_rfl) y

/-- What it leaves in accumulator 1: its pieces read back. -/
def soutC0_1 (c : Dev nD) (t : Fin cfg0.N) (h0 : ¬t.val % 8 = 0) (h1 : t.val % 8 = 7) (xs0 xs1 : Vec F S256x6144 .f32) : Vec F S256x6144 .f32 :=
  VS0_1.read (Elt F) (VS0_1.writes (Elt F) VS0_1.junk (runC0 V c t h0 h1 xs0 xs1).2.2.1)

/-- At the last contraction tile the body's pieces for the output block tile it, so they cover it. -/
theorem coverC0_6 (c : Dev nD) (t : Fin cfg0.N) (h0 : ¬t.val % 8 = 0) (h1 : t.val % 8 = 7) (xs0 xs1 : Vec F S256x6144 .f32) (y : S256x2048.Idx) :
    ∃ pc ∈ (runC0 V c t h0 h1 xs0 xs1).1, y ∈ pc.1.set :=
  View.cover_of_tiledL (runC0 V c t h0 h1 xs0 xs1).1 S256x2048.size (by sl_kernel_rfl) y

/-- What it leaves in the output's staging buffer there. -/
def outC0_6 (c : Dev nD) (t : Fin cfg0.N) (h0 : ¬t.val % 8 = 0) (h1 : t.val % 8 = 7) (xs0 xs1 : Vec F S256x6144 .f32) : Vec F S256x2048 .f32 :=
  VO0_6.read (Elt F) (VO0_6.writes (Elt F) VO0_6.junk (runC0 V c t h0 h1 xs0 xs1).1)

/-- Where the output block is not stored its staging buffer's contents are never consulted: a placeholder. -/
def idle0_6 : Vec F S256x2048 .f32 := VO0_6.read (Elt F) (VO0_6.writes (Elt F) VO0_6.junk [])

/-- THE ACCUMULATION: after the body at position `n`, the output's staging buffer and the two accumulators. At a first
    contraction tile the accumulators start from zero; elsewhere they continue from what position `n - 1` left. -/
def outsAt0 (c : Dev nD) : (n : ℕ) → n < cfg0.N → Vec F S256x2048 .f32 × Vec F S256x6144 .f32 × Vec F S256x6144 .f32
  | 0, hn => (idle0_6, soutA0_0 V c ⟨0, hn⟩ (Nat.zero_mod _) (fun h => (by decide : ¬ (0 % 8 = 7)) h), soutA0_1 V c ⟨0, hn⟩ (Nat.zero_mod _) (fun h => (by decide : ¬ (0 % 8 = 7)) h))
  | n + 1, hn =>
    if h0 : (n + 1) % 8 = 0 then
      (idle0_6, soutA0_0 V c ⟨n + 1, hn⟩ h0 (fun h => by have h' : (n + 1) % 8 = 7 := h; omega), soutA0_1 V c ⟨n + 1, hn⟩ h0 (fun h => by have h' : (n + 1) % 8 = 7 := h; omega))
    else if h1 : (n + 1) % 8 = 7 then
      (outC0_6 V c ⟨n + 1, hn⟩ h0 h1 (outsAt0 c n (Nat.lt_of_succ_lt hn)).2.1 (outsAt0 c n (Nat.lt_of_succ_lt hn)).2.2,
        soutC0_0 V c ⟨n + 1, hn⟩ h0 h1 (outsAt0 c n (Nat.lt_of_succ_lt hn)).2.1 (outsAt0 c n (Nat.lt_of_succ_lt hn)).2.2,
        soutC0_1 V c ⟨n + 1, hn⟩ h0 h1 (outsAt0 c n (Nat.lt_of_succ_lt hn)).2.1 (outsAt0 c n (Nat.lt_of_succ_lt hn)).2.2)
    else
      (idle0_6,
        soutB0_0 V c ⟨n + 1, hn⟩ h0 h1 (outsAt0 c n (Nat.lt_of_succ_lt hn)).2.1 (outsAt0 c n (Nat.lt_of_succ_lt hn)).2.2,
        soutB0_1 V c ⟨n + 1, hn⟩ h0 h1 (outsAt0 c n (Nat.lt_of_succ_lt hn)).2.1 (outsAt0 c n (Nat.lt_of_succ_lt hn)).2.2)

/-- The contents before point `t` when it is not the first: what point `t - 1` left. -/
abbrev prev0 (c : Dev nD) (t : Fin cfg0.N) := outsAt0 V c (t.val - 1) (Nat.lt_of_le_of_lt (Nat.sub_le _ _) t.isLt)

theorem outsAt0_A (c : Dev nD) (t : Fin cfg0.N) (h0 : t.val % 8 = 0) (h1 : ¬t.val % 8 = 7) :
    outsAt0 V c t.val t.isLt = (idle0_6, soutA0_0 V c t h0 h1, soutA0_1 V c t h0 h1) := by
  obtain ⟨n, hn⟩ := t
  cases n with
  | zero => exact rfl
  | succ n => exact (dif_pos h0).trans rfl

theorem outsAt0_B (c : Dev nD) (t : Fin cfg0.N) (h0 : ¬t.val % 8 = 0) (h1 : ¬t.val % 8 = 7) :
    outsAt0 V c t.val t.isLt = (idle0_6, soutB0_0 V c t h0 h1 (prev0 V c t).2.1 (prev0 V c t).2.2, soutB0_1 V c t h0 h1 (prev0 V c t).2.1 (prev0 V c t).2.2) := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (outC0_6 V c t h0 h1 (prev0 V c t).2.1 (prev0 V c t).2.2, soutC0_0 V c t h0 h1 (prev0 V c t).2.1 (prev0 V c t).2.2, soutC0_1 V c t h0 h1 (prev0 V c t).2.1 (prev0 V c t).2.2) := by
  obtain ⟨n, hn⟩ := t
  cases n with
  | zero => exact absurd (Nat.zero_mod _) h0
  | succ n => exact (dif_neg h0).trans ((dif_pos h1).trans rfl)

/-- The region invariant before position `n`: before the first point every scoped buffer no window stages at anything;
    afterwards the two accumulators at what the point before left, the other region's buffers at anything, and the
    generator register at some state. -/
def PhiS0 (c : Dev nD) : (n : ℕ) → n ≤ cfg0.N → sProp 𝕄
  | 0, _ => Pipeline.ΦA spec0 c
  | n + 1, hn => iprop(owns (c : Thread nD τ) scM0_0 fullShare (outsAt0 V c n hn).2.1 ∗ owns (c : Thread nD τ) scM0_1 fullShare (outsAt0 V c n hn).2.2 ∗ Oth0 c ∗ (∃ g, prngReg c g))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0_0 fullShare (outsAt0 V c n hn).2.1 ∗ owns (c : Thread nD τ) scM0_1 fullShare (outsAt0 V c n hn).2.2 ∗ Oth0 c ∗ (∃ g, prngReg c g)) := rfl

theorem PhiS0_pos (c : Dev nD) (n : ℕ) (h : n ≤ cfg0.N) (hz : n ≠ 0) :
    PhiS0 V c n h = iprop(owns (c : Thread nD τ) scM0_0 fullShare (outsAt0 V c (n - 1) (by omega)).2.1 ∗ owns (c : Thread nD τ) scM0_1 fullShare (outsAt0 V c (n - 1) (by omega)).2.2 ∗ Oth0 c ∗ (∃ g, prngReg c g)) := by
  cases n with
  | zero => exact absurd rfl hz
  | succ n => rfl

/-! ## The pipeline's proof data -/

/-- The arrays as the region finds them; after the body at point `t` each input's buffer at its block and the output's
    at `outsAt0`'s first component; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 8000000 in
/-- The body at any point. The inputs' memrefs hold their blocks; the point's contraction tile says which run applies;
    the invariant hands the body the accumulators at what the point before left (at anything before the first point)
    and takes them back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  rw [show (dat0 V c).leavesExact 2 t = owns (c : Thread nD τ) (ms0_2 t) fullShare ((dat0 V c).after 2 t) from by
      unfold Dat.leavesExact; rw [liveAt0_2 t], after0_2]
  rw [show (dat0 V c).leavesExact 3 t = owns (c : Thread nD τ) (ms0_3 t) fullShare ((dat0 V c).after 3 t) from by
      unfold Dat.leavesExact; rw [liveAt0_3 t], after0_3]
  rw [show (dat0 V c).leavesExact 4 t = owns (c : Thread nD τ) (ms0_4 t) fullShare ((dat0 V c).after 4 t) from by
      unfold Dat.leavesExact; rw [liveAt0_4 t], after0_4]
  rw [show (dat0 V c).leavesExact 5 t = owns (c : Thread nD τ) (ms0_5 t) fullShare ((dat0 V c).after 5 t) from by
      unfold Dat.leavesExact; rw [liveAt0_5 t], after0_5]
  by_cases h0 : t.val % 8 = 0
  · have h1 : ¬t.val % 8 = 7 := by omega
    rw [Dat.leavesExact_idle (dat0 V c) 6 t (idleAt0_6 t (fun h => h1 ((hcond0_1 t).mp h))) (noFlush0_6 t (fun h => h1 ((hcond0_1 t).mp h)))]
    rw [outsAt0_A V c t h0 h1]
    unfold soutA0_0 soutA0_1; (try dsimp only)
    by_cases hz : t.val = 0
    · rw [PhiS0_castSucc V c t, PhiS0_zero V c _ _ hz]
      iintro ⟨HΦ, Ho, ⟨%d0, H0⟩, ⟨%d1, H1⟩, ⟨%d2, H2⟩, ⟨%d3, H3⟩, ⟨%d4, H4⟩, ⟨%d5, H5⟩, ⟨%d6, H6⟩⟩
      ihave HΦ' := PhiA0_split c $$ HΦ
      icases HΦ' with ⟨HS0, HS1, HOth, Hg⟩
      iapply ((runA0 V c t h0 h1).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 HOth Hg]
      · isplitl [HS0]
        · unfold owns; iexists _; isplitr
          swap; · iexact HS0
          ipureintro; exact View.read_writes_of_cover _ _ _ _ _ (scoverA0_0 V c t h0 h1)
        isplitl [HS1]
        · unfold owns; iexists _; isplitr
          swap; · iexact HS1
          ipureintro; exact View.read_writes_of_cover _ _ _ _ _ (scoverA0_1 V c t h0 h1)
        isplitl [HOth]; · iexact HOth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS0_castSucc V c t, PhiS0_pos V c _ _ hz]
      iintro ⟨⟨HS0, HS1, HOth, Hg⟩, Ho, ⟨%d0, H0⟩, ⟨%d1, H1⟩, ⟨%d2, H2⟩, ⟨%d3, H3⟩, ⟨%d4, H4⟩, ⟨%d5, H5⟩, ⟨%d6, H6⟩⟩
      iapply ((runA0 V c t h0 h1).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      iintro ⟨H0, H1, H2, H3, H4, H5, H6, ⟨%es0, HS0⟩, ⟨%es1, HS1⟩⟩
      isplitl [HS0 HS1 HOth Hg]
      · isplitl [HS0]
        · unfold owns; iexists _; isplitr
          swap; · iexact HS0
          ipureintro; exact View.read_writes_of_cover _ _ _ _ _ (scoverA0_0 V c t h0 h1)
        isplitl [HS1]
        · unfold owns; iexists _; isplitr
          swap; · iexact HS1
          ipureintro; exact View.read_writes_of_cover _ _ _ _ _ (scoverA0_1 V c t h0 h1)
        isplitl [HOth]; · iexact HOth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    by_cases h1 : t.val % 8 = 7
    · rw [show (dat0 V c).leavesExact 6 t = owns (c : Thread nD τ) (ms0_6 t) fullShare ((dat0 V c).after 6 t) from by
        unfold Dat.leavesExact; rw [liveAt0_6 t ((hcond0_1 t).mpr h1)], after0_6]
      rw [outsAt0_C V c t h0 h1]
      unfold outC0_6 soutC0_0 soutC0_1; (try dsimp only)
      rw [PhiS0_castSucc V c t, PhiS0_pos V c _ _ hz]
      iintro ⟨⟨HS0, HS1, HOth, Hg⟩, Ho, ⟨%d0, H0⟩, ⟨%d1, H1⟩, ⟨%d2, H2⟩, ⟨%d3, H3⟩, ⟨%d4, H4⟩, ⟨%d5, H5⟩, ⟨%d6, H6⟩⟩
      iapply ((runC0 V c t h0 h1 _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, ⟨%e6, H6⟩, ⟨%es0, HS0⟩, ⟨%es1, HS1⟩⟩
      isplitl [HS0 HS1 HOth Hg]
      · isplitl [HS0]
        · unfold owns; iexists _; isplitr
          swap; · iexact HS0
          ipureintro; exact View.read_writes_of_cover _ _ _ _ _ (scoverC0_0 V c t h0 h1 _ _)
        isplitl [HS1]
        · unfold owns; iexists _; isplitr
          swap; · iexact HS1
          ipureintro; exact View.read_writes_of_cover _ _ _ _ _ (scoverC0_1 V c t h0 h1 _ _)
        isplitl [HOth]; · iexact HOth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverC0_6 V c t h0 h1 _ _)
    · rw [Dat.leavesExact_idle (dat0 V c) 6 t (idleAt0_6 t (fun h => h1 ((hcond0_1 t).mp h))) (noFlush0_6 t (fun h => h1 ((hcond0_1 t).mp h)))]
      rw [outsAt0_B V c t h0 h1]
      unfold soutB0_0 soutB0_1; (try dsimp only)
      rw [PhiS0_castSucc V c t, PhiS0_pos V c _ _ hz]
      iintro ⟨⟨HS0, HS1, HOth, Hg⟩, Ho, ⟨%d0, H0⟩, ⟨%d1, H1⟩, ⟨%d2, H2⟩, ⟨%d3, H3⟩, ⟨%d4, H4⟩, ⟨%d5, H5⟩, ⟨%d6, H6⟩⟩
      iapply ((runB0 V c t h0 h1 _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 HOth Hg]
      · isplitl [HS0]
        · unfold owns; iexists _; isplitr
          swap; · iexact HS0
          ipureintro; exact View.read_writes_of_cover _ _ _ _ _ (scoverB0_0 V c t h0 h1 _ _)
        isplitl [HS1]
        · unfold owns; iexists _; isplitr
          swap; · iexact HS1
          ipureintro; exact View.read_writes_of_cover _ _ _ _ _ (scoverB0_1 V c t h0 h1 _ _)
        isplitl [HOth]; · iexact HOth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is handed is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class invariant back: the accumulators' contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 256 := N_0; omega)]
  iintro ⟨HS0, HS1, HOth, Hg⟩
  iapply PhiA0_join c
  isplitl [HS0]; · iexists _; iexact HS0
  isplitl [HS1]; · iexists _; iexact HS1
  isplitl [HOth]; · iexact HOth
  iexact Hg

end Cert.Kernel.Fr

end
-- ==== Proof.KnR1Base.lean ====
import proofs.«154160_j33036888441278_1_alg».proof.Proof.Gen.Kernel.Launch
import proofs.«154160_j33036888441278_1_alg».proof.Proof.Gen.Kernel.Skeleton
import proofs.«154160_j33036888441278_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 1: what its runs share

The region is entered with the TensorCore's buffers at contents `V`. A grid point is a pair (batch tile, contraction
tile); the body zeroes its two accumulators where the contraction tile is the first, adds one tile's products at every
point, and gates and stores the output block where the contraction tile is the last. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not: where it is not fetched the
    block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not: where it is not fetched the
    block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not: where it is not fetched the
    block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not: where it is not fetched the
    block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not: where it is not fetched the
    block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, fetched there or not: where it is not fetched the
    block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The two branch conditions, decided over the grid -/

/-- The contraction tile is the first one. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The contraction tile is the last one. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Away from the last contraction tile the output block is neither stored into nor written back. -/
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
/-- At the last contraction tile it is stored. -/
theorem liveAt1_6 : ∀ t : Fin cfg1.N, cond1_1 (grid1.coords t) → cfg1.idle 6 (grid1.coords t) = false := by decide +kernel

/-! ## The memrefs the body is called with -/

abbrev ms1_0 (t : Fin cfg1.N) : Memref sig .tc .vmem S256x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S6144x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S6144x256 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x6144 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x6144 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S256x2048 .f32 := win1_6.stage (cfg1.slots t 6)
abbrev hs1_6 (t : Fin cfg1.N) : (ms1_6 t).IsWhole := hstage1_6 ((cfg1.slots t 6).cast nbuf1_6)
/-- One staging buffer of the output window, through which its contents are stated. -/
abbrev VO1_6 : View sig .tc .vmem S256x2048 .f32 := (Memref.whole cc1_stg6_0 : Memref sig .tc .vmem S256x2048 .f32).view
/-- The two accumulators: whole scoped buffers of the kernel's own. -/
abbrev scM1_0 : Memref sig .tc .vmem S256x6144 .f32 := Memref.whole cc1_scratch0
abbrev scM1_1 : Memref sig .tc .vmem S256x6144 .f32 := Memref.whole cc1_scratch1
abbrev VS1_0 : View sig .tc .vmem S256x6144 .f32 := scM1_0.view
abbrev VS1_1 : View sig .tc .vmem S256x6144 .f32 := scM1_1.view

/-- The scoped buffers of the core that belong to the other region: whole, at some contents. -/
def Oth1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- The class invariant (every scoped buffer no window stages, at some contents, and the generator register) with the
    two accumulators taken out. -/
theorem PhiA1_split (c : Dev nD) :
    (Pipeline.ΦA spec1 c : sProp 𝕄)
      ⊢ iprop((∃ d, owns (c : Thread nD τ) scM1_0 fullShare d) ∗ (∃ d, owns (c : Thread nD τ) scM1_1 fullShare d) ∗ Oth1 c ∗ (∃ g, prngReg c g)) := by
  unfold Pipeline.ΦA Oth1; rw [scopedRest1_eq]; simp only [scM1_0, scM1_1, owns_whole]
  iintro ⟨⟨O0, O1, O2, O3, O4, O5, O6, O7, O8, O9, O10, O11, O12, O13, HS0, HS1⟩, Hp⟩
  isplitl [HS0]; · iexact HS0
  isplitl [HS1]; · iexact HS1
  isplitr [Hp]
  · isplitl [O0]; · iexact O0
    isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    isplitl [O9]; · iexact O9
    isplitl [O10]; · iexact O10
    isplitl [O11]; · iexact O11
    isplitl [O12]; · iexact O12
    iexact O13
  iexact Hp

theorem PhiA1_join (c : Dev nD) :
    iprop((∃ d, owns (c : Thread nD τ) scM1_0 fullShare d) ∗ (∃ d, owns (c : Thread nD τ) scM1_1 fullShare d) ∗ Oth1 c ∗ (∃ g, prngReg c g))
      ⊢ (Pipeline.ΦA spec1 c : sProp 𝕄) := by
  unfold Pipeline.ΦA Oth1; rw [scopedRest1_eq]; simp only [scM1_0, scM1_1, owns_whole]
  iintro ⟨HS0, HS1, ⟨O0, O1, O2, O3, O4, O5, O6, O7, O8, O9, O10, O11, O12, O13⟩, Hp⟩
  isplitr [Hp]
  · isplitl [O0]; · iexact O0
    isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    isplitl [O9]; · iexact O9
    isplitl [O10]; · iexact O10
    isplitl [O11]; · iexact O11
    isplitl [O12]; · iexact O12
    isplitl [O13]; · iexact O13
    isplitl [HS0]; · iexact HS0
    iexact HS1
  iexact Hp

end Cert.Kernel.Fr

end
-- ==== Proof.KnR1RunA.lean ====
import proofs.«154160_j33036888441278_1_alg».proof.Proof.KnR1Base

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- (the run's proof term is large)
set_option maxHeartbeats 4000000 in
/-- The body on whole staging memrefs where the contraction tile is the first: the inputs' buffers at their
    contents and handed back as they were; the output's buffer handed back untouched; the two accumulators
    at anything, left with the pieces the body stored. The pieces are the witness the run finds. -/
noncomputable def kernelRun1_A (c : Dev nD) (i : grid1.Coords) (arg2 : Memref sig .tc .vmem S256x256 .f32) (harg2 : arg2.IsWhole) (arg3 : Memref sig .tc .vmem S6144x256 .bf16) (harg3 : arg3.IsWhole) (arg4 : Memref sig .tc .vmem S256x2048 .f32) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S256x2048 .f32) (harg8 : arg8.IsWhole) (arg9 : Memref sig .tc .vmem S256x6144 .f32) (harg9 : arg9.IsWhole) (arg10 : Memref sig .tc .vmem S256x6144 .f32) (harg10 : arg10.IsWhole) (hc0 : cond1_0 i) (hc1 : ¬cond1_1 i)
    (x0 : Vec F S256x256 .f32) (x1 : Vec F S6144x256 .bf16) (x2 : Vec F S256x2048 .f32) (x3 : Vec F S6144x256 .bf16) (x4 : Vec F S1x6144 .f32) (x5 : Vec F S1x6144 .f32) :
    Σ' (L6 : List (View.Piece (Elt F) S256x2048 .f32)) (LS0 : List (View.Piece (Elt F) S256x6144 .f32)), { LS1 : List (View.Piece (Elt F) S256x6144 .f32) //
      ∀ (xi6 : Vec F S256x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__gru_kernel i arg2 harg2 arg3 harg3 arg4 harg4 arg5 harg5 arg6 harg6 arg7 harg7 arg8 harg8 arg9 harg9 arg10 harg10) K } := by
  refine ⟨[], ?_, ?_, fun xi6 E K => ?run⟩
  case run =>
    simp only [cc1__gru_kernel_eq_skeleton]; unfold cc1__gru_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.Kernel.Fr

end
-- ==== Proof.KnR1RunB.lean ====
import proofs.«154160_j33036888441278_1_alg».proof.Proof.KnR1RunA

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- (the run's proof term is large)
set_option maxHeartbeats 4000000 in
/-- The body on whole staging memrefs where the contraction tile is neither the first nor the last: the inputs' buffers at their
    contents and handed back as they were; the output's buffer handed back untouched; the two accumulators
    at what the point before left, left with the pieces the body stored. The pieces are the witness the run finds. -/
noncomputable def kernelRun1_B (c : Dev nD) (i : grid1.Coords) (arg2 : Memref sig .tc .vmem S256x256 .f32) (harg2 : arg2.IsWhole) (arg3 : Memref sig .tc .vmem S6144x256 .bf16) (harg3 : arg3.IsWhole) (arg4 : Memref sig .tc .vmem S256x2048 .f32) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S256x2048 .f32) (harg8 : arg8.IsWhole) (arg9 : Memref sig .tc .vmem S256x6144 .f32) (harg9 : arg9.IsWhole) (arg10 : Memref sig .tc .vmem S256x6144 .f32) (harg10 : arg10.IsWhole) (hc0 : ¬cond1_0 i) (hc1 : ¬cond1_1 i)
    (x0 : Vec F S256x256 .f32) (x1 : Vec F S6144x256 .bf16) (x2 : Vec F S256x2048 .f32) (x3 : Vec F S6144x256 .bf16) (x4 : Vec F S1x6144 .f32) (x5 : Vec F S1x6144 .f32) (xs0 xs1 : Vec F S256x6144 .f32) :
    Σ' (L6 : List (View.Piece (Elt F) S256x2048 .f32)) (LS0 : List (View.Piece (Elt F) S256x6144 .f32)), { LS1 : List (View.Piece (Elt F) S256x6144 .f32) //
      ∀ (xi6 : Vec F S256x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__gru_kernel i arg2 harg2 arg3 harg3 arg4 harg4 arg5 harg5 arg6 harg6 arg7 harg7 arg8 harg8 arg9 harg9 arg10 harg10) K } := by
  refine ⟨[], ?_, ?_, fun xi6 E K => ?run⟩
  case run =>
    simp only [cc1__gru_kernel_eq_skeleton]; unfold cc1__gru_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.Kernel.Fr

end
-- ==== Proof.KnR1RunC.lean ====
import proofs.«154160_j33036888441278_1_alg».proof.Proof.KnR1RunB

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- (the run's proof term is large)
set_option maxHeartbeats 4000000 in
/-- The body on whole staging memrefs where the contraction tile is the last: the inputs' buffers at their
    contents and handed back as they were; the output's buffer at anything, left with the pieces the body stored; the two accumulators
    at what the point before left, left with the pieces the body stored. The pieces are the witness the run finds. -/
noncomputable def kernelRun1_C (c : Dev nD) (i : grid1.Coords) (arg2 : Memref sig .tc .vmem S256x256 .f32) (harg2 : arg2.IsWhole) (arg3 : Memref sig .tc .vmem S6144x256 .bf16) (harg3 : arg3.IsWhole) (arg4 : Memref sig .tc .vmem S256x2048 .f32) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S256x2048 .f32) (harg8 : arg8.IsWhole) (arg9 : Memref sig .tc .vmem S256x6144 .f32) (harg9 : arg9.IsWhole) (arg10 : Memref sig .tc .vmem S256x6144 .f32) (harg10 : arg10.IsWhole) (hc0 : ¬cond1_0 i) (hc1 : cond1_1 i)
    (x0 : Vec F S256x256 .f32) (x1 : Vec F S6144x256 .bf16) (x2 : Vec F S256x2048 .f32) (x3 : Vec F S6144x256 .bf16) (x4 : Vec F S1x6144 .f32) (x5 : Vec F S1x6144 .f32) (xs0 xs1 : Vec F S256x6144 .f32) :
    Σ' (L6 : List (View.Piece (Elt F) S256x2048 .f32)) (LS0 : List (View.Piece (Elt F) S256x6144 .f32)), { LS1 : List (View.Piece (Elt F) S256x6144 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__gru_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc1__gru_kernel_eq_skeleton]; unfold cc1__gru_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    iexists _; iexact HS1

end Cert.Kernel.Fr

end
-- ==== Proof.KnR1Frame.lean ====
import proofs.«154160_j33036888441278_1_alg».proof.Proof.KnR1RunC

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: what the accumulators and the output block hold point by point, and the body obligation -/

/-- The body's run at point `t`, on the memrefs the pipeline passes there and the input blocks read off `V`. -/
def runA1 (c : Dev nD) (t : Fin cfg1.N) (h0 : t.val % 8 = 0) (h1 : ¬t.val % 8 = 7) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)

/-- Its pieces for accumulator 0 tile the buffer, so they cover it. -/
theorem scoverA1_0 (c : Dev nD) (t : Fin cfg1.N) (h0 : t.val % 8 = 0) (h1 : ¬t.val % 8 = 7) (y : S256x6144.Idx) :
    ∃ pc ∈ (runA1 V c t h0 h1).2.1, y ∈ pc.1.set :=
  View.cover_of_tiledL (runA1 V c t h0 h1).2.1 S256x6144.size (by sl_kernel_rfl) y

/-- What it leaves in accumulator 0: its pieces read back. -/
def soutA1_0 (c : Dev nD) (t : Fin cfg1.N) (h0 : t.val % 8 = 0) (h1 : ¬t.val % 8 = 7) : Vec F S256x6144 .f32 :=
  VS1_0.read (Elt F) (VS1_0.writes (Elt F) VS1_0.junk (runA1 V c t h0 h1).2.1)

/-- Its pieces for accumulator 1 tile the buffer, so they cover it. -/
theorem scoverA1_1 (c : Dev nD) (t : Fin cfg1.N) (h0 : t.val % 8 = 0) (h1 : ¬t.val % 8 = 7) (y : S256x6144.Idx) :
    ∃ pc ∈ (runA1 V c t h0 h1).2.2.1, y ∈ pc.1.set :=
  View.cover_of_tiledL (runA1 V c t h0 h1).2.2.1 S256x6144.size (by sl_kernel_rfl) y

/-- What it leaves in accumulator 1: its pieces read back. -/
def soutA1_1 (c : Dev nD) (t : Fin cfg1.N) (h0 : t.val % 8 = 0) (h1 : ¬t.val % 8 = 7) : Vec F S256x6144 .f32 :=
  VS1_1.read (Elt F) (VS1_1.writes (Elt F) VS1_1.junk (runA1 V c t h0 h1).2.2.1)

/-- The body's run at point `t`, on the memrefs the pipeline passes there and the input blocks read off `V`. -/
def runB1 (c : Dev nD) (t : Fin cfg1.N) (h0 : ¬t.val % 8 = 0) (h1 : ¬t.val % 8 = 7) (xs0 xs1 : Vec F S256x6144 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) xs0 xs1

/-- Its pieces for accumulator 0 tile the buffer, so they cover it. -/
theorem scoverB1_0 (c : Dev nD) (t : Fin cfg1.N) (h0 : ¬t.val % 8 = 0) (h1 : ¬t.val % 8 = 7) (xs0 xs1 : Vec F S256x6144 .f32) (y : S256x6144.Idx) :
    ∃ pc ∈ (runB1 V c t h0 h1 xs0 xs1).2.1, y ∈ pc.1.set :=
  View.cover_of_tiledL (runB1 V c t h0 h1 xs0 xs1).2.1 S256x6144.size (by sl_kernel_rfl) y

/-- What it leaves in accumulator 0: its pieces read back. -/
def soutB1_0 (c : Dev nD) (t : Fin cfg1.N) (h0 : ¬t.val % 8 = 0) (h1 : ¬t.val % 8 = 7) (xs0 xs1 : Vec F S256x6144 .f32) : Vec F S256x6144 .f32 :=
  VS1_0.read (Elt F) (VS1_0.writes (Elt F) VS1_0.junk (runB1 V c t h0 h1 xs0 xs1).2.1)

/-- Its pieces for accumulator 1 tile the buffer, so they cover it. -/
theorem scoverB1_1 (c : Dev nD) (t : Fin cfg1.N) (h0 : ¬t.val % 8 = 0) (h1 : ¬t.val % 8 = 7) (xs0 xs1 : Vec F S256x6144 .f32) (y : S256x6144.Idx) :
    ∃ pc ∈ (runB1 V c t h0 h1 xs0 xs1).2.2.1, y ∈ pc.1.set :=
  View.cover_of_tiledL (runB1 V c t h0 h1 xs0 xs1).2.2.1 S256x6144.size (by sl_kernel_rfl) y

/-- What it leaves in accumulator 1: its pieces read back. -/
def soutB1_1 (c : Dev nD) (t : Fin cfg1.N) (h0 : ¬t.val % 8 = 0) (h1 : ¬t.val % 8 = 7) (xs0 xs1 : Vec F S256x6144 .f32) : Vec F S256x6144 .f32 :=
  VS1_1.read (Elt F) (VS1_1.writes (Elt F) VS1_1.junk (runB1 V c t h0 h1 xs0 xs1).2.2.1)

/-- The body's run at point `t`, on the memrefs the pipeline passes there and the input blocks read off `V`. -/
def runC1 (c : Dev nD) (t : Fin cfg1.N) (h0 : ¬t.val % 8 = 0) (h1 : t.val % 8 = 7) (xs0 xs1 : Vec F S256x6144 .f32) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) xs0 xs1

/-- Its pieces for accumulator 0 tile the buffer, so they cover it. -/
theorem scoverC1_0 (c : Dev nD) (t : Fin cfg1.N) (h0 : ¬t.val % 8 = 0) (h1 : t.val % 8 = 7) (xs0 xs1 : Vec F S256x6144 .f32) (y : S256x6144.Idx) :
    ∃ pc ∈ (runC1 V c t h0 h1 xs0 xs1).2.1, y ∈ pc.1.set :=
  View.cover_of_tiledL (runC1 V c t h0 h1 xs0 xs1).2.1 S256x6144.size (by sl_kernel_rfl) y

/-- What it leaves in accumulator 0: its pieces read back. -/
def soutC1_0 (c : Dev nD) (t : Fin cfg1.N) (h0 : ¬t.val % 8 = 0) (h1 : t.val % 8 = 7) (xs0 xs1 : Vec F S256x6144 .f32) : Vec F S256x6144 .f32 :=
  VS1_0.read (Elt F) (VS1_0.writes (Elt F) VS1_0.junk (runC1 V c t h0 h1 xs0 xs1).2.1)

/-- Its pieces for accumulator 1 tile the buffer, so they cover it. -/
theorem scoverC1_1 (c : Dev nD) (t : Fin cfg1.N) (h0 : ¬t.val % 8 = 0) (h1 : t.val % 8 = 7) (xs0 xs1 : Vec F S256x6144 .f32) (y : S256x6144.Idx) :
    ∃ pc ∈ (runC1 V c t h0 h1 xs0 xs1).2.2.1, y ∈ pc.1.set :=
  View.cover_of_tiledL (runC1 V c t h0 h1 xs0 xs1).2.2.1 S256x6144.size (by sl_kernel_rfl) y

/-- What it leaves in accumulator 1: its pieces read back. -/
def soutC1_1 (c : Dev nD) (t : Fin cfg1.N) (h0 : ¬t.val % 8 = 0) (h1 : t.val % 8 = 7) (xs0 xs1 : Vec F S256x6144 .f32) : Vec F S256x6144 .f32 :=
  VS1_1.read (Elt F) (VS1_1.writes (Elt F) VS1_1.junk (runC1 V c t h0 h1 xs0 xs1).2.2.1)

/-- At the last contraction tile the body's pieces for the output block tile it, so they cover it. -/
theorem coverC1_6 (c : Dev nD) (t : Fin cfg1.N) (h0 : ¬t.val % 8 = 0) (h1 : t.val % 8 = 7) (xs0 xs1 : Vec F S256x6144 .f32) (y : S256x2048.Idx) :
    ∃ pc ∈ (runC1 V c t h0 h1 xs0 xs1).1, y ∈ pc.1.set :=
  View.cover_of_tiledL (runC1 V c t h0 h1 xs0 xs1).1 S256x2048.size (by sl_kernel_rfl) y

/-- What it leaves in the output's staging buffer there. -/
def outC1_6 (c : Dev nD) (t : Fin cfg1.N) (h0 : ¬t.val % 8 = 0) (h1 : t.val % 8 = 7) (xs0 xs1 : Vec F S256x6144 .f32) : Vec F S256x2048 .f32 :=
  VO1_6.read (Elt F) (VO1_6.writes (Elt F) VO1_6.junk (runC1 V c t h0 h1 xs0 xs1).1)

/-- Where the output block is not stored its staging buffer's contents are never consulted: a placeholder. -/
def idle1_6 : Vec F S256x2048 .f32 := VO1_6.read (Elt F) (VO1_6.writes (Elt F) VO1_6.junk [])

/-- THE ACCUMULATION: after the body at position `n`, the output's staging buffer and the two accumulators. At a first
    contraction tile the accumulators start from zero; elsewhere they continue from what position `n - 1` left. -/
def outsAt1 (c : Dev nD) : (n : ℕ) → n < cfg1.N → Vec F S256x2048 .f32 × Vec F S256x6144 .f32 × Vec F S256x6144 .f32
  | 0, hn => (idle1_6, soutA1_0 V c ⟨0, hn⟩ (Nat.zero_mod _) (fun h => (by decide : ¬ (0 % 8 = 7)) h), soutA1_1 V c ⟨0, hn⟩ (Nat.zero_mod _) (fun h => (by decide : ¬ (0 % 8 = 7)) h))
  | n + 1, hn =>
    if h0 : (n + 1) % 8 = 0 then
      (idle1_6, soutA1_0 V c ⟨n + 1, hn⟩ h0 (fun h => by have h' : (n + 1) % 8 = 7 := h; omega), soutA1_1 V c ⟨n + 1, hn⟩ h0 (fun h => by have h' : (n + 1) % 8 = 7 := h; omega))
    else if h1 : (n + 1) % 8 = 7 then
      (outC1_6 V c ⟨n + 1, hn⟩ h0 h1 (outsAt1 c n (Nat.lt_of_succ_lt hn)).2.1 (outsAt1 c n (Nat.lt_of_succ_lt hn)).2.2,
        soutC1_0 V c ⟨n + 1, hn⟩ h0 h1 (outsAt1 c n (Nat.lt_of_succ_lt hn)).2.1 (outsAt1 c n (Nat.lt_of_succ_lt hn)).2.2,
        soutC1_1 V c ⟨n + 1, hn⟩ h0 h1 (outsAt1 c n (Nat.lt_of_succ_lt hn)).2.1 (outsAt1 c n (Nat.lt_of_succ_lt hn)).2.2)
    else
      (idle1_6,
        soutB1_0 V c ⟨n + 1, hn⟩ h0 h1 (outsAt1 c n (Nat.lt_of_succ_lt hn)).2.1 (outsAt1 c n (Nat.lt_of_succ_lt hn)).2.2,
        soutB1_1 V c ⟨n + 1, hn⟩ h0 h1 (outsAt1 c n (Nat.lt_of_succ_lt hn)).2.1 (outsAt1 c n (Nat.lt_of_succ_lt hn)).2.2)

/-- The contents before point `t` when it is not the first: what point `t - 1` left. -/
abbrev prev1 (c : Dev nD) (t : Fin cfg1.N) := outsAt1 V c (t.val - 1) (Nat.lt_of_le_of_lt (Nat.sub_le _ _) t.isLt)

theorem outsAt1_A (c : Dev nD) (t : Fin cfg1.N) (h0 : t.val % 8 = 0) (h1 : ¬t.val % 8 = 7) :
    outsAt1 V c t.val t.isLt = (idle1_6, soutA1_0 V c t h0 h1, soutA1_1 V c t h0 h1) := by
  obtain ⟨n, hn⟩ := t
  cases n with
  | zero => exact rfl
  | succ n => exact (dif_pos h0).trans rfl

theorem outsAt1_B (c : Dev nD) (t : Fin cfg1.N) (h0 : ¬t.val % 8 = 0) (h1 : ¬t.val % 8 = 7) :
    outsAt1 V c t.val t.isLt = (idle1_6, soutB1_0 V c t h0 h1 (prev1 V c t).2.1 (prev1 V c t).2.2, soutB1_1 V c t h0 h1 (prev1 V c t).2.1 (prev1 V c t).2.2) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (outC1_6 V c t h0 h1 (prev1 V c t).2.1 (prev1 V c t).2.2, soutC1_0 V c t h0 h1 (prev1 V c t).2.1 (prev1 V c t).2.2, soutC1_1 V c t h0 h1 (prev1 V c t).2.1 (prev1 V c t).2.2) := by
  obtain ⟨n, hn⟩ := t
  cases n with
  | zero => exact absurd (Nat.zero_mod _) h0
  | succ n => exact (dif_neg h0).trans ((dif_pos h1).trans rfl)

/-- The region invariant before position `n`: before the first point every scoped buffer no window stages at anything;
    afterwards the two accumulators at what the point before left, the other region's buffers at anything, and the
    generator register at some state. -/
def PhiS1 (c : Dev nD) : (n : ℕ) → n ≤ cfg1.N → sProp 𝕄
  | 0, _ => Pipeline.ΦA spec1 c
  | n + 1, hn => iprop(owns (c : Thread nD τ) scM1_0 fullShare (outsAt1 V c n hn).2.1 ∗ owns (c : Thread nD τ) scM1_1 fullShare (outsAt1 V c n hn).2.2 ∗ Oth1 c ∗ (∃ g, prngReg c g))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1_0 fullShare (outsAt1 V c n hn).2.1 ∗ owns (c : Thread nD τ) scM1_1 fullShare (outsAt1 V c n hn).2.2 ∗ Oth1 c ∗ (∃ g, prngReg c g)) := rfl

theorem PhiS1_pos (c : Dev nD) (n : ℕ) (h : n ≤ cfg1.N) (hz : n ≠ 0) :
    PhiS1 V c n h = iprop(owns (c : Thread nD τ) scM1_0 fullShare (outsAt1 V c (n - 1) (by omega)).2.1 ∗ owns (c : Thread nD τ) scM1_1 fullShare (outsAt1 V c (n - 1) (by omega)).2.2 ∗ Oth1 c ∗ (∃ g, prngReg c g)) := by
  cases n with
  | zero => exact absurd rfl hz
  | succ n => rfl

/-! ## The pipeline's proof data -/

/-- The arrays as the region finds them; after the body at point `t` each input's buffer at its block and the output's
    at `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 8000000 in
/-- The body at any point. The inputs' memrefs hold their blocks; the point's contraction tile says which run applies;
    the invariant hands the body the accumulators at what the point before left (at anything before the first point)
    and takes them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [show (dat1 V c).leavesExact 3 t = owns (c : Thread nD τ) (ms1_3 t) fullShare ((dat1 V c).after 3 t) from by
      unfold Dat.leavesExact; rw [liveAt1_3 t], after1_3]
  rw [show (dat1 V c).leavesExact 4 t = owns (c : Thread nD τ) (ms1_4 t) fullShare ((dat1 V c).after 4 t) from by
      unfold Dat.leavesExact; rw [liveAt1_4 t], after1_4]
  rw [show (dat1 V c).leavesExact 5 t = owns (c : Thread nD τ) (ms1_5 t) fullShare ((dat1 V c).after 5 t) from by
      unfold Dat.leavesExact; rw [liveAt1_5 t], after1_5]
  by_cases h0 : t.val % 8 = 0
  · have h1 : ¬t.val % 8 = 7 := by omega
    rw [Dat.leavesExact_idle (dat1 V c) 6 t (idleAt1_6 t (fun h => h1 ((hcond1_1 t).mp h))) (noFlush1_6 t (fun h => h1 ((hcond1_1 t).mp h)))]
    rw [outsAt1_A V c t h0 h1]
    unfold soutA1_0 soutA1_1; (try dsimp only)
    by_cases hz : t.val = 0
    · rw [PhiS1_castSucc V c t, PhiS1_zero V c _ _ hz]
      iintro ⟨HΦ, Ho, ⟨%d0, H0⟩, ⟨%d1, H1⟩, ⟨%d2, H2⟩, ⟨%d3, H3⟩, ⟨%d4, H4⟩, ⟨%d5, H5⟩, ⟨%d6, H6⟩⟩
      ihave HΦ' := PhiA1_split c $$ HΦ
      icases HΦ' with ⟨HS0, HS1, HOth, Hg⟩
      iapply ((runA1 V c t h0 h1).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 HOth Hg]
      · isplitl [HS0]
        · unfold owns; iexists _; isplitr
          swap; · iexact HS0
          ipureintro; exact View.read_writes_of_cover _ _ _ _ _ (scoverA1_0 V c t h0 h1)
        isplitl [HS1]
        · unfold owns; iexists _; isplitr
          swap; · iexact HS1
          ipureintro; exact View.read_writes_of_cover _ _ _ _ _ (scoverA1_1 V c t h0 h1)
        isplitl [HOth]; · iexact HOth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS1_castSucc V c t, PhiS1_pos V c _ _ hz]
      iintro ⟨⟨HS0, HS1, HOth, Hg⟩, Ho, ⟨%d0, H0⟩, ⟨%d1, H1⟩, ⟨%d2, H2⟩, ⟨%d3, H3⟩, ⟨%d4, H4⟩, ⟨%d5, H5⟩, ⟨%d6, H6⟩⟩
      iapply ((runA1 V c t h0 h1).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      iintro ⟨H0, H1, H2, H3, H4, H5, H6, ⟨%es0, HS0⟩, ⟨%es1, HS1⟩⟩
      isplitl [HS0 HS1 HOth Hg]
      · isplitl [HS0]
        · unfold owns; iexists _; isplitr
          swap; · iexact HS0
          ipureintro; exact View.read_writes_of_cover _ _ _ _ _ (scoverA1_0 V c t h0 h1)
        isplitl [HS1]
        · unfold owns; iexists _; isplitr
          swap; · iexact HS1
          ipureintro; exact View.read_writes_of_cover _ _ _ _ _ (scoverA1_1 V c t h0 h1)
        isplitl [HOth]; · iexact HOth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    by_cases h1 : t.val % 8 = 7
    · rw [show (dat1 V c).leavesExact 6 t = owns (c : Thread nD τ) (ms1_6 t) fullShare ((dat1 V c).after 6 t) from by
        unfold Dat.leavesExact; rw [liveAt1_6 t ((hcond1_1 t).mpr h1)], after1_6]
      rw [outsAt1_C V c t h0 h1]
      unfold outC1_6 soutC1_0 soutC1_1; (try dsimp only)
      rw [PhiS1_castSucc V c t, PhiS1_pos V c _ _ hz]
      iintro ⟨⟨HS0, HS1, HOth, Hg⟩, Ho, ⟨%d0, H0⟩, ⟨%d1, H1⟩, ⟨%d2, H2⟩, ⟨%d3, H3⟩, ⟨%d4, H4⟩, ⟨%d5, H5⟩, ⟨%d6, H6⟩⟩
      iapply ((runC1 V c t h0 h1 _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, ⟨%e6, H6⟩, ⟨%es0, HS0⟩, ⟨%es1, HS1⟩⟩
      isplitl [HS0 HS1 HOth Hg]
      · isplitl [HS0]
        · unfold owns; iexists _; isplitr
          swap; · iexact HS0
          ipureintro; exact View.read_writes_of_cover _ _ _ _ _ (scoverC1_0 V c t h0 h1 _ _)
        isplitl [HS1]
        · unfold owns; iexists _; isplitr
          swap; · iexact HS1
          ipureintro; exact View.read_writes_of_cover _ _ _ _ _ (scoverC1_1 V c t h0 h1 _ _)
        isplitl [HOth]; · iexact HOth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverC1_6 V c t h0 h1 _ _)
    · rw [Dat.leavesExact_idle (dat1 V c) 6 t (idleAt1_6 t (fun h => h1 ((hcond1_1 t).mp h))) (noFlush1_6 t (fun h => h1 ((hcond1_1 t).mp h)))]
      rw [outsAt1_B V c t h0 h1]
      unfold soutB1_0 soutB1_1; (try dsimp only)
      rw [PhiS1_castSucc V c t, PhiS1_pos V c _ _ hz]
      iintro ⟨⟨HS0, HS1, HOth, Hg⟩, Ho, ⟨%d0, H0⟩, ⟨%d1, H1⟩, ⟨%d2, H2⟩, ⟨%d3, H3⟩, ⟨%d4, H4⟩, ⟨%d5, H5⟩, ⟨%d6, H6⟩⟩
      iapply ((runB1 V c t h0 h1 _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 HOth Hg]
      · isplitl [HS0]
        · unfold owns; iexists _; isplitr
          swap; · iexact HS0
          ipureintro; exact View.read_writes_of_cover _ _ _ _ _ (scoverB1_0 V c t h0 h1 _ _)
        isplitl [HS1]
        · unfold owns; iexists _; isplitr
          swap; · iexact HS1
          ipureintro; exact View.read_writes_of_cover _ _ _ _ _ (scoverB1_1 V c t h0 h1 _ _)
        isplitl [HOth]; · iexact HOth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is handed is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the accumulators' contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 256 := N_1; omega)]
  iintro ⟨HS0, HS1, HOth, Hg⟩
  iapply PhiA1_join c
  isplitl [HS0]; · iexists _; iexact HS0
  isplitl [HS1]; · iexists _; iexact HS1
  isplitl [HOth]; · iexact HOth
  iexact Hg

end Cert.Kernel.Fr

end
-- ==== Proof.KnMain.lean ====
import proofs.«154160_j33036888441278_1_alg».proof.Proof.KnR0Frame
import proofs.«154160_j33036888441278_1_alg».proof.Proof.KnR1Frame
import proofs.«154160_j33036888441278_1_alg».proof.Proof.Gen.Kernel.Regions

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: the program's five segments from the launch to the return

Host operations, the first layer's region, host operations, the second layer's region, and the final concatenation.
The buffer contents at each boundary are a fold from the launch memory. -/

/-- Core `c`'s buffers at launch. -/
abbrev W0 : Dev nD → Valuation τ sig (Elt F) := fun c b => (s₀ m ρ).mem ((c : Dev nD), b)
/-- After the first host stretch: region 0's entry. -/
abbrev W1 : Dev nD → Valuation τ sig (Elt F) := fun c => StableHlo.after hostOps0 (W0 m ρ c)
abbrev En1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (En1 m ρ) c).arrAt w cfg0.N
theorem W2_arr (c : Dev nD) (w : Fin cfg0.W) :
    W2 m ρ c (Proc.devRef .tc (Pipeline.arrRef spec0 w)) = (dat0 (En1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Ex2 : (c : Dev nD) → (b : Ref sig .tc) → Buf (Elt F) ((c : Thread nD τ).loc b) := fun c b => W2 m ρ c b
theorem hF0 (c : Dev nD) (w : Fin cfg0.W) : (dat0 (En1 m ρ) c).arrAt w cfg0.N = Ex2 m ρ c (Pipeline.arrRef spec0 w) :=
  (W2_arr m ρ c w).symm
theorem hrest0 (c : Dev nD) : ∀ b, b ∉ Finset.univ.image (Pipeline.arrRef spec0) → Ex2 m ρ c b = En1 m ρ c b :=
  fun b hb => W2_of_ne m ρ c b fun w e => hb (Finset.mem_image.mpr ⟨w, Finset.mem_univ _, e⟩)

/-- After the second host stretch: region 1's entry. -/
abbrev W3 : Dev nD → Valuation τ sig (Elt F) := fun c => StableHlo.after hostOps1 (W2 m ρ c)
abbrev En3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (En3 m ρ) c).arrAt w cfg1.N
theorem W4_arr (c : Dev nD) (w : Fin cfg1.W) :
    W4 m ρ c (Proc.devRef .tc (Pipeline.arrRef spec1 w)) = (dat1 (En3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev Ex4 : (c : Dev nD) → (b : Ref sig .tc) → Buf (Elt F) ((c : Thread nD τ).loc b) := fun c b => W4 m ρ c b
theorem hF1 (c : Dev nD) (w : Fin cfg1.W) : (dat1 (En3 m ρ) c).arrAt w cfg1.N = Ex4 m ρ c (Pipeline.arrRef spec1 w) :=
  (W4_arr m ρ c w).symm
theorem hrest1 (c : Dev nD) : ∀ b, b ∉ Finset.univ.image (Pipeline.arrRef spec1) → Ex4 m ρ c b = En3 m ρ c b :=
  fun b hb => W4_of_ne m ρ c b fun w e => hb (Finset.mem_image.mpr ⟨w, Finset.mem_univ _, e⟩)

/-- After the last host stretch: the end. -/
abbrev W5 : Dev nD → Valuation τ sig (Elt F) := fun c => StableHlo.after hostOps2 (W4 m ρ c)

/-! ### The arguments end as launched: no host operation writes one and no region's output is one -/

/-- A buffer no host stretch writes and no region stages keeps its launch contents to the end. -/
theorem W5_untouched (c : Dev nD) (b : Ref sig .tc) (h2 : b ∉ hostOps2_W) (h4 : ∀ w, Pipeline.arrRef spec1 w ≠ b)
    (h3 : b ∉ hostOps1_W) (h2' : ∀ w, Pipeline.arrRef spec0 w ≠ b) (h1 : b ∉ hostOps0_W) :
    W5 m ρ c (Proc.devRef .tc b) = m ((c : Thread nD τ).loc b) :=
  calc W5 m ρ c (Proc.devRef .tc b)
    _ = W4 m ρ c (Proc.devRef .tc b) := StableHlo.after_of_writes_sub hostOps2 _ hostOps2_writes h2
    _ = W3 m ρ c (Proc.devRef .tc b) := W4_of_ne m ρ c b h4
    _ = W2 m ρ c (Proc.devRef .tc b) := StableHlo.after_of_writes_sub hostOps1 _ hostOps1_writes h3
    _ = W1 m ρ c (Proc.devRef .tc b) := W2_of_ne m ρ c b h2'
    _ = W0 m ρ c (Proc.devRef .tc b) := StableHlo.after_of_writes_sub hostOps0 _ hostOps0_writes h1
    _ = m ((c : Thread nD τ).loc b) := rfl

/-- The first argument is region 0's first input window's array: staged, never written back. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (En1 m ρ) c).arrAt_in 0 rfl _).trans (A_eq0 (En1 m ρ) c 0))
    _ = W0 m ρ c (Proc.devRef .tc main_arg0) := StableHlo.after_of_writes_sub hostOps0 _ hostOps0_writes (by decide)
    _ = m ((c : Thread nD τ).loc main_arg0) := rfl

/-! ## The proof data family and the thread state -/

abbrev admR : (p : Fin 2) → (pcfgs (F := F) p).Adm := fun p => (cfgs p).toPCfg_adm
/-- Each pipeline's proof data at its region's entry contents. -/
def pdatsR : (p : Fin 2) → (c : Dev nD) → Dat τ (Elt F) Unit ℕ (UR sig nD τ) ℕ (Pipeline.pin (pcfgs (F := F)) admR p) c
  | ⟨0, _⟩ => fun c => dat0 (En1 m ρ) c
  | ⟨1, _⟩ => fun c => dat1 (En3 m ρ) c
abbrev 𝒱R : Variants := Variants.none
abbrev LR : GSem nD τ sig → Finset Unit := fun _ => ∅
abbrev lvR : GSem nD τ sig → Unit → ℕ := fun _ _ => 0
/-- What rides beside the buffers through every segment: the generator register at some state and the core owing nothing. -/
abbrev Ride (c : Dev nD) : sProp 𝕄 := iprop((∃ g, prngReg c g) ∗ ∃ W, owes (c : Thread nD τ) (0 : CellTallies nD τ sig Unit) W)
/-- A host stretch as a segment over the unscoped references. -/
abbrev hsegR (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱R LR lvR :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Ride

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev TnR (c : Dev nD) : sProp 𝕄 := iprop(StableHlo.held (c : Thread nD τ) (Pipeline.ucRefs τ sig) (W5 m ρ c) ∗ ∃ g, prngReg c g)

set_option backward.isDefEq.respectTransparency.types false in
/-- Region 0 over the thread state: entered with every unscoped buffer at the boundary's contents, left with its
    windows' arrays at what the pipeline's write-backs leave and every other buffer as entered. Its arrays are split
    out of the unscoped buffers and put back at the exit; the generator register goes into the region's invariant and
    comes back; nothing is owed; the kernel has no semaphore of its own. -/
def reg0 : Pipeline.RegionSeg (pcfgs (F := F)) admR (pdatsR m ρ) () defs₀ 𝒱R LR lvR 0 where
  win := launch0.win.to₀
  block_pos := launch0.block_pos
  stage_whole := launch0.stage_whole
  K := PEmpty
  osem k := k.elim
  ho := Pipeline.OwnSemFacts.none _
  hbody c := (body_obligation0 (En1 m ρ) c).loose
  hwaits := Pipeline.hwaits_of_owed_zero _ _ _ _ LR lvR 0 fun _ _ => rfl
  pre c := iprop(StableHlo.held (c : Thread nD τ) (Pipeline.ucRefs τ sig) (W1 m ρ c) ∗ Ride c)
  post c := iprop(StableHlo.held (c : Thread nD τ) (Pipeline.ucRefs τ sig) (W2 m ρ c) ∗ Ride c)
  X c := iprop(∃ g, prngReg c g)
  Y c := iprop(∃ g, prngReg c g)
  Z c := Pipeline.unscopedRest (Ix := Unit) (Name := ℕ) (U := UR sig nD τ) (Lvl := ℕ) spec0 c (En1 m ρ c)
  hentry c := by
    rw [Pipeline.ownSems0_none]
    have hsplit := Pipeline.arrays_of_unscopedBufs (p := 0) (pcfgs (F := F)) admR (pdatsR m ρ) launch0.win launch0.arr_whole c
      ((pdatsR m ρ 0 c).share_full fun _ => rfl) (En1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    iintro ⟨Hp, -, Hr⟩
    iapply (show Pipeline.ΦA spec0 c ⊢ (pdatsR m ρ 0 c).Φ 0 from hin0 (En1 m ρ) c)
    unfold Pipeline.ΦA
    isplitl [Hr]; · iexact Hr
    iexact Hp
  hout c := by
    rw [Pipeline.ownSems0_none]
    iintro HΦ
    ihave HA := (show (pdatsR m ρ 0 c).Φ (Fin.last _) ⊢ Pipeline.ΦA spec0 c from hout0 (En1 m ρ) c) $$ HΦ
    unfold Pipeline.ΦA
    icases HA with ⟨Hr, Hp⟩
    isplitl [Hp]; · iexact Hp
    isplitr; · iempintro
    iexact Hr
  hexit c := by
    have hjoin := Pipeline.unscopedBufs_of_arrays (p := 0) (pcfgs (F := F)) admR (Ix := Unit) (Name := ℕ) (U := UR sig nD τ) (Lvl := ℕ)
      launch0.win launch0.arr_whole c (pdatsR m ρ) ((pdatsR m ρ 0 c).share_full fun _ => rfl)
      (En1 m ρ c) (Ex2 m ρ c) ((pdatsR m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the boundary's contents, left with its
    windows' arrays at what the pipeline's write-backs leave and every other buffer as entered. Its arrays are split
    out of the unscoped buffers and put back at the exit; the generator register goes into the region's invariant and
    comes back; nothing is owed; the kernel has no semaphore of its own. -/
def reg1 : Pipeline.RegionSeg (pcfgs (F := F)) admR (pdatsR m ρ) () defs₀ 𝒱R LR lvR 1 where
  win := launch1.win.to₀
  block_pos := launch1.block_pos
  stage_whole := launch1.stage_whole
  K := PEmpty
  osem k := k.elim
  ho := Pipeline.OwnSemFacts.none _
  hbody c := (body_obligation1 (En3 m ρ) c).loose
  hwaits := Pipeline.hwaits_of_owed_zero _ _ _ _ LR lvR 1 fun _ _ => rfl
  pre c := iprop(StableHlo.held (c : Thread nD τ) (Pipeline.ucRefs τ sig) (W3 m ρ c) ∗ Ride c)
  post c := iprop(StableHlo.held (c : Thread nD τ) (Pipeline.ucRefs τ sig) (W4 m ρ c) ∗ Ride c)
  X c := iprop(∃ g, prngReg c g)
  Y c := iprop(∃ g, prngReg c g)
  Z c := Pipeline.unscopedRest (Ix := Unit) (Name := ℕ) (U := UR sig nD τ) (Lvl := ℕ) spec1 c (En3 m ρ c)
  hentry c := by
    rw [Pipeline.ownSems0_none]
    have hsplit := Pipeline.arrays_of_unscopedBufs (p := 1) (pcfgs (F := F)) admR (pdatsR m ρ) launch1.win launch1.arr_whole c
      ((pdatsR m ρ 1 c).share_full fun _ => rfl) (En3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    iintro ⟨Hp, -, Hr⟩
    iapply (show Pipeline.ΦA spec1 c ⊢ (pdatsR m ρ 1 c).Φ 0 from hin1 (En3 m ρ) c)
    unfold Pipeline.ΦA
    isplitl [Hr]; · iexact Hr
    iexact Hp
  hout c := by
    rw [Pipeline.ownSems0_none]
    iintro HΦ
    ihave HA := (show (pdatsR m ρ 1 c).Φ (Fin.last _) ⊢ Pipeline.ΦA spec1 c from hout1 (En3 m ρ) c) $$ HΦ
    unfold Pipeline.ΦA
    icases HA with ⟨Hr, Hp⟩
    isplitl [Hp]; · iexact Hp
    isplitr; · iempintro
    iexact Hr
  hexit c := by
    have hjoin := Pipeline.unscopedBufs_of_arrays (p := 1) (pcfgs (F := F)) admR (Ix := Unit) (Name := ℕ) (U := UR sig nD τ) (Lvl := ℕ)
      launch1.win launch1.arr_whole c (pdatsR m ρ) ((pdatsR m ρ 1 c).share_full fun _ => rfl)
      (En3 m ρ c) (Ex4 m ρ c) ((pdatsR m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segsR : List (Pipeline.Seg (pcfgs (F := F)) admR (pdatsR m ρ) () defs₀ 𝒱R LR lvR) :=
  [ .host (hsegR hostOps0 hostOps0_sub hostOps0_fresh (W0 m ρ)),
    .region (reg0 m ρ),
    .host (hsegR hostOps1 hostOps1_sub hostOps1_fresh (W2 m ρ)),
    .region (reg1 m ρ),
    .host (hsegR hostOps2 hostOps2_sub hostOps2_fresh (W4 m ρ)) ]
theorem main_runR (c : Dev nD) : main (F := F) c = Pipeline.Seg.run (segsR m ρ) := (main_chain c).trans (by chain_rfl)

set_option backward.isDefEq.respectTransparency.types false in
/-- THE RUN. From any memory with zero counters, every weakly fair execution of the program on the TensorCores terminates,
    nothing faulting, and every final state has every unscoped buffer at the fold's last contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) admR (pdatsR m ρ) () cellOf_inj emb₁ defs₀ 𝒱R LR lvR m ρ main (segsR m ρ)
    (fun c Q => by rw [main_runR m ρ c])
    (by simp only [segsR, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Ride c)) (Tₙ := TnR m ρ)
    (hch := ⟨fun _ => .rfl, fun _ => .rfl, fun _ => .rfl, fun _ => .rfl, fun _ => .rfl, fun c => by
      show (iprop(StableHlo.held (c : Thread nD τ) (Pipeline.ucRefs τ sig) (W5 m ρ c) ∗ Ride c) : sProp 𝕄)
        ⊢ iprop(TnR m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach LR lvR fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- THE FRAME at any instance: every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (W5_main_arg0 m ρ c),
     (h c _ (mem_uc main_arg1 (by decide))).trans (W5_untouched m ρ c main_arg1 (by decide) (by decide) (by decide) (by decide) (by decide)),
     (h c _ (mem_uc main_arg2 (by decide))).trans (W5_untouched m ρ c main_arg2 (by decide) (by decide) (by decide) (by decide) (by decide)),
     (h c _ (mem_uc main_arg3 (by decide))).trans (W5_untouched m ρ c main_arg3 (by decide) (by decide) (by decide) (by decide) (by decide)),
     (h c _ (mem_uc main_arg4 (by decide))).trans (W5_untouched m ρ c main_arg4 (by decide) (by decide) (by decide) (by decide) (by decide)),
     (h c _ (mem_uc main_arg5 (by decide))).trans (W5_untouched m ρ c main_arg5 (by decide) (by decide) (by decide) (by decide) (by decide)),
     (h c _ (mem_uc main_arg6 (by decide))).trans (W5_untouched m ρ c main_arg6 (by decide) (by decide) (by decide) (by decide) (by decide)),
     (h c _ (mem_uc main_arg7 (by decide))).trans (W5_untouched m ρ c main_arg7 (by decide) (by decide) (by decide) (by decide) (by decide)),
     (h c _ (mem_uc main_arg8 (by decide))).trans (W5_untouched m ρ c main_arg8 (by decide) (by decide) (by decide) (by decide) (by decide)),
     (h c _ (mem_uc main_arg9 (by decide))).trans (W5_untouched m ρ c main_arg9 (by decide) (by decide) (by decide) (by decide) (by decide))⟩)
    (run_all m ρ)

end Cert.Kernel.Fr

end
-- ==== Proof.KiR0Base.lean ====
import proofs.«154160_j33036888441278_1_alg».proof.Proof.Gen.KernelIdeal.Launch
import proofs.«154160_j33036888441278_1_alg».proof.Proof.Gen.KernelIdeal.Skeleton
import proofs.«154160_j33036888441278_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 0: what its runs share

The region is entered with the TensorCore's buffers at contents `V`. A grid point is a pair (batch tile, contraction
tile); the body zeroes its two accumulators where the contraction tile is the first, adds one tile's products at every
point, and gates and stores the output block where the contraction tile is the last. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not: where it is not fetched the
    block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not: where it is not fetched the
    block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not: where it is not fetched the
    block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not: where it is not fetched the
    block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not: where it is not fetched the
    block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every point, fetched there or not: where it is not fetched the
    block index has not moved. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The two branch conditions, decided over the grid -/

/-- The contraction tile is the first one. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The contraction tile is the last one. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Away from the last contraction tile the output block is neither stored into nor written back. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
/-- At the last contraction tile it is stored. -/
theorem liveAt0_6 : ∀ t : Fin cfg0.N, cond0_1 (grid0.coords t) → cfg0.idle 6 (grid0.coords t) = false := by decide +kernel

/-! ## The memrefs the body is called with -/

abbrev ms0_0 (t : Fin cfg0.N) : Memref sig .tc .vmem S256x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S6144x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S6144x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x6144 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x6144 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x2048 .f32 := win0_6.stage (cfg0.slots t 6)
abbrev hs0_6 (t : Fin cfg0.N) : (ms0_6 t).IsWhole := hstage0_6 ((cfg0.slots t 6).cast nbuf0_6)
/-- One staging buffer of the output window, through which its contents are stated. -/
abbrev VO0_6 : View sig .tc .vmem S256x2048 .f32 := (Memref.whole cc0_stg6_0 : Memref sig .tc .vmem S256x2048 .f32).view
/-- The two accumulators: whole scoped buffers of the kernel's own. -/
abbrev scM0_0 : Memref sig .tc .vmem S256x6144 .f32 := Memref.whole cc0_scratch0
abbrev scM0_1 : Memref sig .tc .vmem S256x6144 .f32 := Memref.whole cc0_scratch1
abbrev VS0_0 : View sig .tc .vmem S256x6144 .f32 := scM0_0.view
abbrev VS0_1 : View sig .tc .vmem S256x6144 .f32 := scM0_1.view

/-- The scoped buffers of the core that belong to the other region: whole, at some contents. -/
def Oth0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The class invariant (every scoped buffer no window stages, at some contents, and the generator register) with the
    two accumulators taken out. -/
theorem PhiA0_split (c : Dev nD) :
    (Pipeline.ΦA spec0 c : sProp 𝕄)
      ⊢ iprop((∃ d, owns (c : Thread nD τ) scM0_0 fullShare d) ∗ (∃ d, owns (c : Thread nD τ) scM0_1 fullShare d) ∗ Oth0 c ∗ (∃ g, prngReg c g)) := by
  unfold Pipeline.ΦA Oth0; rw [scopedRest0_eq]; simp only [scM0_0, scM0_1, owns_whole]
  iintro ⟨⟨HS0, HS1, O0, O1, O2, O3, O4, O5, O6, O7, O8, O9, O10, O11, O12, O13⟩, Hp⟩
  isplitl [HS0]; · iexact HS0
  isplitl [HS1]; · iexact HS1
  isplitr [Hp]
  · isplitl [O0]; · iexact O0
    isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    isplitl [O9]; · iexact O9
    isplitl [O10]; · iexact O10
    isplitl [O11]; · iexact O11
    isplitl [O12]; · iexact O12
    iexact O13
  iexact Hp

theorem PhiA0_join (c : Dev nD) :
    iprop((∃ d, owns (c : Thread nD τ) scM0_0 fullShare d) ∗ (∃ d, owns (c : Thread nD τ) scM0_1 fullShare d) ∗ Oth0 c ∗ (∃ g, prngReg c g))
      ⊢ (Pipeline.ΦA spec0 c : sProp 𝕄) := by
  unfold Pipeline.ΦA Oth0; rw [scopedRest0_eq]; simp only [scM0_0, scM0_1, owns_whole]
  iintro ⟨HS0, HS1, ⟨O0, O1, O2, O3, O4, O5, O6, O7, O8, O9, O10, O11, O12, O13⟩, Hp⟩
  isplitr [Hp]
  · isplitl [HS0]; · iexact HS0
    isplitl [HS1]; · iexact HS1
    isplitl [O0]; · iexact O0
    isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    isplitl [O9]; · iexact O9
    isplitl [O10]; · iexact O10
    isplitl [O11]; · iexact O11
    isplitl [O12]; · iexact O12
    iexact O13
  iexact Hp

end Cert.KernelIdeal.Fr

end
-- ==== Proof.KiR0RunA.lean ====
import proofs.«154160_j33036888441278_1_alg».proof.Proof.KiR0Base

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- (the run's proof term is large)
set_option maxHeartbeats 4000000 in
/-- The body on whole staging memrefs where the contraction tile is the first: the inputs' buffers at their
    contents and handed back as they were; the output's buffer handed back untouched; the two accumulators
    at anything, left with the pieces the body stored. The pieces are the witness the run finds. -/
noncomputable def kernelRun0_A (c : Dev nD) (i : grid0.Coords) (arg2 : Memref sig .tc .vmem S256x256 .f32) (harg2 : arg2.IsWhole) (arg3 : Memref sig .tc .vmem S6144x256 .bf16) (harg3 : arg3.IsWhole) (arg4 : Memref sig .tc .vmem S256x2048 .f32) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S256x2048 .f32) (harg8 : arg8.IsWhole) (arg9 : Memref sig .tc .vmem S256x6144 .f32) (harg9 : arg9.IsWhole) (arg10 : Memref sig .tc .vmem S256x6144 .f32) (harg10 : arg10.IsWhole) (hc0 : cond0_0 i) (hc1 : ¬cond0_1 i)
    (x0 : Vec F S256x256 .f32) (x1 : Vec F S6144x256 .bf16) (x2 : Vec F S256x2048 .f32) (x3 : Vec F S6144x256 .bf16) (x4 : Vec F S1x6144 .f32) (x5 : Vec F S1x6144 .f32) :
    Σ' (L6 : List (View.Piece (Elt F) S256x2048 .f32)) (LS0 : List (View.Piece (Elt F) S256x6144 .f32)), { LS1 : List (View.Piece (Elt F) S256x6144 .f32) //
      ∀ (xi6 : Vec F S256x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__gru_kernel i arg2 harg2 arg3 harg3 arg4 harg4 arg5 harg5 arg6 harg6 arg7 harg7 arg8 harg8 arg9 harg9 arg10 harg10) K } := by
  refine ⟨[], ?_, ?_, fun xi6 E K => ?run⟩
  case run =>
    simp only [cc0__gru_kernel_eq_skeleton]; unfold cc0__gru_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.KernelIdeal.Fr

end
-- ==== Proof.KiR0RunB.lean ====
import proofs.«154160_j33036888441278_1_alg».proof.Proof.KiR0RunA

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- (the run's proof term is large)
set_option maxHeartbeats 4000000 in
/-- The body on whole staging memrefs where the contraction tile is neither the first nor the last: the inputs' buffers at their
    contents and handed back as they were; the output's buffer handed back untouched; the two accumulators
    at what the point before left, left with the pieces the body stored. The pieces are the witness the run finds. -/
noncomputable def kernelRun0_B (c : Dev nD) (i : grid0.Coords) (arg2 : Memref sig .tc .vmem S256x256 .f32) (harg2 : arg2.IsWhole) (arg3 : Memref sig .tc .vmem S6144x256 .bf16) (harg3 : arg3.IsWhole) (arg4 : Memref sig .tc .vmem S256x2048 .f32) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S256x2048 .f32) (harg8 : arg8.IsWhole) (arg9 : Memref sig .tc .vmem S256x6144 .f32) (harg9 : arg9.IsWhole) (arg10 : Memref sig .tc .vmem S256x6144 .f32) (harg10 : arg10.IsWhole) (hc0 : ¬cond0_0 i) (hc1 : ¬cond0_1 i)
    (x0 : Vec F S256x256 .f32) (x1 : Vec F S6144x256 .bf16) (x2 : Vec F S256x2048 .f32) (x3 : Vec F S6144x256 .bf16) (x4 : Vec F S1x6144 .f32) (x5 : Vec F S1x6144 .f32) (xs0 xs1 : Vec F S256x6144 .f32) :
    Σ' (L6 : List (View.Piece (Elt F) S256x2048 .f32)) (LS0 : List (View.Piece (Elt F) S256x6144 .f32)), { LS1 : List (View.Piece (Elt F) S256x6144 .f32) //
      ∀ (xi6 : Vec F S256x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__gru_kernel i arg2 harg2 arg3 harg3 arg4 harg4 arg5 harg5 arg6 harg6 arg7 harg7 arg8 harg8 arg9 harg9 arg10 harg10) K } := by
  refine ⟨[], ?_, ?_, fun xi6 E K => ?run⟩
  case run =>
    simp only [cc0__gru_kernel_eq_skeleton]; unfold cc0__gru_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.KernelIdeal.Fr

end
-- ==== Proof.KiR0RunC.lean ====
import proofs.«154160_j33036888441278_1_alg».proof.Proof.KiR0RunB

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- (the run's proof term is large)
set_option maxHeartbeats 4000000 in
/-- The body on whole staging memrefs where the contraction tile is the last: the inputs' buffers at their
    contents and handed back as they were; the output's buffer at anything, left with the pieces the body stored; the two accumulators
    at what the point before left, left with the pieces the body stored. The pieces are the witness the run finds. -/
noncomputable def kernelRun0_C (c : Dev nD) (i : grid0.Coords) (arg2 : Memref sig .tc .vmem S256x256 .f32) (harg2 : arg2.IsWhole) (arg3 : Memref sig .tc .vmem S6144x256 .bf16) (harg3 : arg3.IsWhole) (arg4 : Memref sig .tc .vmem S256x2048 .f32) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S256x2048 .f32) (harg8 : arg8.IsWhole) (arg9 : Memref sig .tc .vmem S256x6144 .f32) (harg9 : arg9.IsWhole) (arg10 : Memref sig .tc .vmem S256x6144 .f32) (harg10 : arg10.IsWhole) (hc0 : ¬cond0_0 i) (hc1 : cond0_1 i)
    (x0 : Vec F S256x256 .f32) (x1 : Vec F S6144x256 .bf16) (x2 : Vec F S256x2048 .f32) (x3 : Vec F S6144x256 .bf16) (x4 : Vec F S1x6144 .f32) (x5 : Vec F S1x6144 .f32) (xs0 xs1 : Vec F S256x6144 .f32) :
    Σ' (L6 : List (View.Piece (Elt F) S256x2048 .f32)) (LS0 : List (View.Piece (Elt F) S256x6144 .f32)), { LS1 : List (View.Piece (Elt F) S256x6144 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__gru_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc0__gru_kernel_eq_skeleton]; unfold cc0__gru_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    iexists _; iexact HS1

end Cert.KernelIdeal.Fr

end
-- ==== Proof.KiR0Frame.lean ====
import proofs.«154160_j33036888441278_1_alg».proof.Proof.KiR0RunC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: what the accumulators and the output block hold point by point, and the body obligation -/

/-- The body's run at point `t`, on the memrefs the pipeline passes there and the input blocks read off `V`. -/
def runA0 (c : Dev nD) (t : Fin cfg0.N) (h0 : t.val % 8 = 0) (h1 : ¬t.val % 8 = 7) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)

/-- Its pieces for accumulator 0 tile the buffer, so they cover it. -/
theorem scoverA0_0 (c : Dev nD) (t : Fin cfg0.N) (h0 : t.val % 8 = 0) (h1 : ¬t.val % 8 = 7) (y : S256x6144.Idx) :
    ∃ pc ∈ (runA0 V c t h0 h1).2.1, y ∈ pc.1.set :=
  View.cover_of_tiledL (runA0 V c t h0 h1).2.1 S256x6144.size (by sl_kernel_rfl) y

/-- What it leaves in accumulator 0: its pieces read back. -/
def soutA0_0 (c : Dev nD) (t : Fin cfg0.N) (h0 : t.val % 8 = 0) (h1 : ¬t.val % 8 = 7) : Vec F S256x6144 .f32 :=
  VS0_0.read (Elt F) (VS0_0.writes (Elt F) VS0_0.junk (runA0 V c t h0 h1).2.1)

/-- Its pieces for accumulator 1 tile the buffer, so they cover it. -/
theorem scoverA0_1 (c : Dev nD) (t : Fin cfg0.N) (h0 : t.val % 8 = 0) (h1 : ¬t.val % 8 = 7) (y : S256x6144.Idx) :
    ∃ pc ∈ (runA0 V c t h0 h1).2.2.1, y ∈ pc.1.set :=
  View.cover_of_tiledL (runA0 V c t h0 h1).2.2.1 S256x6144.size (by sl_kernel_rfl) y

/-- What it leaves in accumulator 1: its pieces read back. -/
def soutA0_1 (c : Dev nD) (t : Fin cfg0.N) (h0 : t.val % 8 = 0) (h1 : ¬t.val % 8 = 7) : Vec F S256x6144 .f32 :=
  VS0_1.read (Elt F) (VS0_1.writes (Elt F) VS0_1.junk (runA0 V c t h0 h1).2.2.1)

/-- The body's run at point `t`, on the memrefs the pipeline passes there and the input blocks read off `V`. -/
def runB0 (c : Dev nD) (t : Fin cfg0.N) (h0 : ¬t.val % 8 = 0) (h1 : ¬t.val % 8 = 7) (xs0 xs1 : Vec F S256x6144 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) xs0 xs1

/-- Its pieces for accumulator 0 tile the buffer, so they cover it. -/
theorem scoverB0_0 (c : Dev nD) (t : Fin cfg0.N) (h0 : ¬t.val % 8 = 0) (h1 : ¬t.val % 8 = 7) (xs0 xs1 : Vec F S256x6144 .f32) (y : S256x6144.Idx) :
    ∃ pc ∈ (runB0 V c t h0 h1 xs0 xs1).2.1, y ∈ pc.1.set :=
  View.cover_of_tiledL (runB0 V c t h0 h1 xs0 xs1).2.1 S256x6144.size (by sl_kernel_rfl) y

/-- What it leaves in accumulator 0: its pieces read back. -/
def soutB0_0 (c : Dev nD) (t : Fin cfg0.N) (h0 : ¬t.val % 8 = 0) (h1 : ¬t.val % 8 = 7) (xs0 xs1 : Vec F S256x6144 .f32) : Vec F S256x6144 .f32 :=
  VS0_0.read (Elt F) (VS0_0.writes (Elt F) VS0_0.junk (runB0 V c t h0 h1 xs0 xs1).2.1)

/-- Its pieces for accumulator 1 tile the buffer, so they cover it. -/
theorem scoverB0_1 (c : Dev nD) (t : Fin cfg0.N) (h0 : ¬t.val % 8 = 0) (h1 : ¬t.val % 8 = 7) (xs0 xs1 : Vec F S256x6144 .f32) (y : S256x6144.Idx) :
    ∃ pc ∈ (runB0 V c t h0 h1 xs0 xs1).2.2.1, y ∈ pc.1.set :=
  View.cover_of_tiledL (runB0 V c t h0 h1 xs0 xs1).2.2.1 S256x6144.size (by sl_kernel_rfl) y

/-- What it leaves in accumulator 1: its pieces read back. -/
def soutB0_1 (c : Dev nD) (t : Fin cfg0.N) (h0 : ¬t.val % 8 = 0) (h1 : ¬t.val % 8 = 7) (xs0 xs1 : Vec F S256x6144 .f32) : Vec F S256x6144 .f32 :=
  VS0_1.read (Elt F) (VS0_1.writes (Elt F) VS0_1.junk (runB0 V c t h0 h1 xs0 xs1).2.2.1)

/-- The body's run at point `t`, on the memrefs the pipeline passes there and the input blocks read off `V`. -/
def runC0 (c : Dev nD) (t : Fin cfg0.N) (h0 : ¬t.val % 8 = 0) (h1 : t.val % 8 = 7) (xs0 xs1 : Vec F S256x6144 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) xs0 xs1

/-- Its pieces for accumulator 0 tile the buffer, so they cover it. -/
theorem scoverC0_0 (c : Dev nD) (t : Fin cfg0.N) (h0 : ¬t.val % 8 = 0) (h1 : t.val % 8 = 7) (xs0 xs1 : Vec F S256x6144 .f32) (y : S256x6144.Idx) :
    ∃ pc ∈ (runC0 V c t h0 h1 xs0 xs1).2.1, y ∈ pc.1.set :=
  View.cover_of_tiledL (runC0 V c t h0 h1 xs0 xs1).2.1 S256x6144.size (by sl_kernel_rfl) y

/-- What it leaves in accumulator 0: its pieces read back. -/
def soutC0_0 (c : Dev nD) (t : Fin cfg0.N) (h0 : ¬t.val % 8 = 0) (h1 : t.val % 8 = 7) (xs0 xs1 : Vec F S256x6144 .f32) : Vec F S256x6144 .f32 :=
  VS0_0.read (Elt F) (VS0_0.writes (Elt F) VS0_0.junk (runC0 V c t h0 h1 xs0 xs1).2.1)

/-- Its pieces for accumulator 1 tile the buffer, so they cover it. -/
theorem scoverC0_1 (c : Dev nD) (t : Fin cfg0.N) (h0 : ¬t.val % 8 = 0) (h1 : t.val % 8 = 7) (xs0 xs1 : Vec F S256x6144 .f32) (y : S256x6144.Idx) :
    ∃ pc ∈ (runC0 V c t h0 h1 xs0 xs1).2.2.1, y ∈ pc.1.set :=
  View.cover_of_tiledL (runC0 V c t h0 h1 xs0 xs1).2.2.1 S256x6144.size (by sl_kernel_rfl) y

/-- What it leaves in accumulator 1: its pieces read back. -/
def soutC0_1 (c : Dev nD) (t : Fin cfg0.N) (h0 : ¬t.val % 8 = 0) (h1 : t.val % 8 = 7) (xs0 xs1 : Vec F S256x6144 .f32) : Vec F S256x6144 .f32 :=
  VS0_1.read (Elt F) (VS0_1.writes (Elt F) VS0_1.junk (runC0 V c t h0 h1 xs0 xs1).2.2.1)

/-- At the last contraction tile the body's pieces for the output block tile it, so they cover it. -/
theorem coverC0_6 (c : Dev nD) (t : Fin cfg0.N) (h0 : ¬t.val % 8 = 0) (h1 : t.val % 8 = 7) (xs0 xs1 : Vec F S256x6144 .f32) (y : S256x2048.Idx) :
    ∃ pc ∈ (runC0 V c t h0 h1 xs0 xs1).1, y ∈ pc.1.set :=
  View.cover_of_tiledL (runC0 V c t h0 h1 xs0 xs1).1 S256x2048.size (by sl_kernel_rfl) y

/-- What it leaves in the output's staging buffer there. -/
def outC0_6 (c : Dev nD) (t : Fin cfg0.N) (h0 : ¬t.val % 8 = 0) (h1 : t.val % 8 = 7) (xs0 xs1 : Vec F S256x6144 .f32) : Vec F S256x2048 .f32 :=
  VO0_6.read (Elt F) (VO0_6.writes (Elt F) VO0_6.junk (runC0 V c t h0 h1 xs0 xs1).1)

/-- Where the output block is not stored its staging buffer's contents are never consulted: a placeholder. -/
def idle0_6 : Vec F S256x2048 .f32 := VO0_6.read (Elt F) (VO0_6.writes (Elt F) VO0_6.junk [])

/-- THE ACCUMULATION: after the body at position `n`, the output's staging buffer and the two accumulators. At a first
    contraction tile the accumulators start from zero; elsewhere they continue from what position `n - 1` left. -/
def outsAt0 (c : Dev nD) : (n : ℕ) → n < cfg0.N → Vec F S256x2048 .f32 × Vec F S256x6144 .f32 × Vec F S256x6144 .f32
  | 0, hn => (idle0_6, soutA0_0 V c ⟨0, hn⟩ (Nat.zero_mod _) (fun h => (by decide : ¬ (0 % 8 = 7)) h), soutA0_1 V c ⟨0, hn⟩ (Nat.zero_mod _) (fun h => (by decide : ¬ (0 % 8 = 7)) h))
  | n + 1, hn =>
    if h0 : (n + 1) % 8 = 0 then
      (idle0_6, soutA0_0 V c ⟨n + 1, hn⟩ h0 (fun h => by have h' : (n + 1) % 8 = 7 := h; omega), soutA0_1 V c ⟨n + 1, hn⟩ h0 (fun h => by have h' : (n + 1) % 8 = 7 := h; omega))
    else if h1 : (n + 1) % 8 = 7 then
      (outC0_6 V c ⟨n + 1, hn⟩ h0 h1 (outsAt0 c n (Nat.lt_of_succ_lt hn)).2.1 (outsAt0 c n (Nat.lt_of_succ_lt hn)).2.2,
        soutC0_0 V c ⟨n + 1, hn⟩ h0 h1 (outsAt0 c n (Nat.lt_of_succ_lt hn)).2.1 (outsAt0 c n (Nat.lt_of_succ_lt hn)).2.2,
        soutC0_1 V c ⟨n + 1, hn⟩ h0 h1 (outsAt0 c n (Nat.lt_of_succ_lt hn)).2.1 (outsAt0 c n (Nat.lt_of_succ_lt hn)).2.2)
    else
      (idle0_6,
        soutB0_0 V c ⟨n + 1, hn⟩ h0 h1 (outsAt0 c n (Nat.lt_of_succ_lt hn)).2.1 (outsAt0 c n (Nat.lt_of_succ_lt hn)).2.2,
        soutB0_1 V c ⟨n + 1, hn⟩ h0 h1 (outsAt0 c n (Nat.lt_of_succ_lt hn)).2.1 (outsAt0 c n (Nat.lt_of_succ_lt hn)).2.2)

/-- The contents before point `t` when it is not the first: what point `t - 1` left. -/
abbrev prev0 (c : Dev nD) (t : Fin cfg0.N) := outsAt0 V c (t.val - 1) (Nat.lt_of_le_of_lt (Nat.sub_le _ _) t.isLt)

theorem outsAt0_A (c : Dev nD) (t : Fin cfg0.N) (h0 : t.val % 8 = 0) (h1 : ¬t.val % 8 = 7) :
    outsAt0 V c t.val t.isLt = (idle0_6, soutA0_0 V c t h0 h1, soutA0_1 V c t h0 h1) := by
  obtain ⟨n, hn⟩ := t
  cases n with
  | zero => exact rfl
  | succ n => exact (dif_pos h0).trans rfl

theorem outsAt0_B (c : Dev nD) (t : Fin cfg0.N) (h0 : ¬t.val % 8 = 0) (h1 : ¬t.val % 8 = 7) :
    outsAt0 V c t.val t.isLt = (idle0_6, soutB0_0 V c t h0 h1 (prev0 V c t).2.1 (prev0 V c t).2.2, soutB0_1 V c t h0 h1 (prev0 V c t).2.1 (prev0 V c t).2.2) := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (outC0_6 V c t h0 h1 (prev0 V c t).2.1 (prev0 V c t).2.2, soutC0_0 V c t h0 h1 (prev0 V c t).2.1 (prev0 V c t).2.2, soutC0_1 V c t h0 h1 (prev0 V c t).2.1 (prev0 V c t).2.2) := by
  obtain ⟨n, hn⟩ := t
  cases n with
  | zero => exact absurd (Nat.zero_mod _) h0
  | succ n => exact (dif_neg h0).trans ((dif_pos h1).trans rfl)

/-- The region invariant before position `n`: before the first point every scoped buffer no window stages at anything;
    afterwards the two accumulators at what the point before left, the other region's buffers at anything, and the
    generator register at some state. -/
def PhiS0 (c : Dev nD) : (n : ℕ) → n ≤ cfg0.N → sProp 𝕄
  | 0, _ => Pipeline.ΦA spec0 c
  | n + 1, hn => iprop(owns (c : Thread nD τ) scM0_0 fullShare (outsAt0 V c n hn).2.1 ∗ owns (c : Thread nD τ) scM0_1 fullShare (outsAt0 V c n hn).2.2 ∗ Oth0 c ∗ (∃ g, prngReg c g))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0_0 fullShare (outsAt0 V c n hn).2.1 ∗ owns (c : Thread nD τ) scM0_1 fullShare (outsAt0 V c n hn).2.2 ∗ Oth0 c ∗ (∃ g, prngReg c g)) := rfl

theorem PhiS0_pos (c : Dev nD) (n : ℕ) (h : n ≤ cfg0.N) (hz : n ≠ 0) :
    PhiS0 V c n h = iprop(owns (c : Thread nD τ) scM0_0 fullShare (outsAt0 V c (n - 1) (by omega)).2.1 ∗ owns (c : Thread nD τ) scM0_1 fullShare (outsAt0 V c (n - 1) (by omega)).2.2 ∗ Oth0 c ∗ (∃ g, prngReg c g)) := by
  cases n with
  | zero => exact absurd rfl hz
  | succ n => rfl

/-! ## The pipeline's proof data -/

/-- The arrays as the region finds them; after the body at point `t` each input's buffer at its block and the output's
    at `outsAt0`'s first component; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 8000000 in
/-- The body at any point. The inputs' memrefs hold their blocks; the point's contraction tile says which run applies;
    the invariant hands the body the accumulators at what the point before left (at anything before the first point)
    and takes them back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  rw [show (dat0 V c).leavesExact 2 t = owns (c : Thread nD τ) (ms0_2 t) fullShare ((dat0 V c).after 2 t) from by
      unfold Dat.leavesExact; rw [liveAt0_2 t], after0_2]
  rw [show (dat0 V c).leavesExact 3 t = owns (c : Thread nD τ) (ms0_3 t) fullShare ((dat0 V c).after 3 t) from by
      unfold Dat.leavesExact; rw [liveAt0_3 t], after0_3]
  rw [show (dat0 V c).leavesExact 4 t = owns (c : Thread nD τ) (ms0_4 t) fullShare ((dat0 V c).after 4 t) from by
      unfold Dat.leavesExact; rw [liveAt0_4 t], after0_4]
  rw [show (dat0 V c).leavesExact 5 t = owns (c : Thread nD τ) (ms0_5 t) fullShare ((dat0 V c).after 5 t) from by
      unfold Dat.leavesExact; rw [liveAt0_5 t], after0_5]
  by_cases h0 : t.val % 8 = 0
  · have h1 : ¬t.val % 8 = 7 := by omega
    rw [Dat.leavesExact_idle (dat0 V c) 6 t (idleAt0_6 t (fun h => h1 ((hcond0_1 t).mp h))) (noFlush0_6 t (fun h => h1 ((hcond0_1 t).mp h)))]
    rw [outsAt0_A V c t h0 h1]
    unfold soutA0_0 soutA0_1; (try dsimp only)
    by_cases hz : t.val = 0
    · rw [PhiS0_castSucc V c t, PhiS0_zero V c _ _ hz]
      iintro ⟨HΦ, Ho, ⟨%d0, H0⟩, ⟨%d1, H1⟩, ⟨%d2, H2⟩, ⟨%d3, H3⟩, ⟨%d4, H4⟩, ⟨%d5, H5⟩, ⟨%d6, H6⟩⟩
      ihave HΦ' := PhiA0_split c $$ HΦ
      icases HΦ' with ⟨HS0, HS1, HOth, Hg⟩
      iapply ((runA0 V c t h0 h1).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 HOth Hg]
      · isplitl [HS0]
        · unfold owns; iexists _; isplitr
          swap; · iexact HS0
          ipureintro; exact View.read_writes_of_cover _ _ _ _ _ (scoverA0_0 V c t h0 h1)
        isplitl [HS1]
        · unfold owns; iexists _; isplitr
          swap; · iexact HS1
          ipureintro; exact View.read_writes_of_cover _ _ _ _ _ (scoverA0_1 V c t h0 h1)
        isplitl [HOth]; · iexact HOth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS0_castSucc V c t, PhiS0_pos V c _ _ hz]
      iintro ⟨⟨HS0, HS1, HOth, Hg⟩, Ho, ⟨%d0, H0⟩, ⟨%d1, H1⟩, ⟨%d2, H2⟩, ⟨%d3, H3⟩, ⟨%d4, H4⟩, ⟨%d5, H5⟩, ⟨%d6, H6⟩⟩
      iapply ((runA0 V c t h0 h1).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      iintro ⟨H0, H1, H2, H3, H4, H5, H6, ⟨%es0, HS0⟩, ⟨%es1, HS1⟩⟩
      isplitl [HS0 HS1 HOth Hg]
      · isplitl [HS0]
        · unfold owns; iexists _; isplitr
          swap; · iexact HS0
          ipureintro; exact View.read_writes_of_cover _ _ _ _ _ (scoverA0_0 V c t h0 h1)
        isplitl [HS1]
        · unfold owns; iexists _; isplitr
          swap; · iexact HS1
          ipureintro; exact View.read_writes_of_cover _ _ _ _ _ (scoverA0_1 V c t h0 h1)
        isplitl [HOth]; · iexact HOth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    by_cases h1 : t.val % 8 = 7
    · rw [show (dat0 V c).leavesExact 6 t = owns (c : Thread nD τ) (ms0_6 t) fullShare ((dat0 V c).after 6 t) from by
        unfold Dat.leavesExact; rw [liveAt0_6 t ((hcond0_1 t).mpr h1)], after0_6]
      rw [outsAt0_C V c t h0 h1]
      unfold outC0_6 soutC0_0 soutC0_1; (try dsimp only)
      rw [PhiS0_castSucc V c t, PhiS0_pos V c _ _ hz]
      iintro ⟨⟨HS0, HS1, HOth, Hg⟩, Ho, ⟨%d0, H0⟩, ⟨%d1, H1⟩, ⟨%d2, H2⟩, ⟨%d3, H3⟩, ⟨%d4, H4⟩, ⟨%d5, H5⟩, ⟨%d6, H6⟩⟩
      iapply ((runC0 V c t h0 h1 _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, ⟨%e6, H6⟩, ⟨%es0, HS0⟩, ⟨%es1, HS1⟩⟩
      isplitl [HS0 HS1 HOth Hg]
      · isplitl [HS0]
        · unfold owns; iexists _; isplitr
          swap; · iexact HS0
          ipureintro; exact View.read_writes_of_cover _ _ _ _ _ (scoverC0_0 V c t h0 h1 _ _)
        isplitl [HS1]
        · unfold owns; iexists _; isplitr
          swap; · iexact HS1
          ipureintro; exact View.read_writes_of_cover _ _ _ _ _ (scoverC0_1 V c t h0 h1 _ _)
        isplitl [HOth]; · iexact HOth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverC0_6 V c t h0 h1 _ _)
    · rw [Dat.leavesExact_idle (dat0 V c) 6 t (idleAt0_6 t (fun h => h1 ((hcond0_1 t).mp h))) (noFlush0_6 t (fun h => h1 ((hcond0_1 t).mp h)))]
      rw [outsAt0_B V c t h0 h1]
      unfold soutB0_0 soutB0_1; (try dsimp only)
      rw [PhiS0_castSucc V c t, PhiS0_pos V c _ _ hz]
      iintro ⟨⟨HS0, HS1, HOth, Hg⟩, Ho, ⟨%d0, H0⟩, ⟨%d1, H1⟩, ⟨%d2, H2⟩, ⟨%d3, H3⟩, ⟨%d4, H4⟩, ⟨%d5, H5⟩, ⟨%d6, H6⟩⟩
      iapply ((runB0 V c t h0 h1 _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 HOth Hg]
      · isplitl [HS0]
        · unfold owns; iexists _; isplitr
          swap; · iexact HS0
          ipureintro; exact View.read_writes_of_cover _ _ _ _ _ (scoverB0_0 V c t h0 h1 _ _)
        isplitl [HS1]
        · unfold owns; iexists _; isplitr
          swap; · iexact HS1
          ipureintro; exact View.read_writes_of_cover _ _ _ _ _ (scoverB0_1 V c t h0 h1 _ _)
        isplitl [HOth]; · iexact HOth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is handed is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class invariant back: the accumulators' contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 256 := N_0; omega)]
  iintro ⟨HS0, HS1, HOth, Hg⟩
  iapply PhiA0_join c
  isplitl [HS0]; · iexists _; iexact HS0
  isplitl [HS1]; · iexists _; iexact HS1
  isplitl [HOth]; · iexact HOth
  iexact Hg

end Cert.KernelIdeal.Fr

end
-- ==== Proof.KiR0Pieces.lean ====
import proofs.«154160_j33036888441278_1_alg».proof.Proof.KiR0Frame
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: what each run leaves, as the body's arithmetic of the point's input blocks

The input accumulator adds the product of the point's input tile and weight tile; the hidden accumulator adds the product
of columns `256·k … 256·k + 255` of the hidden block and its weight tile; at a first contraction tile both start from
zero; at the last the output block is the gating of the two accumulators, the bias rows and the whole hidden block. -/

theorem hz2 : (![0, 0] : Fin 2 → Nat) = fun _ => 0 := funext fun a => by fin_cases a <;> rfl

/-- The columns of the hidden block the body multiplies at point `t`. -/
abbrev hrect0 (t : Fin cfg0.N) : Rect S256x2048 :=
  Rect.unit (s := S256x2048) (k0_off1 (grid0.coords t)) S256x256.size (Facts₀.k0_off1_inb (grid0.coords t))

/-- The hidden tile at point `t`. -/
abbrev htile0 (c : Dev nD) (t : Fin cfg0.N) : Vec F S256x256 .f32 := View.ld (iblk0 V c 2 t) (hrect0 t)

theorem soutA0_0_eq (c : Dev nD) (t : Fin cfg0.N) (h0 : t.val % 8 = 0) (h1 : ¬t.val % 8 = 7) :
    soutA0_0 V c t h0 h1 = k0_pay3 (iblk0 V c 0 t) (k0_pay1 (F := F)) (iblk0 V c 1 t) := by
  unfold soutA0_0
  rw [View.read_writes_eq_canon _ _ _ (scoverA0_0 V c t h0 h1)]
  unfold runA0 kernelRun0_A
  dsimp only
  try sl_unfold_words
  rw [View.canon_cons_unit_zero hz2]
  simp only [View.readAt_eq_ld, (hs0_0 t).read_unread, (hs0_1 t).read_unread, (hs0_2 t).read_unread, (hs0_3 t).read_unread, (hs0_4 t).read_unread, (hs0_5 t).read_unread, (Memref.isWhole_whole _ : (scM0_0).IsWhole).read_unread, (Memref.isWhole_whole _ : (scM0_1).IsWhole).read_unread, Memref.IsWhole.read_unread, View.readCov_unit_zero (S := S256x6144) _ hz2, View.ld_unit_zero (S := S256x256) hz2, View.ld_unit_zero (S := S6144x256) hz2, View.ld_unit_zero (S := S256x6144) hz2, View.ld_unit_zero (S := S1x6144) hz2, View.ld_unit_zero (S := S256x2048) hz2]
  try rfl

theorem soutA0_1_eq (c : Dev nD) (t : Fin cfg0.N) (h0 : t.val % 8 = 0) (h1 : ¬t.val % 8 = 7) :
    soutA0_1 V c t h0 h1 = k0_pay4 (htile0 V c t) (k0_pay2 (F := F)) (iblk0 V c 3 t) := by
  unfold soutA0_1
  rw [View.read_writes_eq_canon _ _ _ (scoverA0_1 V c t h0 h1)]
  unfold runA0 kernelRun0_A
  dsimp only
  try sl_unfold_words
  rw [View.canon_cons_unit_zero hz2]
  simp only [View.readAt_eq_ld, (hs0_0 t).read_unread, (hs0_1 t).read_unread, (hs0_2 t).read_unread, (hs0_3 t).read_unread, (hs0_4 t).read_unread, (hs0_5 t).read_unread, (Memref.isWhole_whole _ : (scM0_0).IsWhole).read_unread, (Memref.isWhole_whole _ : (scM0_1).IsWhole).read_unread, Memref.IsWhole.read_unread, View.readCov_unit_zero (S := S256x6144) _ hz2, View.ld_unit_zero (S := S256x256) hz2, View.ld_unit_zero (S := S6144x256) hz2, View.ld_unit_zero (S := S256x6144) hz2, View.ld_unit_zero (S := S1x6144) hz2, View.ld_unit_zero (S := S256x2048) hz2]
  try rfl

theorem soutB0_0_eq (c : Dev nD) (t : Fin cfg0.N) (h0 : ¬t.val % 8 = 0) (h1 : ¬t.val % 8 = 7) (xs0 xs1 : Vec F S256x6144 .f32) :
    soutB0_0 V c t h0 h1 xs0 xs1 = k0_pay3 (iblk0 V c 0 t) xs0 (iblk0 V c 1 t) := by
  unfold soutB0_0
  rw [View.read_writes_eq_canon _ _ _ (scoverB0_0 V c t h0 h1 xs0 xs1)]
  unfold runB0 kernelRun0_B
  dsimp only
  try sl_unfold_words
  rw [View.canon_cons_unit_zero hz2]
  simp only [View.readAt_eq_ld, (hs0_0 t).read_unread, (hs0_1 t).read_unread, (hs0_2 t).read_unread, (hs0_3 t).read_unread, (hs0_4 t).read_unread, (hs0_5 t).read_unread, (Memref.isWhole_whole _ : (scM0_0).IsWhole).read_unread, (Memref.isWhole_whole _ : (scM0_1).IsWhole).read_unread, Memref.IsWhole.read_unread, View.readCov_unit_zero (S := S256x6144) _ hz2, View.ld_unit_zero (S := S256x256) hz2, View.ld_unit_zero (S := S6144x256) hz2, View.ld_unit_zero (S := S256x6144) hz2, View.ld_unit_zero (S := S1x6144) hz2, View.ld_unit_zero (S := S256x2048) hz2]
  try rfl

theorem soutB0_1_eq (c : Dev nD) (t : Fin cfg0.N) (h0 : ¬t.val % 8 = 0) (h1 : ¬t.val % 8 = 7) (xs0 xs1 : Vec F S256x6144 .f32) :
    soutB0_1 V c t h0 h1 xs0 xs1 = k0_pay4 (htile0 V c t) xs1 (iblk0 V c 3 t) := by
  unfold soutB0_1
  rw [View.read_writes_eq_canon _ _ _ (scoverB0_1 V c t h0 h1 xs0 xs1)]
  unfold runB0 kernelRun0_B
  dsimp only
  try sl_unfold_words
  rw [View.canon_cons_unit_zero hz2]
  simp only [View.readAt_eq_ld, (hs0_0 t).read_unread, (hs0_1 t).read_unread, (hs0_2 t).read_unread, (hs0_3 t).read_unread, (hs0_4 t).read_unread, (hs0_5 t).read_unread, (Memref.isWhole_whole _ : (scM0_0).IsWhole).read_unread, (Memref.isWhole_whole _ : (scM0_1).IsWhole).read_unread, Memref.IsWhole.read_unread, View.readCov_unit_zero (S := S256x6144) _ hz2, View.ld_unit_zero (S := S256x256) hz2, View.ld_unit_zero (S := S6144x256) hz2, View.ld_unit_zero (S := S256x6144) hz2, View.ld_unit_zero (S := S1x6144) hz2, View.ld_unit_zero (S := S256x2048) hz2]
  try rfl

theorem soutC0_0_eq (c : Dev nD) (t : Fin cfg0.N) (h0 : ¬t.val % 8 = 0) (h1 : t.val % 8 = 7) (xs0 xs1 : Vec F S256x6144 .f32) :
    soutC0_0 V c t h0 h1 xs0 xs1 = k0_pay3 (iblk0 V c 0 t) xs0 (iblk0 V c 1 t) := by
  unfold soutC0_0
  rw [View.read_writes_eq_canon _ _ _ (scoverC0_0 V c t h0 h1 xs0 xs1)]
  unfold runC0 kernelRun0_C
  dsimp only
  try sl_unfold_words
  rw [View.canon_cons_unit_zero hz2]
  simp only [View.readAt_eq_ld, (hs0_0 t).read_unread, (hs0_1 t).read_unread, (hs0_2 t).read_unread, (hs0_3 t).read_unread, (hs0_4 t).read_unread, (hs0_5 t).read_unread, (Memref.isWhole_whole _ : (scM0_0).IsWhole).read_unread, (Memref.isWhole_whole _ : (scM0_1).IsWhole).read_unread, Memref.IsWhole.read_unread, View.readCov_unit_zero (S := S256x6144) _ hz2, View.ld_unit_zero (S := S256x256) hz2, View.ld_unit_zero (S := S6144x256) hz2, View.ld_unit_zero (S := S256x6144) hz2, View.ld_unit_zero (S := S1x6144) hz2, View.ld_unit_zero (S := S256x2048) hz2]
  try rfl

theorem soutC0_1_eq (c : Dev nD) (t : Fin cfg0.N) (h0 : ¬t.val % 8 = 0) (h1 : t.val % 8 = 7) (xs0 xs1 : Vec F S256x6144 .f32) :
    soutC0_1 V c t h0 h1 xs0 xs1 = k0_pay4 (htile0 V c t) xs1 (iblk0 V c 3 t) := by
  unfold soutC0_1
  rw [View.read_writes_eq_canon _ _ _ (scoverC0_1 V c t h0 h1 xs0 xs1)]
  unfold runC0 kernelRun0_C
  dsimp only
  try sl_unfold_words
  rw [View.canon_cons_unit_zero hz2]
  simp only [View.readAt_eq_ld, (hs0_0 t).read_unread, (hs0_1 t).read_unread, (hs0_2 t).read_unread, (hs0_3 t).read_unread, (hs0_4 t).read_unread, (hs0_5 t).read_unread, (Memref.isWhole_whole _ : (scM0_0).IsWhole).read_unread, (Memref.isWhole_whole _ : (scM0_1).IsWhole).read_unread, Memref.IsWhole.read_unread, View.readCov_unit_zero (S := S256x6144) _ hz2, View.ld_unit_zero (S := S256x256) hz2, View.ld_unit_zero (S := S6144x256) hz2, View.ld_unit_zero (S := S256x6144) hz2, View.ld_unit_zero (S := S1x6144) hz2, View.ld_unit_zero (S := S256x2048) hz2]
  try rfl

theorem outC0_6_eq (c : Dev nD) (t : Fin cfg0.N) (h0 : ¬t.val % 8 = 0) (h1 : t.val % 8 = 7) (xs0 xs1 : Vec F S256x6144 .f32) :
    outC0_6 V c t h0 h1 xs0 xs1
      = k0_pay5 (k0_pay3 (iblk0 V c 0 t) xs0 (iblk0 V c 1 t)) (iblk0 V c 4 t)
          (k0_pay4 (htile0 V c t) xs1 (iblk0 V c 3 t)) (iblk0 V c 5 t) (iblk0 V c 2 t) := by
  unfold outC0_6
  rw [View.read_writes_eq_canon _ _ _ (coverC0_6 V c t h0 h1 xs0 xs1)]
  unfold runC0 kernelRun0_C
  dsimp only
  try sl_unfold_words
  rw [View.canon_cons_unit_zero hz2]
  simp only [View.readAt_eq_ld, (hs0_0 t).read_unread, (hs0_1 t).read_unread, (hs0_2 t).read_unread, (hs0_3 t).read_unread, (hs0_4 t).read_unread, (hs0_5 t).read_unread, (Memref.isWhole_whole _ : (scM0_0).IsWhole).read_unread, (Memref.isWhole_whole _ : (scM0_1).IsWhole).read_unread, Memref.IsWhole.read_unread, View.readCov_unit_zero (S := S256x6144) _ hz2, View.ld_unit_zero (S := S256x256) hz2, View.ld_unit_zero (S := S6144x256) hz2, View.ld_unit_zero (S := S256x6144) hz2, View.ld_unit_zero (S := S1x6144) hz2, View.ld_unit_zero (S := S256x2048) hz2]
  try rfl

end Cert.KernelIdeal.Fr

end
-- ==== Proof.PayloadStep.lean ====
import proofs.«154160_j33036888441278_1_alg».proof.Proof.Gen.KernelIdeal.Skeleton
import Idealize.ShloMosaic.Lib.Pipeline.Value
import Idealize.ShloMosaic.Lib.ValueIdx
import Idealize.ShloMosaic.PureOps.Ideal.Laws

/-!
# The kernel's accumulation step, read at an index over the extended reals

Each grid step adds to a running `[256, 6144]` total the product of a `[256, 256]` tile of the input by a
`[6144, 256]` tile of the stacked weights, contracting the second axis of both. Over the extended reals the narrowing
of the input tile is the identity and the product into a zero accumulator is the plain sum, so entry `(p, q)` of the
step's result is the old entry plus `∑ c, x (p, c) · W (q, c)`. The two starting totals are zero everywhere.
-/

noncomputable section

namespace Cert.Bridge

open Cert.KernelIdeal Cert.KernelIdeal.Gen Idealize.ShloMosaic Idealize.ShloMosaic.ValueIdx

/-- The left operand's row coordinate is the output's row. -/
theorem dot_lhs_0 (i : S256x6144.Idx) (k : dot_S256x256_S6144x256_S256x6144_1_1_0_0_n_n.contr.Idx) :
    (dot_S256x256_S6144x256_S256x6144_1_1_0_0_n_n.lhsIdx i k 0).val = (i 0).val := by
  unfold DotDims.lhsIdx
  rw [dif_neg (show ¬(0 : Fin S256x256.rank) ∈ dot_S256x256_S6144x256_S256x6144_1_1_0_0_n_n.lhsBatch by decide),
    dif_pos (show (0 : Fin S256x256.rank) ∈ dot_S256x256_S6144x256_S256x6144_1_1_0_0_n_n.lhsNonContracting by decide)]
  rfl

/-- The left operand's column coordinate is the contracted one. -/
theorem dot_lhs_1 (i : S256x6144.Idx) (k : dot_S256x256_S6144x256_S256x6144_1_1_0_0_n_n.contr.Idx) :
    (dot_S256x256_S6144x256_S256x6144_1_1_0_0_n_n.lhsIdx i k 1).val = (k ⟨0, by decide⟩).val :=
  dot_S256x256_S6144x256_S256x6144_1_1_0_0_n_n.lhsIdx_val_of_single rfl i k

/-- The right operand's row coordinate is the output's column. -/
theorem dot_rhs_0 (i : S256x6144.Idx) (k : dot_S256x256_S6144x256_S256x6144_1_1_0_0_n_n.contr.Idx) :
    (dot_S256x256_S6144x256_S256x6144_1_1_0_0_n_n.rhsIdx i k 0).val = (i 1).val := by
  unfold DotDims.rhsIdx
  rw [dif_neg (show ¬(0 : Fin S6144x256.rank) ∈ dot_S256x256_S6144x256_S256x6144_1_1_0_0_n_n.rhsBatch by decide),
    dif_pos (show (0 : Fin S6144x256.rank) ∈ dot_S256x256_S6144x256_S256x6144_1_1_0_0_n_n.rhsNonContracting by decide)]
  rfl

/-- The right operand's column coordinate is the contracted one. -/
theorem dot_rhs_1 (i : S256x6144.Idx) (k : dot_S256x256_S6144x256_S256x6144_1_1_0_0_n_n.contr.Idx) :
    (dot_S256x256_S6144x256_S256x6144_1_1_0_0_n_n.rhsIdx i k 1).val = (k ⟨0, by decide⟩).val :=
  dot_S256x256_S6144x256_S256x6144_1_1_0_0_n_n.rhsIdx_val_of_single rfl i k

/-- The tile product into the zero accumulator, at `(p, q)`: the sum over the contracted coordinate of
    `A (p, c) · B (q, c)`. -/
theorem tile_product_at {φ₁ φ₂ : FTy} (A : FVec Ideal S256x256 φ₁) (B : FVec Ideal S6144x256 φ₂) (p : Fin 256) (q : Fin 6144) :
    matmul dot_S256x256_S6144x256_S256x6144_1_1_0_0_n_n none A B (constant S256x6144 .f32 0x00000000#32) (ix2 p q)
      = ∑ c : Fin 256, A (ix2 p c) * B (ix2 q c) := by
  show FloatOps.matmul dot_S256x256_S6144x256_S256x6144_1_1_0_0_n_n none A B (constant S256x6144 .f32 0x00000000#32) (ix2 p q) = _
  rw [Ideal.matmul_constant_zero_apply,
    ← Equiv.sum_comp (contrEquiv1 dot_S256x256_S6144x256_S256x6144_1_1_0_0_n_n 256 rfl rfl).symm]
  refine Finset.sum_congr rfl fun k _ => ?_
  have hk := contrEquiv1_symm_val dot_S256x256_S6144x256_S256x6144_1_1_0_0_n_n 256 rfl rfl k
  have el : dot_S256x256_S6144x256_S256x6144_1_1_0_0_n_n.lhsIdx (ix2 p q)
      ((contrEquiv1 dot_S256x256_S6144x256_S256x6144_1_1_0_0_n_n 256 rfl rfl).symm k) = ix2 p k :=
    funext fun a => Fin.ext (by
      match a with
      | ⟨0, _⟩ => exact dot_lhs_0 _ _
      | ⟨1, _⟩ => exact (dot_lhs_1 _ _).trans hk)
  have er : dot_S256x256_S6144x256_S256x6144_1_1_0_0_n_n.rhsIdx (ix2 p q)
      ((contrEquiv1 dot_S256x256_S6144x256_S256x6144_1_1_0_0_n_n 256 rfl rfl).symm k) = ix2 q k :=
    funext fun a => Fin.ext (by
      match a with
      | ⟨0, _⟩ => exact dot_rhs_0 _ _
      | ⟨1, _⟩ => exact (dot_rhs_1 _ _).trans hk)
  rw [el, er]

/-- The first cell's input-side starting total is zero everywhere. -/
theorem pay1_apply (i : S256x6144.Idx) : k0_pay1 (F := Ideal) i = 0 := by
  unfold k0_pay1
  rw [shapeCast_self]
  exact Ideal.ofBits_zero_f32

/-- The first cell's hidden-side starting total is zero everywhere. -/
theorem pay2_apply (i : S256x6144.Idx) : k0_pay2 (F := Ideal) i = 0 := by
  unfold k0_pay2
  rw [shapeCast_self]
  exact Ideal.ofBits_zero_f32

/-- One input-side accumulation step of the first cell at `(p, q)`. -/
theorem pay3_apply (v3 : Vec Ideal S256x256 .f32) (v11 : Vec Ideal S256x6144 .f32) (v12 : Vec Ideal S6144x256 .bf16)
    (p : Fin 256) (q : Fin 6144) :
    k0_pay3 (F := Ideal) v3 v11 v12 (ix2 p q) = v11 (ix2 p q) + ∑ c : Fin 256, v3 (ix2 p c) * v12 (ix2 q c) := by
  unfold k0_pay3
  simp only [shapeCast_self]
  exact congrArg (v11 (ix2 p q) + ·) (tile_product_at _ _ p q)

/-- One hidden-side accumulation step of the first cell at `(p, q)`. -/
theorem pay4_apply (v8 : Vec Ideal S256x256 .f32) (v19 : Vec Ideal S256x6144 .f32) (v20 : Vec Ideal S6144x256 .bf16)
    (p : Fin 256) (q : Fin 6144) :
    k0_pay4 (F := Ideal) v8 v19 v20 (ix2 p q) = v19 (ix2 p q) + ∑ c : Fin 256, v8 (ix2 p c) * v20 (ix2 q c) := by
  unfold k0_pay4
  simp only [shapeCast_self]
  exact congrArg (v19 (ix2 p q) + ·) (tile_product_at _ _ p q)

end Cert.Bridge

end
-- ==== Proof.LibBlockedSum.lean ====
import Mathlib.Algebra.BigOperators.Fin
import Mathlib.Algebra.BigOperators.Intervals

/-!
# Sums over a long axis, taken block by block

A contraction over an axis of length `nb * tk` can be taken in `nb` consecutive blocks of `tk` terms, the partial
sums added one after the other into a running total. In a commutative additive monoid — the extended reals among
them, where `+` is associative and commutative although it does not cancel — the running total after the last
block is the starting value plus the whole sum. Nothing here needs the terms to be finite.
-/

namespace BlockedSum

open Finset

variable {M : Type*} [AddCommMonoid M]

/-- A sum over `nb * tk` consecutive terms is the sum, over the `nb` blocks, of each block's `tk` terms:
    term `k = b * tk + j` is the `j`-th term of block `b`. -/
theorem sum_range_mul (f : ℕ → M) (nb tk : ℕ) :
    ∑ k ∈ range (nb * tk), f k = ∑ b ∈ range nb, ∑ j ∈ range tk, f (b * tk + j) := by
  induction nb with
  | zero => simp
  | succ n ih =>
    rw [Nat.succ_mul, sum_range_add, ih, sum_range_succ]

/-- The same over `Fin`: the index types a contraction over a literal extent is written with. -/
theorem sum_fin_mul (f : ℕ → M) (nb tk : ℕ) :
    ∑ k : Fin (nb * tk), f k.val = ∑ b : Fin nb, ∑ j : Fin tk, f (b.val * tk + j.val) := by
  rw [Fin.sum_univ_eq_sum_range (fun k => f k) (nb * tk), sum_range_mul,
    ← Fin.sum_univ_eq_sum_range (fun b => ∑ j ∈ range tk, f (b * tk + j)) nb]
  refine sum_congr rfl fun b _ => ?_
  rw [← Fin.sum_univ_eq_sum_range (fun j => f (b.val * tk + j)) tk]

/-- A running total that starts at `a₀` and takes one more term at each step holds, after `n` steps, `a₀` plus the
    first `n` terms. -/
theorem running_total (acc : ℕ → M) (d : ℕ → M) (a₀ : M) (h0 : acc 0 = a₀) (hs : ∀ b, acc (b + 1) = acc b + d b) (n : ℕ) :
    acc n = a₀ + ∑ b ∈ range n, d b := by
  induction n with
  | zero => simp [h0]
  | succ n ih => rw [hs, ih, sum_range_succ, add_assoc]

/-- Accumulating a contraction block by block: starting from `a₀` and adding, at step `b`, the partial sum of block
    `b`, the total after all `nb` blocks is `a₀` plus the whole contraction. -/
theorem accumulate_blocks (acc : ℕ → M) (f : ℕ → M) (a₀ : M) (nb tk : ℕ) (h0 : acc 0 = a₀)
    (hs : ∀ b, acc (b + 1) = acc b + ∑ j ∈ range tk, f (b * tk + j)) :
    acc nb = a₀ + ∑ k ∈ range (nb * tk), f k := by
  rw [running_total acc _ a₀ h0 hs nb, sum_range_mul]

end BlockedSum
-- ==== Proof.PayloadTotal.lean ====
import proofs.«154160_j33036888441278_1_alg».proof.Proof.PayloadStep
import proofs.«154160_j33036888441278_1_alg».proof.Proof.LibBlockedSum

/-!
# Eight accumulation steps make the whole contraction

The contraction over 2048 coordinates is taken in eight tiles of 256. If tile `k` of the input holds columns
`k · 256 … k · 256 + 255` of a row of `X` and tile `k` of the weights the same columns of a row of `W`, and the running
total starts from the first tile's product and takes one more tile's product at each step, then after the eighth tile
entry `(p, q)` of the total is `∑ k, X p k · W q k` over all 2048 coordinates. Only associativity and commutativity
of the extended reals' addition are used.
-/

noncomputable section

namespace Cert.Bridge

open Cert.KernelIdeal Cert.KernelIdeal.Gen Idealize.ShloMosaic Idealize.ShloMosaic.ValueIdx Finset

/-- A running total over eight tiles of 256 contracted coordinates each holds, after the last tile, the contraction
    over all 2048 coordinates. -/
theorem blocks_total (X : Fin 256 → Fin 2048 → EReal) (W : Fin 6144 → Fin 2048 → EReal)
    (xt : ℕ → Vec Ideal S256x256 .f32) (wt : ℕ → Vec Ideal S6144x256 .bf16) (acc : ℕ → Vec Ideal S256x6144 .f32)
    (hx : ∀ (k : ℕ) (hk : k < 8) (p c : Fin 256), xt k (ix2 p c) = X p ⟨k * 256 + c.val, by have := c.isLt; omega⟩)
    (hw : ∀ (k : ℕ) (hk : k < 8) (q : Fin 6144) (c : Fin 256), wt k (ix2 q c) = W q ⟨k * 256 + c.val, by have := c.isLt; omega⟩)
    (h0 : ∀ (p : Fin 256) (q : Fin 6144), acc 0 (ix2 p q) = ∑ c : Fin 256, xt 0 (ix2 p c) * wt 0 (ix2 q c))
    (hs : ∀ k, k + 1 < 8 → ∀ (p : Fin 256) (q : Fin 6144),
      acc (k + 1) (ix2 p q) = acc k (ix2 p q) + ∑ c : Fin 256, xt (k + 1) (ix2 p c) * wt (k + 1) (ix2 q c))
    (p : Fin 256) (q : Fin 6144) : acc 7 (ix2 p q) = ∑ kk : Fin 2048, X p kk * W q kk := by
  let f : ℕ → EReal := fun n => if h : n < 2048 then X p ⟨n, h⟩ * W q ⟨n, h⟩ else 0
  have hblock : ∀ k, k < 8 → ∑ c : Fin 256, xt k (ix2 p c) * wt k (ix2 q c) = ∑ j ∈ range 256, f (k * 256 + j) := by
    intro k hk
    rw [← Fin.sum_univ_eq_sum_range (fun j => f (k * 256 + j)) 256]
    refine Finset.sum_congr rfl fun c _ => ?_
    rw [hx k hk p c, hw k hk q c]
    have hlt : k * 256 + c.val < 2048 := by have := c.isLt; omega
    show _ = (if h : k * 256 + c.val < 2048 then X p ⟨k * 256 + c.val, h⟩ * W q ⟨k * 256 + c.val, h⟩ else 0)
    rw [dif_pos hlt]
  have hpart : ∀ k, k < 8 → acc k (ix2 p q) = ∑ b ∈ range (k + 1), ∑ j ∈ range 256, f (b * 256 + j) := by
    intro k
    induction k with
    | zero => intro _; rw [h0, hblock 0 (by omega), Finset.sum_range_one]
    | succ n ih => intro hn; rw [hs n hn, ih (by omega), hblock (n + 1) hn, Finset.sum_range_succ _ (n + 1)]
  rw [hpart 7 (by omega), ← BlockedSum.sum_range_mul f 8 256, ← Fin.sum_univ_eq_sum_range f (8 * 256)]
  show ∑ kk : Fin 2048, f kk.val = _
  refine Finset.sum_congr rfl fun kk _ => ?_
  show (if h : kk.val < 2048 then X p ⟨kk.val, h⟩ * W q ⟨kk.val, h⟩ else 0) = _
  rw [dif_pos kk.isLt]

/-- The first cell's input-side total after the eighth step. -/
theorem pay3_total (X : Fin 256 → Fin 2048 → EReal) (W : Fin 6144 → Fin 2048 → EReal)
    (xt : ℕ → Vec Ideal S256x256 .f32) (wt : ℕ → Vec Ideal S6144x256 .bf16) (acc : ℕ → Vec Ideal S256x6144 .f32)
    (hx : ∀ (k : ℕ) (hk : k < 8) (p c : Fin 256), xt k (ix2 p c) = X p ⟨k * 256 + c.val, by have := c.isLt; omega⟩)
    (hw : ∀ (k : ℕ) (hk : k < 8) (q : Fin 6144) (c : Fin 256), wt k (ix2 q c) = W q ⟨k * 256 + c.val, by have := c.isLt; omega⟩)
    (h0 : acc 0 = k0_pay3 (F := Ideal) (xt 0) (k0_pay1 (F := Ideal)) (wt 0))
    (hs : ∀ k, k + 1 < 8 → acc (k + 1) = k0_pay3 (F := Ideal) (xt (k + 1)) (acc k) (wt (k + 1)))
    (p : Fin 256) (q : Fin 6144) : acc 7 (ix2 p q) = ∑ kk : Fin 2048, X p kk * W q kk :=
  blocks_total X W xt wt acc hx hw
    (fun p q => by rw [h0, pay3_apply, pay1_apply, zero_add])
    (fun k hk p q => by rw [hs k hk, pay3_apply]) p q

/-- The first cell's hidden-side total after the eighth step. -/
theorem pay4_total (X : Fin 256 → Fin 2048 → EReal) (W : Fin 6144 → Fin 2048 → EReal)
    (xt : ℕ → Vec Ideal S256x256 .f32) (wt : ℕ → Vec Ideal S6144x256 .bf16) (acc : ℕ → Vec Ideal S256x6144 .f32)
    (hx : ∀ (k : ℕ) (hk : k < 8) (p c : Fin 256), xt k (ix2 p c) = X p ⟨k * 256 + c.val, by have := c.isLt; omega⟩)
    (hw : ∀ (k : ℕ) (hk : k < 8) (q : Fin 6144) (c : Fin 256), wt k (ix2 q c) = W q ⟨k * 256 + c.val, by have := c.isLt; omega⟩)
    (h0 : acc 0 = k0_pay4 (F := Ideal) (xt 0) (k0_pay2 (F := Ideal)) (wt 0))
    (hs : ∀ k, k + 1 < 8 → acc (k + 1) = k0_pay4 (F := Ideal) (xt (k + 1)) (acc k) (wt (k + 1)))
    (p : Fin 256) (q : Fin 6144) : acc 7 (ix2 p q) = ∑ kk : Fin 2048, X p kk * W q kk :=
  blocks_total X W xt wt acc hx hw
    (fun p q => by rw [h0, pay4_apply, pay2_apply, zero_add])
    (fun k hk p q => by rw [hs k hk, pay4_apply]) p q

end Cert.Bridge

end
-- ==== Proof.Spec.lean ====
import Idealize.ShloMosaic.PureOps.Ideal
import Idealize.ShloMosaic.Lib.ValueIdx

/-!
# Two stacked GRU cells over the extended reals

The function both programs compute, entry by entry. A cell takes an input row `x b`, a hidden row `h b`, two
weight matrices of 3·2048 rows (the reset, update and candidate gates stacked) and two bias vectors. Its
pre-activations are `gi b j = (∑ k, x b k · W_ih j k) + b_ih j` and `gh b j = (∑ k, h b k · W_hh j k) + b_hh j`;
with `r = σ(gi_r + gh_r)`, `z = σ(gi_z + gh_z)`, `n = tanh(gi_n + r · gh_n)` the new hidden entry is
`(1 - z) · n + z · h`. The result is the first cell's output beside the second cell's, the second fed by the first.
-/

noncomputable section

namespace Cert.Spec

open Idealize.ShloMosaic Idealize.ShloMosaic.ValueIdx

abbrev SX : Shape := ⟨2, ![8192, 2048]⟩
abbrev SW : Shape := ⟨2, ![6144, 2048]⟩
abbrev SB : Shape := ⟨1, ![6144]⟩
abbrev SS : Shape := ⟨2, ![8192, 4096]⟩

/-- One pre-activation entry: row `b` of `x` against row `j` of `W`, plus the bias. -/
def pre (x : SX.Idx → EReal) (W : SW.Idx → EReal) (bias : SB.Idx → EReal) (b : Fin 8192) (j : Fin 6144) : EReal :=
  (∑ k : Fin 2048, x (ix2 b k) * W (ix2 j k)) + bias (ix1 j)

/-- The gating of one entry from its six pre-activations and the old hidden entry. -/
def gate (ir hr iz hz inn hn h : EReal) : EReal :=
  (1 - Ideal.logistic (iz + hz)) * Ideal.tanh (inn + Ideal.logistic (ir + hr) * hn) + Ideal.logistic (iz + hz) * h

/-- Gate `g` (0 reset, 1 update, 2 candidate) of hidden unit `j` sits in row `g · 2048 + j` of the stacked weights. -/
def row (g : Fin 3) (j : Fin 2048) : Fin 6144 := ⟨g.val * 2048 + j.val, by have := g.isLt; have := j.isLt; omega⟩

/-- One GRU cell. -/
def cell (x h : SX.Idx → EReal) (Wih Whh : SW.Idx → EReal) (bih bhh : SB.Idx → EReal) : SX.Idx → EReal := fun i =>
  gate (pre x Wih bih (i 0) (row 0 (i 1))) (pre h Whh bhh (i 0) (row 0 (i 1)))
    (pre x Wih bih (i 0) (row 1 (i 1))) (pre h Whh bhh (i 0) (row 1 (i 1)))
    (pre x Wih bih (i 0) (row 2 (i 1))) (pre h Whh bhh (i 0) (row 2 (i 1))) (h i)

/-- The left and right halves of the state: the two cells' hidden inputs. -/
def stateL (s : SS.Idx → EReal) : SX.Idx → EReal := fun i => s (ix2 (i 0) ⟨(i 1).val, by have := idx2_lt1 i; omega⟩)
def stateR (s : SS.Idx → EReal) : SX.Idx → EReal := fun i => s (ix2 (i 0) ⟨(i 1).val + 2048, by have := idx2_lt1 i; omega⟩)

/-- The first layer's output. -/
def layer1 (inp : SX.Idx → EReal) (s : SS.Idx → EReal) (Wih0 Whh0 : SW.Idx → EReal) (bih0 bhh0 : SB.Idx → EReal) : SX.Idx → EReal :=
  cell inp (stateL s) Wih0 Whh0 bih0 bhh0

/-- The second layer's output, fed by the first. -/
def layer2 (inp : SX.Idx → EReal) (s : SS.Idx → EReal) (Wih0 Whh0 : SW.Idx → EReal) (bih0 bhh0 : SB.Idx → EReal)
    (Wih1 Whh1 : SW.Idx → EReal) (bih1 bhh1 : SB.Idx → EReal) : SX.Idx → EReal :=
  cell (layer1 inp s Wih0 Whh0 bih0 bhh0) (stateR s) Wih1 Whh1 bih1 bhh1

/-- Two arrays of 2048 columns side by side. -/
def beside (a b : SX.Idx → EReal) : SS.Idx → EReal := fun i =>
  if h : (i 1).val < 2048 then a (ix2 (i 0) ⟨(i 1).val, h⟩)
  else b (ix2 (i 0) ⟨(i 1).val - 2048, by have := idx2_lt1 i; omega⟩)

/-- The whole result: both layers' outputs side by side. -/
def result (inp : SX.Idx → EReal) (s : SS.Idx → EReal) (Wih0 Whh0 : SW.Idx → EReal) (bih0 bhh0 : SB.Idx → EReal)
    (Wih1 Whh1 : SW.Idx → EReal) (bih1 bhh1 : SB.Idx → EReal) : SS.Idx → EReal :=
  beside (layer1 inp s Wih0 Whh0 bih0 bhh0) (layer2 inp s Wih0 Whh0 bih0 bhh0 Wih1 Whh1 bih1 bhh1)

end Cert.Spec

end
-- ==== Proof.PayloadGate.lean ====
import proofs.«154160_j33036888441278_1_alg».proof.Proof.Gen.KernelIdeal.Skeleton
import proofs.«154160_j33036888441278_1_alg».proof.Proof.Spec
import Idealize.ShloMosaic.Lib.Pipeline.Value
import Idealize.ShloMosaic.Lib.ValueIdx
import Idealize.ShloMosaic.Lib.IdealHost
import Idealize.ShloMosaic.PureOps.Ideal.Laws

/-!
# The kernel's gating step, read at an index over the extended reals

At the last contraction step the two `[256, 6144]` totals each take their bias row, broadcast down the 256 rows, and
are cut into three `[256, 2048]` column blocks at offsets 0, 2048 and 4096: the reset, update and candidate
pre-activations. Entry `(p, j)` of block `g` is entry `(p, g · 2048 + j)` of the biased total, and the stored value is
the gate function of the six pre-activations and the old hidden entry.
-/

noncomputable section

namespace Cert.Bridge

open Cert.KernelIdeal Cert.KernelIdeal.Gen Idealize.ShloMosaic Idealize.ShloMosaic.ValueIdx

/-- A bias row broadcast down the rows reads its own column. -/
theorem bias_rows_at {α : Type} (v : S1x6144.Idx → α) (p : Fin 256) (q : Fin 6144) :
    broadcastTo S256x6144 v Facts₀.broadcasts_S1x6144_S256x6144 (ix2 p q) = v (ix2 0 q) :=
  broadcastTo_apply v Facts₀.broadcasts_S1x6144_S256x6144 (ix2 p q) (ix2 0 q) (fun a => match a with
    | ⟨0, _⟩ => by show 0 = if (1 : Nat) = 1 then 0 else p.val; rw [if_pos rfl]
    | ⟨1, _⟩ => by show q.val = if (6144 : Nat) = 1 then 0 else q.val; rw [if_neg (by decide)])

/-- The reset block: columns `0 … 2047`. -/
theorem block0_at {α : Type} (v : S256x6144.Idx → α) (p : Fin 256) (j : Fin 2048) :
    extractStridedSlice S256x2048 ![0, 0] v Facts₀.slices_S256x6144_o0_0_S256x2048 (ix2 p j) = v (ix2 p (Cert.Spec.row 0 j)) :=
  extractStridedSlice_apply ![0, 0] v Facts₀.slices_S256x6144_o0_0_S256x2048 (ix2 p j) (ix2 p (Cert.Spec.row 0 j)) (fun a => match a with
    | ⟨0, _⟩ => by show p.val = 0 + p.val; omega
    | ⟨1, _⟩ => by show (0 : Fin 3).val * 2048 + j.val = 0 + j.val; simp)

/-- The update block: columns `2048 … 4095`. -/
theorem block1_at {α : Type} (v : S256x6144.Idx → α) (p : Fin 256) (j : Fin 2048) :
    extractStridedSlice S256x2048 ![0, 2048] v Facts₀.slices_S256x6144_o0_2048_S256x2048 (ix2 p j) = v (ix2 p (Cert.Spec.row 1 j)) :=
  extractStridedSlice_apply ![0, 2048] v Facts₀.slices_S256x6144_o0_2048_S256x2048 (ix2 p j) (ix2 p (Cert.Spec.row 1 j)) (fun a => match a with
    | ⟨0, _⟩ => by show p.val = 0 + p.val; omega
    | ⟨1, _⟩ => by show (1 : Fin 3).val * 2048 + j.val = 2048 + j.val; simp)

/-- The candidate block: columns `4096 … 6143`. -/
theorem block2_at {α : Type} (v : S256x6144.Idx → α) (p : Fin 256) (j : Fin 2048) :
    extractStridedSlice S256x2048 ![0, 4096] v Facts₀.slices_S256x6144_o0_4096_S256x2048 (ix2 p j) = v (ix2 p (Cert.Spec.row 2 j)) :=
  extractStridedSlice_apply ![0, 4096] v Facts₀.slices_S256x6144_o0_4096_S256x2048 (ix2 p j) (ix2 p (Cert.Spec.row 2 j)) (fun a => match a with
    | ⟨0, _⟩ => by show p.val = 0 + p.val; omega
    | ⟨1, _⟩ => by show (2 : Fin 3).val * 2048 + j.val = 4096 + j.val; simp)

/-- The first cell's gating at `(p, j)`: the gate function of the six biased totals and the old hidden entry. -/
theorem pay5_apply (v30 : Vec Ideal S256x6144 .f32) (v31 : Vec Ideal S1x6144 .f32) (v35 : Vec Ideal S256x6144 .f32)
    (v36 : Vec Ideal S1x6144 .f32) (v53 : Vec Ideal S256x2048 .f32) (p : Fin 256) (j : Fin 2048) :
    k0_pay5 (F := Ideal) v30 v31 v35 v36 v53 (ix2 p j)
      = Cert.Spec.gate
          (v30 (ix2 p (Cert.Spec.row 0 j)) + v31 (ix2 0 (Cert.Spec.row 0 j)))
          (v35 (ix2 p (Cert.Spec.row 0 j)) + v36 (ix2 0 (Cert.Spec.row 0 j)))
          (v30 (ix2 p (Cert.Spec.row 1 j)) + v31 (ix2 0 (Cert.Spec.row 1 j)))
          (v35 (ix2 p (Cert.Spec.row 1 j)) + v36 (ix2 0 (Cert.Spec.row 1 j)))
          (v30 (ix2 p (Cert.Spec.row 2 j)) + v31 (ix2 0 (Cert.Spec.row 2 j)))
          (v35 (ix2 p (Cert.Spec.row 2 j)) + v36 (ix2 0 (Cert.Spec.row 2 j)))
          (v53 (ix2 p j)) := by
  unfold k0_pay5
  simp only [shapeCast_self]
  simp only [addf_apply, mulf_apply, subf_apply, logistic, tanh, broadcast_apply, Ideal.logistic_def, Ideal.tanh_def,
    block0_at, block1_at, block2_at, bias_rows_at]
  have h1 : (FloatOps.ofBits FTy.f32 0x3F800000#32 : Ideal .f32) = (1 : EReal) := Ideal.ofBits_one_f32
  rw [h1]
  rfl

end Cert.Bridge

end
-- ==== Proof.PayloadCell.lean ====
import proofs.«154160_j33036888441278_1_alg».proof.Proof.PayloadTotal
import proofs.«154160_j33036888441278_1_alg».proof.Proof.PayloadGate

/-!
# One batch tile of a cell, from its eight accumulation steps and the gating

Batch tile `B` of a cell works on rows `B · 256 … B · 256 + 255` of the input `x` and of the hidden state `h`. When the
tiles the eight steps read are the corresponding blocks of `x`, `h` and the two stacked weight matrices, the bias rows
are the bias vectors, and the old hidden block is the rows of `h`, the value the last step stores at `(p, j)` is the
cell's entry `(B · 256 + p, j)`: the two totals are the whole contractions, and the gating is the gate function of
the six pre-activations.
-/

noncomputable section

namespace Cert.Bridge

open Cert.KernelIdeal Cert.KernelIdeal.Gen Idealize.ShloMosaic Idealize.ShloMosaic.ValueIdx

/-- Row `p` of batch tile `B`. -/
abbrev tileRow (B : Fin 32) (p : Fin 256) : Fin 8192 := ⟨B.val * 256 + p.val, by have := B.isLt; have := p.isLt; omega⟩

/-- Column `c` of contraction tile `k`. -/
abbrev tileCol (k : ℕ) (hk : k < 8) (c : Fin 256) : Fin 2048 := ⟨k * 256 + c.val, by have := c.isLt; omega⟩

/-- The first cell's stored value for batch tile `B` at `(p, j)` is the cell's entry `(B · 256 + p, j)`. -/
theorem cell0_tile_at (x h : Cert.Spec.SX.Idx → EReal) (Wih Whh : Cert.Spec.SW.Idx → EReal) (bih bhh : Cert.Spec.SB.Idx → EReal)
    (B : Fin 32)
    (xt ht : ℕ → Vec Ideal S256x256 .f32) (wit wht : ℕ → Vec Ideal S6144x256 .bf16)
    (acci acch : ℕ → Vec Ideal S256x6144 .f32) (bi bh : Vec Ideal S1x6144 .f32) (hold : Vec Ideal S256x2048 .f32)
    (hxt : ∀ (k : ℕ) (hk : k < 8) (p c : Fin 256), xt k (ix2 p c) = x (ix2 (tileRow B p) (tileCol k hk c)))
    (hht : ∀ (k : ℕ) (hk : k < 8) (p c : Fin 256), ht k (ix2 p c) = h (ix2 (tileRow B p) (tileCol k hk c)))
    (hwit : ∀ (k : ℕ) (hk : k < 8) (q : Fin 6144) (c : Fin 256), wit k (ix2 q c) = Wih (ix2 q (tileCol k hk c)))
    (hwht : ∀ (k : ℕ) (hk : k < 8) (q : Fin 6144) (c : Fin 256), wht k (ix2 q c) = Whh (ix2 q (tileCol k hk c)))
    (hbi : ∀ q : Fin 6144, bi (ix2 0 q) = bih (ix1 q)) (hbh : ∀ q : Fin 6144, bh (ix2 0 q) = bhh (ix1 q))
    (hhold : ∀ (p : Fin 256) (j : Fin 2048), hold (ix2 p j) = h (ix2 (tileRow B p) j))
    (hi0 : acci 0 = k0_pay3 (F := Ideal) (xt 0) (k0_pay1 (F := Ideal)) (wit 0))
    (his : ∀ k, k + 1 < 8 → acci (k + 1) = k0_pay3 (F := Ideal) (xt (k + 1)) (acci k) (wit (k + 1)))
    (hh0 : acch 0 = k0_pay4 (F := Ideal) (ht 0) (k0_pay2 (F := Ideal)) (wht 0))
    (hhs : ∀ k, k + 1 < 8 → acch (k + 1) = k0_pay4 (F := Ideal) (ht (k + 1)) (acch k) (wht (k + 1)))
    (p : Fin 256) (j : Fin 2048) :
    k0_pay5 (F := Ideal) (acci 7) bi (acch 7) bh hold (ix2 p j)
      = Cert.Spec.cell x h Wih Whh bih bhh (ix2 (tileRow B p) j) := by
  have hi : ∀ q : Fin 6144, acci 7 (ix2 p q) = ∑ kk : Fin 2048, x (ix2 (tileRow B p) kk) * Wih (ix2 q kk) := fun q =>
    pay3_total (fun p' kk => x (ix2 (tileRow B p') kk)) (fun q' kk => Wih (ix2 q' kk)) xt wit acci hxt hwit hi0 his p q
  have hh : ∀ q : Fin 6144, acch 7 (ix2 p q) = ∑ kk : Fin 2048, h (ix2 (tileRow B p) kk) * Whh (ix2 q kk) := fun q =>
    pay4_total (fun p' kk => h (ix2 (tileRow B p') kk)) (fun q' kk => Whh (ix2 q' kk)) ht wht acch hht hwht hh0 hhs p q
  rw [pay5_apply, hi, hi, hi, hh, hh, hh, hbi, hbi, hbi, hbh, hbh, hbh, hhold]
  rfl

end Cert.Bridge

end
-- ==== Proof.PayloadSecond.lean ====
import proofs.«154160_j33036888441278_1_alg».proof.Proof.PayloadCell

/-!
# The second cell's kernel, read at an index over the extended reals

The second cell's kernel does the same arithmetic as the first's on its own operands: two zero starting totals, an
accumulation step per contraction tile for the input side and for the hidden side, and the gating at the last step.
The statements are the first cell's, about the second kernel's payloads.
-/

noncomputable section

namespace Cert.Bridge

open Cert.KernelIdeal Cert.KernelIdeal.Gen Idealize.ShloMosaic Idealize.ShloMosaic.ValueIdx

/-- The second cell's input-side starting total is zero everywhere. -/
theorem k1pay1_apply (i : S256x6144.Idx) : k1_pay1 (F := Ideal) i = 0 := by
  unfold k1_pay1
  rw [shapeCast_self]
  exact Ideal.ofBits_zero_f32

/-- The second cell's hidden-side starting total is zero everywhere. -/
theorem k1pay2_apply (i : S256x6144.Idx) : k1_pay2 (F := Ideal) i = 0 := by
  unfold k1_pay2
  rw [shapeCast_self]
  exact Ideal.ofBits_zero_f32

/-- One input-side accumulation step of the second cell at `(p, q)`. -/
theorem k1pay3_apply (v3 : Vec Ideal S256x256 .f32) (v12 : Vec Ideal S256x6144 .f32) (v13 : Vec Ideal S6144x256 .bf16)
    (p : Fin 256) (q : Fin 6144) :
    k1_pay3 (F := Ideal) v3 v12 v13 (ix2 p q) = v12 (ix2 p q) + ∑ c : Fin 256, v3 (ix2 p c) * v13 (ix2 q c) := by
  unfold k1_pay3
  simp only [shapeCast_self]
  exact congrArg (v12 (ix2 p q) + ·) (tile_product_at _ _ p q)

/-- One hidden-side accumulation step of the second cell at `(p, q)`. -/
theorem k1pay4_apply (v9 : Vec Ideal S256x256 .f32) (v20 : Vec Ideal S256x6144 .f32) (v21 : Vec Ideal S6144x256 .bf16)
    (p : Fin 256) (q : Fin 6144) :
    k1_pay4 (F := Ideal) v9 v20 v21 (ix2 p q) = v20 (ix2 p q) + ∑ c : Fin 256, v9 (ix2 p c) * v21 (ix2 q c) := by
  unfold k1_pay4
  simp only [shapeCast_self]
  exact congrArg (v20 (ix2 p q) + ·) (tile_product_at _ _ p q)

/-- The second cell's gating at `(p, j)`: the gate function of the six biased totals and the old hidden entry. -/
theorem k1pay5_apply (v31 : Vec Ideal S256x6144 .f32) (v32 : Vec Ideal S1x6144 .f32) (v36 : Vec Ideal S256x6144 .f32)
    (v37 : Vec Ideal S1x6144 .f32) (v54 : Vec Ideal S256x2048 .f32) (p : Fin 256) (j : Fin 2048) :
    k1_pay5 (F := Ideal) v31 v32 v36 v37 v54 (ix2 p j)
      = Cert.Spec.gate
          (v31 (ix2 p (Cert.Spec.row 0 j)) + v32 (ix2 0 (Cert.Spec.row 0 j)))
          (v36 (ix2 p (Cert.Spec.row 0 j)) + v37 (ix2 0 (Cert.Spec.row 0 j)))
          (v31 (ix2 p (Cert.Spec.row 1 j)) + v32 (ix2 0 (Cert.Spec.row 1 j)))
          (v36 (ix2 p (Cert.Spec.row 1 j)) + v37 (ix2 0 (Cert.Spec.row 1 j)))
          (v31 (ix2 p (Cert.Spec.row 2 j)) + v32 (ix2 0 (Cert.Spec.row 2 j)))
          (v36 (ix2 p (Cert.Spec.row 2 j)) + v37 (ix2 0 (Cert.Spec.row 2 j)))
          (v54 (ix2 p j)) := by
  unfold k1_pay5
  simp only [shapeCast_self]
  simp only [addf_apply, mulf_apply, subf_apply, logistic, tanh, broadcast_apply, Ideal.logistic_def, Ideal.tanh_def,
    block0_at, block1_at, block2_at, bias_rows_at]
  have h1 : (FloatOps.ofBits FTy.f32 0x3F800000#32 : Ideal .f32) = (1 : EReal) := Ideal.ofBits_one_f32
  rw [h1]
  rfl

/-- The second cell's input-side total after the eighth step. -/
theorem k1pay3_total (X : Fin 256 → Fin 2048 → EReal) (W : Fin 6144 → Fin 2048 → EReal)
    (xt : ℕ → Vec Ideal S256x256 .f32) (wt : ℕ → Vec Ideal S6144x256 .bf16) (acc : ℕ → Vec Ideal S256x6144 .f32)
    (hx : ∀ (k : ℕ) (hk : k < 8) (p c : Fin 256), xt k (ix2 p c) = X p ⟨k * 256 + c.val, by have := c.isLt; omega⟩)
    (hw : ∀ (k : ℕ) (hk : k < 8) (q : Fin 6144) (c : Fin 256), wt k (ix2 q c) = W q ⟨k * 256 + c.val, by have := c.isLt; omega⟩)
    (h0 : acc 0 = k1_pay3 (F := Ideal) (xt 0) (k1_pay1 (F := Ideal)) (wt 0))
    (hs : ∀ k, k + 1 < 8 → acc (k + 1) = k1_pay3 (F := Ideal) (xt (k + 1)) (acc k) (wt (k + 1)))
    (p : Fin 256) (q : Fin 6144) : acc 7 (ix2 p q) = ∑ kk : Fin 2048, X p kk * W q kk :=
  blocks_total X W xt wt acc hx hw
    (fun p q => by rw [h0, k1pay3_apply, k1pay1_apply, zero_add])
    (fun k hk p q => by rw [hs k hk, k1pay3_apply]) p q

/-- The second cell's hidden-side total after the eighth step. -/
theorem k1pay4_total (X : Fin 256 → Fin 2048 → EReal) (W : Fin 6144 → Fin 2048 → EReal)
    (xt : ℕ → Vec Ideal S256x256 .f32) (wt : ℕ → Vec Ideal S6144x256 .bf16) (acc : ℕ → Vec Ideal S256x6144 .f32)
    (hx : ∀ (k : ℕ) (hk : k < 8) (p c : Fin 256), xt k (ix2 p c) = X p ⟨k * 256 + c.val, by have := c.isLt; omega⟩)
    (hw : ∀ (k : ℕ) (hk : k < 8) (q : Fin 6144) (c : Fin 256), wt k (ix2 q c) = W q ⟨k * 256 + c.val, by have := c.isLt; omega⟩)
    (h0 : acc 0 = k1_pay4 (F := Ideal) (xt 0) (k1_pay2 (F := Ideal)) (wt 0))
    (hs : ∀ k, k + 1 < 8 → acc (k + 1) = k1_pay4 (F := Ideal) (xt (k + 1)) (acc k) (wt (k + 1)))
    (p : Fin 256) (q : Fin 6144) : acc 7 (ix2 p q) = ∑ kk : Fin 2048, X p kk * W q kk :=
  blocks_total X W xt wt acc hx hw
    (fun p q => by rw [h0, k1pay4_apply, k1pay2_apply, zero_add])
    (fun k hk p q => by rw [hs k hk, k1pay4_apply]) p q

/-- The second cell's stored value for batch tile `B` at `(p, j)` is the cell's entry `(B · 256 + p, j)`. -/
theorem cell1_tile_at (x h : Cert.Spec.SX.Idx → EReal) (Wih Whh : Cert.Spec.SW.Idx → EReal) (bih bhh : Cert.Spec.SB.Idx → EReal)
    (B : Fin 32)
    (xt ht : ℕ → Vec Ideal S256x256 .f32) (wit wht : ℕ → Vec Ideal S6144x256 .bf16)
    (acci acch : ℕ → Vec Ideal S256x6144 .f32) (bi bh : Vec Ideal S1x6144 .f32) (hold : Vec Ideal S256x2048 .f32)
    (hxt : ∀ (k : ℕ) (hk : k < 8) (p c : Fin 256), xt k (ix2 p c) = x (ix2 (tileRow B p) (tileCol k hk c)))
    (hht : ∀ (k : ℕ) (hk : k < 8) (p c : Fin 256), ht k (ix2 p c) = h (ix2 (tileRow B p) (tileCol k hk c)))
    (hwit : ∀ (k : ℕ) (hk : k < 8) (q : Fin 6144) (c : Fin 256), wit k (ix2 q c) = Wih (ix2 q (tileCol k hk c)))
    (hwht : ∀ (k : ℕ) (hk : k < 8) (q : Fin 6144) (c : Fin 256), wht k (ix2 q c) = Whh (ix2 q (tileCol k hk c)))
    (hbi : ∀ q : Fin 6144, bi (ix2 0 q) = bih (ix1 q)) (hbh : ∀ q : Fin 6144, bh (ix2 0 q) = bhh (ix1 q))
    (hhold : ∀ (p : Fin 256) (j : Fin 2048), hold (ix2 p j) = h (ix2 (tileRow B p) j))
    (hi0 : acci 0 = k1_pay3 (F := Ideal) (xt 0) (k1_pay1 (F := Ideal)) (wit 0))
    (his : ∀ k, k + 1 < 8 → acci (k + 1) = k1_pay3 (F := Ideal) (xt (k + 1)) (acci k) (wit (k + 1)))
    (hh0 : acch 0 = k1_pay4 (F := Ideal) (ht 0) (k1_pay2 (F := Ideal)) (wht 0))
    (hhs : ∀ k, k + 1 < 8 → acch (k + 1) = k1_pay4 (F := Ideal) (ht (k + 1)) (acch k) (wht (k + 1)))
    (p : Fin 256) (j : Fin 2048) :
    k1_pay5 (F := Ideal) (acci 7) bi (acch 7) bh hold (ix2 p j)
      = Cert.Spec.cell x h Wih Whh bih bhh (ix2 (tileRow B p) j) := by
  have hi : ∀ q : Fin 6144, acci 7 (ix2 p q) = ∑ kk : Fin 2048, x (ix2 (tileRow B p) kk) * Wih (ix2 q kk) := fun q =>
    k1pay3_total (fun p' kk => x (ix2 (tileRow B p') kk)) (fun q' kk => Wih (ix2 q' kk)) xt wit acci hxt hwit hi0 his p q
  have hh : ∀ q : Fin 6144, acch 7 (ix2 p q) = ∑ kk : Fin 2048, h (ix2 (tileRow B p) kk) * Whh (ix2 q kk) := fun q =>
    k1pay4_total (fun p' kk => h (ix2 (tileRow B p') kk)) (fun q' kk => Whh (ix2 q' kk)) ht wht acch hht hwht hh0 hhs p q
  rw [k1pay5_apply, hi, hi, hi, hh, hh, hh, hbi, hbi, hbi, hbh, hbh, hbh, hhold]
  rfl

end Cert.Bridge

end
-- ==== Proof.Payload.lean ====
import proofs.«154160_j33036888441278_1_alg».proof.Proof.PayloadSecond

/-!
# The kernels' arithmetic at an index

Both cells' kernels read entry by entry over the extended reals: the zero starting totals and one accumulation step
(`PayloadStep`), the gating (`PayloadGate`), eight steps making the whole contraction (`PayloadTotal`), one batch tile of
the first cell (`PayloadCell`) and the same for the second cell (`PayloadSecond`).
-/
-- ==== Proof.KiR1Base.lean ====
import proofs.«154160_j33036888441278_1_alg».proof.Proof.Gen.KernelIdeal.Launch
import proofs.«154160_j33036888441278_1_alg».proof.Proof.Gen.KernelIdeal.Skeleton
import proofs.«154160_j33036888441278_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 1: what its runs share

The region is entered with the TensorCore's buffers at contents `V`. A grid point is a pair (batch tile, contraction
tile); the body zeroes its two accumulators where the contraction tile is the first, adds one tile's products at every
point, and gates and stores the output block where the contraction tile is the last. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not: where it is not fetched the
    block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not: where it is not fetched the
    block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not: where it is not fetched the
    block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not: where it is not fetched the
    block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not: where it is not fetched the
    block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, fetched there or not: where it is not fetched the
    block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The two branch conditions, decided over the grid -/

/-- The contraction tile is the first one. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The contraction tile is the last one. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Away from the last contraction tile the output block is neither stored into nor written back. -/
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
/-- At the last contraction tile it is stored. -/
theorem liveAt1_6 : ∀ t : Fin cfg1.N, cond1_1 (grid1.coords t) → cfg1.idle 6 (grid1.coords t) = false := by decide +kernel

/-! ## The memrefs the body is called with -/

abbrev ms1_0 (t : Fin cfg1.N) : Memref sig .tc .vmem S256x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S6144x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S6144x256 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x6144 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x6144 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S256x2048 .f32 := win1_6.stage (cfg1.slots t 6)
abbrev hs1_6 (t : Fin cfg1.N) : (ms1_6 t).IsWhole := hstage1_6 ((cfg1.slots t 6).cast nbuf1_6)
/-- One staging buffer of the output window, through which its contents are stated. -/
abbrev VO1_6 : View sig .tc .vmem S256x2048 .f32 := (Memref.whole cc1_stg6_0 : Memref sig .tc .vmem S256x2048 .f32).view
/-- The two accumulators: whole scoped buffers of the kernel's own. -/
abbrev scM1_0 : Memref sig .tc .vmem S256x6144 .f32 := Memref.whole cc1_scratch0
abbrev scM1_1 : Memref sig .tc .vmem S256x6144 .f32 := Memref.whole cc1_scratch1
abbrev VS1_0 : View sig .tc .vmem S256x6144 .f32 := scM1_0.view
abbrev VS1_1 : View sig .tc .vmem S256x6144 .f32 := scM1_1.view

/-- The scoped buffers of the core that belong to the other region: whole, at some contents. -/
def Oth1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- The class invariant (every scoped buffer no window stages, at some contents, and the generator register) with the
    two accumulators taken out. -/
theorem PhiA1_split (c : Dev nD) :
    (Pipeline.ΦA spec1 c : sProp 𝕄)
      ⊢ iprop((∃ d, owns (c : Thread nD τ) scM1_0 fullShare d) ∗ (∃ d, owns (c : Thread nD τ) scM1_1 fullShare d) ∗ Oth1 c ∗ (∃ g, prngReg c g)) := by
  unfold Pipeline.ΦA Oth1; rw [scopedRest1_eq]; simp only [scM1_0, scM1_1, owns_whole]
  iintro ⟨⟨O0, O1, O2, O3, O4, O5, O6, O7, O8, O9, O10, O11, O12, O13, HS0, HS1⟩, Hp⟩
  isplitl [HS0]; · iexact HS0
  isplitl [HS1]; · iexact HS1
  isplitr [Hp]
  · isplitl [O0]; · iexact O0
    isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    isplitl [O9]; · iexact O9
    isplitl [O10]; · iexact O10
    isplitl [O11]; · iexact O11
    isplitl [O12]; · iexact O12
    iexact O13
  iexact Hp

theorem PhiA1_join (c : Dev nD) :
    iprop((∃ d, owns (c : Thread nD τ) scM1_0 fullShare d) ∗ (∃ d, owns (c : Thread nD τ) scM1_1 fullShare d) ∗ Oth1 c ∗ (∃ g, prngReg c g))
      ⊢ (Pipeline.ΦA spec1 c : sProp 𝕄) := by
  unfold Pipeline.ΦA Oth1; rw [scopedRest1_eq]; simp only [scM1_0, scM1_1, owns_whole]
  iintro ⟨HS0, HS1, ⟨O0, O1, O2, O3, O4, O5, O6, O7, O8, O9, O10, O11, O12, O13⟩, Hp⟩
  isplitr [Hp]
  · isplitl [O0]; · iexact O0
    isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    isplitl [O9]; · iexact O9
    isplitl [O10]; · iexact O10
    isplitl [O11]; · iexact O11
    isplitl [O12]; · iexact O12
    isplitl [O13]; · iexact O13
    isplitl [HS0]; · iexact HS0
    iexact HS1
  iexact Hp

end Cert.KernelIdeal.Fr

end
-- ==== Proof.BlocksAt.lean ====
import proofs.«154160_j33036888441278_1_alg».proof.Proof.KiR0Base
import proofs.«154160_j33036888441278_1_alg».proof.Proof.KiR1Base
import proofs.«154160_j33036888441278_1_alg».proof.Proof.PayloadCell

/-!
# The windows' blocks, read at an index

The grid is 32 batch tiles by 8 contraction tiles, walked row-major: point `t` is batch tile `t / 8` and contraction
tile `t % 8`. Each window's block at a point is a rectangle of its array, so an entry of the block is an entry of the
array: the input tile takes rows `B · 256 …` and columns `k · 256 …`, a weight tile all 6144 rows and columns
`k · 256 …`, the hidden block rows `B · 256 …` and all columns, and a bias row the whole bias array. Inside the body the
hidden tile is cut from the hidden block at columns `256 · k …`.
-/

set_option maxRecDepth 16384

noncomputable section

namespace Cert.Bridge

open Idealize.ShloMosaic Idealize.ShloMosaic.TcCoe Idealize.ShloMosaic.ValueIdx Idealize.SL.Sem
open Cert.KernelIdeal Cert.KernelIdeal.Gen Cert.KernelIdeal.Fr

variable {F : FTy → Type} [FloatOps F]
variable (V : (c : Dev nD) → (b : Ref sig .tc) → Buf (Elt F) ((c : Thread nD τ).loc b))

/-! ## Region 0: the first cell's windows -/

/-- A grid point's coordinates: the batch tile and the contraction tile. -/
theorem coords0 : ∀ t : Fin cfg0.N, (grid0.coords t 0).val = t.val / 8 ∧ (grid0.coords t 1).val = t.val % 8 :=
  (by decide +kernel : ∀ t : Fin grid0.N, (grid0.coords t 0).val = t.val / 8 ∧ (grid0.coords t 1).val = t.val % 8)

theorem index0_0 : ∀ t : Fin cfg0.N, win0_0.index t 0 = t.val / 8 ∧ win0_0.index t 1 = t.val % 8 :=
  (by decide +kernel : ∀ t : Fin grid0.N, win0_0.index t 0 = t.val / 8 ∧ win0_0.index t 1 = t.val % 8)
theorem index0_1 : ∀ t : Fin cfg0.N, win0_1.index t 0 = 0 ∧ win0_1.index t 1 = t.val % 8 :=
  (by decide +kernel : ∀ t : Fin grid0.N, win0_1.index t 0 = 0 ∧ win0_1.index t 1 = t.val % 8)
theorem index0_2 : ∀ t : Fin cfg0.N, win0_2.index t 0 = t.val / 8 ∧ win0_2.index t 1 = 0 :=
  (by decide +kernel : ∀ t : Fin grid0.N, win0_2.index t 0 = t.val / 8 ∧ win0_2.index t 1 = 0)
theorem index0_3 : ∀ t : Fin cfg0.N, win0_3.index t 0 = 0 ∧ win0_3.index t 1 = t.val % 8 :=
  (by decide +kernel : ∀ t : Fin grid0.N, win0_3.index t 0 = 0 ∧ win0_3.index t 1 = t.val % 8)
theorem index0_4 : ∀ t : Fin cfg0.N, win0_4.index t 0 = 0 ∧ win0_4.index t 1 = 0 :=
  (by decide +kernel : ∀ t : Fin grid0.N, win0_4.index t 0 = 0 ∧ win0_4.index t 1 = 0)
theorem index0_5 : ∀ t : Fin cfg0.N, win0_5.index t 0 = 0 ∧ win0_5.index t 1 = 0 :=
  (by decide +kernel : ∀ t : Fin grid0.N, win0_5.index t 0 = 0 ∧ win0_5.index t 1 = 0)

/-- The input tile at point `(B, k)` is rows `B · 256 …` and columns `k · 256 …` of the input array. -/
theorem iblk0_0_at (c : Dev nD) (t : Fin cfg0.N) (B : Fin 32) (k : ℕ) (hk : k < 8) (ht : t.val = 8 * B.val + k) (p c' : Fin 256) :
    (iblk0 V c 0 t : Vec F S256x256 .f32) (ix2 p c')
      = (V c main_arg0 : S8192x2048.Idx → Elt F .f32) (ix2 (tileRow B p) (tileCol k hk c')) := by
  have hi := index0_0 t
  unfold iblk0
  rw [View.read_apply]
  show (V c main_arg0 : S8192x2048.Idx → Elt F .f32) _ = _
  refine congrArg (V c main_arg0 : S8192x2048.Idx → Elt F .f32) (funext fun a => Fin.ext ?_)
  match a with
  | ⟨0, _⟩ => show win0_0.index t 0 * 256 + 1 * p.val = B.val * 256 + p.val; rw [hi.1]; omega
  | ⟨1, _⟩ => show win0_0.index t 1 * 256 + 1 * c'.val = k * 256 + c'.val; rw [hi.2]; omega

/-- The input-side weight tile at contraction tile `k` is columns `k · 256 …` of every row of the stacked weights. -/
theorem iblk0_1_at (c : Dev nD) (t : Fin cfg0.N) (B : Fin 32) (k : ℕ) (hk : k < 8) (ht : t.val = 8 * B.val + k) (q : Fin 6144) (c' : Fin 256) :
    (iblk0 V c 1 t : Vec F S6144x256 .bf16) (ix2 q c')
      = (V c main_v2 : S6144x2048.Idx → Elt F .bf16) (ix2 q (tileCol k hk c')) := by
  have hi := index0_1 t
  unfold iblk0
  rw [View.read_apply]
  show (V c main_v2 : S6144x2048.Idx → Elt F .bf16) _ = _
  refine congrArg (V c main_v2 : S6144x2048.Idx → Elt F .bf16) (funext fun a => Fin.ext ?_)
  match a with
  | ⟨0, _⟩ => show win0_1.index t 0 * 6144 + 1 * q.val = q.val; rw [hi.1]; omega
  | ⟨1, _⟩ => show win0_1.index t 1 * 256 + 1 * c'.val = k * 256 + c'.val; rw [hi.2]; omega

/-- The hidden block of batch tile `B` is rows `B · 256 …` of the hidden array, all 2048 columns. -/
theorem iblk0_2_at (c : Dev nD) (t : Fin cfg0.N) (B : Fin 32) (k : ℕ) (hk : k < 8) (ht : t.val = 8 * B.val + k) (p : Fin 256) (j : Fin 2048) :
    (iblk0 V c 2 t : Vec F S256x2048 .f32) (ix2 p j)
      = (V c main_v0 : S8192x2048.Idx → Elt F .f32) (ix2 (tileRow B p) j) := by
  have hi := index0_2 t
  unfold iblk0
  rw [View.read_apply]
  show (V c main_v0 : S8192x2048.Idx → Elt F .f32) _ = _
  refine congrArg (V c main_v0 : S8192x2048.Idx → Elt F .f32) (funext fun a => Fin.ext ?_)
  match a with
  | ⟨0, _⟩ => show win0_2.index t 0 * 256 + 1 * p.val = B.val * 256 + p.val; rw [hi.1]; omega
  | ⟨1, _⟩ => show win0_2.index t 1 * 2048 + 1 * j.val = j.val; rw [hi.2]; omega

/-- The hidden-side weight tile at contraction tile `k` is columns `k · 256 …` of every row of the stacked weights. -/
theorem iblk0_3_at (c : Dev nD) (t : Fin cfg0.N) (B : Fin 32) (k : ℕ) (hk : k < 8) (ht : t.val = 8 * B.val + k) (q : Fin 6144) (c' : Fin 256) :
    (iblk0 V c 3 t : Vec F S6144x256 .bf16) (ix2 q c')
      = (V c main_v3 : S6144x2048.Idx → Elt F .bf16) (ix2 q (tileCol k hk c')) := by
  have hi := index0_3 t
  unfold iblk0
  rw [View.read_apply]
  show (V c main_v3 : S6144x2048.Idx → Elt F .bf16) _ = _
  refine congrArg (V c main_v3 : S6144x2048.Idx → Elt F .bf16) (funext fun a => Fin.ext ?_)
  match a with
  | ⟨0, _⟩ => show win0_3.index t 0 * 6144 + 1 * q.val = q.val; rw [hi.1]; omega
  | ⟨1, _⟩ => show win0_3.index t 1 * 256 + 1 * c'.val = k * 256 + c'.val; rw [hi.2]; omega

/-- The input-side bias row is the whole bias array at every point. -/
theorem iblk0_4_at (c : Dev nD) (t : Fin cfg0.N) (q : Fin 6144) :
    (iblk0 V c 4 t : Vec F S1x6144 .f32) (ix2 0 q) = (V c main_v4 : S1x6144.Idx → Elt F .f32) (ix2 0 q) := by
  have hi := index0_4 t
  unfold iblk0
  rw [View.read_apply]
  show (V c main_v4 : S1x6144.Idx → Elt F .f32) _ = _
  refine congrArg (V c main_v4 : S1x6144.Idx → Elt F .f32) (funext fun a => Fin.ext ?_)
  match a with
  | ⟨0, _⟩ => show win0_4.index t 0 * 1 + 1 * 0 = 0; rw [hi.1]
  | ⟨1, _⟩ => show win0_4.index t 1 * 6144 + 1 * q.val = q.val; rw [hi.2]; omega

/-- The hidden-side bias row is the whole bias array at every point. -/
theorem iblk0_5_at (c : Dev nD) (t : Fin cfg0.N) (q : Fin 6144) :
    (iblk0 V c 5 t : Vec F S1x6144 .f32) (ix2 0 q) = (V c main_v5 : S1x6144.Idx → Elt F .f32) (ix2 0 q) := by
  have hi := index0_5 t
  unfold iblk0
  rw [View.read_apply]
  show (V c main_v5 : S1x6144.Idx → Elt F .f32) _ = _
  refine congrArg (V c main_v5 : S1x6144.Idx → Elt F .f32) (funext fun a => Fin.ext ?_)
  match a with
  | ⟨0, _⟩ => show win0_5.index t 0 * 1 + 1 * 0 = 0; rw [hi.1]
  | ⟨1, _⟩ => show win0_5.index t 1 * 6144 + 1 * q.val = q.val; rw [hi.2]; omega

/-- The rectangle the body loads its hidden tile through: columns `256 · k …` of the hidden block, all its rows. -/
theorem hiddenTile0_emb (i : grid0.Coords) (p c' : Fin 256) :
    (Rect.unit (s := S256x2048) (k0_off1 i) S256x256.size (Facts₀.k0_off1_inb i)).emb (ix2 p c')
      = ix2 p ⟨256 * (i 1).val + c'.val, by have h8 : (i 1).val < 8 := (i 1).isLt; have := c'.isLt; omega⟩ := by
  refine funext fun a => Fin.ext ?_
  match a with
  | ⟨0, _⟩ => show k0_off1 i 0 + 1 * p.val = p.val; rw [k0_off1_eq i]; show 0 + 1 * p.val = p.val; omega
  | ⟨1, _⟩ => show k0_off1 i 1 + 1 * c'.val = 256 * (i 1).val + c'.val; rw [k0_off1_eq i]; show 256 * (i 1).val + 1 * c'.val = _; omega

/-! ## Region 1: the second cell's windows -/

/-- A grid point's coordinates: the batch tile and the contraction tile. -/
theorem coords1 : ∀ t : Fin cfg1.N, (grid1.coords t 0).val = t.val / 8 ∧ (grid1.coords t 1).val = t.val % 8 :=
  (by decide +kernel : ∀ t : Fin grid1.N, (grid1.coords t 0).val = t.val / 8 ∧ (grid1.coords t 1).val = t.val % 8)

theorem index1_0 : ∀ t : Fin cfg1.N, win1_0.index t 0 = t.val / 8 ∧ win1_0.index t 1 = t.val % 8 :=
  (by decide +kernel : ∀ t : Fin grid1.N, win1_0.index t 0 = t.val / 8 ∧ win1_0.index t 1 = t.val % 8)
theorem index1_1 : ∀ t : Fin cfg1.N, win1_1.index t 0 = 0 ∧ win1_1.index t 1 = t.val % 8 :=
  (by decide +kernel : ∀ t : Fin grid1.N, win1_1.index t 0 = 0 ∧ win1_1.index t 1 = t.val % 8)
theorem index1_2 : ∀ t : Fin cfg1.N, win1_2.index t 0 = t.val / 8 ∧ win1_2.index t 1 = 0 :=
  (by decide +kernel : ∀ t : Fin grid1.N, win1_2.index t 0 = t.val / 8 ∧ win1_2.index t 1 = 0)
theorem index1_3 : ∀ t : Fin cfg1.N, win1_3.index t 0 = 0 ∧ win1_3.index t 1 = t.val % 8 :=
  (by decide +kernel : ∀ t : Fin grid1.N, win1_3.index t 0 = 0 ∧ win1_3.index t 1 = t.val % 8)
theorem index1_4 : ∀ t : Fin cfg1.N, win1_4.index t 0 = 0 ∧ win1_4.index t 1 = 0 :=
  (by decide +kernel : ∀ t : Fin grid1.N, win1_4.index t 0 = 0 ∧ win1_4.index t 1 = 0)
theorem index1_5 : ∀ t : Fin cfg1.N, win1_5.index t 0 = 0 ∧ win1_5.index t 1 = 0 :=
  (by decide +kernel : ∀ t : Fin grid1.N, win1_5.index t 0 = 0 ∧ win1_5.index t 1 = 0)

/-- The input tile at point `(B, k)` is rows `B · 256 …` and columns `k · 256 …` of the input array. -/
theorem iblk1_0_at (c : Dev nD) (t : Fin cfg1.N) (B : Fin 32) (k : ℕ) (hk : k < 8) (ht : t.val = 8 * B.val + k) (p c' : Fin 256) :
    (iblk1 V c 0 t : Vec F S256x256 .f32) (ix2 p c')
      = (V c main_v6 : S8192x2048.Idx → Elt F .f32) (ix2 (tileRow B p) (tileCol k hk c')) := by
  have hi := index1_0 t
  unfold iblk1
  rw [View.read_apply]
  show (V c main_v6 : S8192x2048.Idx → Elt F .f32) _ = _
  refine congrArg (V c main_v6 : S8192x2048.Idx → Elt F .f32) (funext fun a => Fin.ext ?_)
  match a with
  | ⟨0, _⟩ => show win1_0.index t 0 * 256 + 1 * p.val = B.val * 256 + p.val; rw [hi.1]; omega
  | ⟨1, _⟩ => show win1_0.index t 1 * 256 + 1 * c'.val = k * 256 + c'.val; rw [hi.2]; omega

/-- The input-side weight tile at contraction tile `k` is columns `k · 256 …` of every row of the stacked weights. -/
theorem iblk1_1_at (c : Dev nD) (t : Fin cfg1.N) (B : Fin 32) (k : ℕ) (hk : k < 8) (ht : t.val = 8 * B.val + k) (q : Fin 6144) (c' : Fin 256) :
    (iblk1 V c 1 t : Vec F S6144x256 .bf16) (ix2 q c')
      = (V c main_v7 : S6144x2048.Idx → Elt F .bf16) (ix2 q (tileCol k hk c')) := by
  have hi := index1_1 t
  unfold iblk1
  rw [View.read_apply]
  show (V c main_v7 : S6144x2048.Idx → Elt F .bf16) _ = _
  refine congrArg (V c main_v7 : S6144x2048.Idx → Elt F .bf16) (funext fun a => Fin.ext ?_)
  match a with
  | ⟨0, _⟩ => show win1_1.index t 0 * 6144 + 1 * q.val = q.val; rw [hi.1]; omega
  | ⟨1, _⟩ => show win1_1.index t 1 * 256 + 1 * c'.val = k * 256 + c'.val; rw [hi.2]; omega

/-- The hidden block of batch tile `B` is rows `B · 256 …` of the hidden array, all 2048 columns. -/
theorem iblk1_2_at (c : Dev nD) (t : Fin cfg1.N) (B : Fin 32) (k : ℕ) (hk : k < 8) (ht : t.val = 8 * B.val + k) (p : Fin 256) (j : Fin 2048) :
    (iblk1 V c 2 t : Vec F S256x2048 .f32) (ix2 p j)
      = (V c main_v1 : S8192x2048.Idx → Elt F .f32) (ix2 (tileRow B p) j) := by
  have hi := index1_2 t
  unfold iblk1
  rw [View.read_apply]
  show (V c main_v1 : S8192x2048.Idx → Elt F .f32) _ = _
  refine congrArg (V c main_v1 : S8192x2048.Idx → Elt F .f32) (funext fun a => Fin.ext ?_)
  match a with
  | ⟨0, _⟩ => show win1_2.index t 0 * 256 + 1 * p.val = B.val * 256 + p.val; rw [hi.1]; omega
  | ⟨1, _⟩ => show win1_2.index t 1 * 2048 + 1 * j.val = j.val; rw [hi.2]; omega

/-- The hidden-side weight tile at contraction tile `k` is columns `k · 256 …` of every row of the stacked weights. -/
theorem iblk1_3_at (c : Dev nD) (t : Fin cfg1.N) (B : Fin 32) (k : ℕ) (hk : k < 8) (ht : t.val = 8 * B.val + k) (q : Fin 6144) (c' : Fin 256) :
    (iblk1 V c 3 t : Vec F S6144x256 .bf16) (ix2 q c')
      = (V c main_v8 : S6144x2048.Idx → Elt F .bf16) (ix2 q (tileCol k hk c')) := by
  have hi := index1_3 t
  unfold iblk1
  rw [View.read_apply]
  show (V c main_v8 : S6144x2048.Idx → Elt F .bf16) _ = _
  refine congrArg (V c main_v8 : S6144x2048.Idx → Elt F .bf16) (funext fun a => Fin.ext ?_)
  match a with
  | ⟨0, _⟩ => show win1_3.index t 0 * 6144 + 1 * q.val = q.val; rw [hi.1]; omega
  | ⟨1, _⟩ => show win1_3.index t 1 * 256 + 1 * c'.val = k * 256 + c'.val; rw [hi.2]; omega

/-- The input-side bias row is the whole bias array at every point. -/
theorem iblk1_4_at (c : Dev nD) (t : Fin cfg1.N) (q : Fin 6144) :
    (iblk1 V c 4 t : Vec F S1x6144 .f32) (ix2 0 q) = (V c main_v9 : S1x6144.Idx → Elt F .f32) (ix2 0 q) := by
  have hi := index1_4 t
  unfold iblk1
  rw [View.read_apply]
  show (V c main_v9 : S1x6144.Idx → Elt F .f32) _ = _
  refine congrArg (V c main_v9 : S1x6144.Idx → Elt F .f32) (funext fun a => Fin.ext ?_)
  match a with
  | ⟨0, _⟩ => show win1_4.index t 0 * 1 + 1 * 0 = 0; rw [hi.1]
  | ⟨1, _⟩ => show win1_4.index t 1 * 6144 + 1 * q.val = q.val; rw [hi.2]; omega

/-- The hidden-side bias row is the whole bias array at every point. -/
theorem iblk1_5_at (c : Dev nD) (t : Fin cfg1.N) (q : Fin 6144) :
    (iblk1 V c 5 t : Vec F S1x6144 .f32) (ix2 0 q) = (V c main_v10 : S1x6144.Idx → Elt F .f32) (ix2 0 q) := by
  have hi := index1_5 t
  unfold iblk1
  rw [View.read_apply]
  show (V c main_v10 : S1x6144.Idx → Elt F .f32) _ = _
  refine congrArg (V c main_v10 : S1x6144.Idx → Elt F .f32) (funext fun a => Fin.ext ?_)
  match a with
  | ⟨0, _⟩ => show win1_5.index t 0 * 1 + 1 * 0 = 0; rw [hi.1]
  | ⟨1, _⟩ => show win1_5.index t 1 * 6144 + 1 * q.val = q.val; rw [hi.2]; omega

/-- The rectangle the body loads its hidden tile through: columns `256 · k …` of the hidden block, all its rows. -/
theorem hiddenTile1_emb (i : grid1.Coords) (p c' : Fin 256) :
    (Rect.unit (s := S256x2048) (k1_off1 i) S256x256.size (Facts₀.k1_off1_inb i)).emb (ix2 p c')
      = ix2 p ⟨256 * (i 1).val + c'.val, by have h8 : (i 1).val < 8 := (i 1).isLt; have := c'.isLt; omega⟩ := by
  refine funext fun a => Fin.ext ?_
  match a with
  | ⟨0, _⟩ => show k1_off1 i 0 + 1 * p.val = p.val; rw [k1_off1_eq i]; show 0 + 1 * p.val = p.val; omega
  | ⟨1, _⟩ => show k1_off1 i 1 + 1 * c'.val = 256 * (i 1).val + c'.val; rw [k1_off1_eq i]; show 256 * (i 1).val + 1 * c'.val = _; omega

/-- The same rectangle as a load reads through it. -/
theorem hiddenTile0_idx (i : grid0.Coords) (p c' : Fin 256) :
    (Rect.unit (s := S256x2048) (k0_off1 i) S256x256.size (Facts₀.k0_off1_inb i)).toLoadRect.idx (ix2 p c')
      = ix2 p ⟨256 * (i 1).val + c'.val, by have h8 : (i 1).val < 8 := (i 1).isLt; have := c'.isLt; omega⟩ :=
  hiddenTile0_emb i p c'

/-- The same rectangle as a load reads through it. -/
theorem hiddenTile1_idx (i : grid1.Coords) (p c' : Fin 256) :
    (Rect.unit (s := S256x2048) (k1_off1 i) S256x256.size (Facts₀.k1_off1_inb i)).toLoadRect.idx (ix2 p c')
      = ix2 p ⟨256 * (i 1).val + c'.val, by have h8 : (i 1).val < 8 := (i 1).isLt; have := c'.isLt; omega⟩ :=
  hiddenTile1_emb i p c'

end Cert.Bridge

end
-- ==== Proof.KiR0Cell.lean ====
import proofs.«154160_j33036888441278_1_alg».proof.Proof.KiR0Pieces
import proofs.«154160_j33036888441278_1_alg».proof.Proof.Payload
import proofs.«154160_j33036888441278_1_alg».proof.Proof.BlocksAt
import proofs.«154160_j33036888441278_1_alg».proof.Proof.Spec

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.Bridge

variable (V : (c : Dev nD) → (b : Ref sig .tc) → Buf (Elt Ideal) ((c : Thread nD τ).loc b))

/-! # Region 0: the output block of a batch tile is the GRU cell of the arrays the region finds

Within one batch tile the eight contraction tiles are visited in order; the accumulators after the last hold the whole
contractions, and the block stored there is the cell's gating of them. -/

/-- The grid point of batch tile `B` and contraction tile `k` (`k` read as 7 beyond the last). -/
def pt0 (B : Fin 32) (k : ℕ) : Fin cfg0.N := ⟨8 * B.val + min k 7, by rw [show cfg0.N = 256 from N_0]; have := B.isLt; omega⟩

theorem pt0_val (B : Fin 32) (k : ℕ) (hk : k < 8) : (pt0 B k).val = 8 * B.val + k := by
  show 8 * B.val + min k 7 = _; omega

attribute [irreducible] pt0

theorem outsAt0_congr (c : Dev nD) (n n' : ℕ) (e : n = n') (h : n < cfg0.N) (h' : n' < cfg0.N) :
    outsAt0 V c n h = outsAt0 V c n' h' := by subst e; rfl

/-- The two accumulators after the point of batch tile `B`, contraction tile `k`. -/
def acci0 (c : Dev nD) (B : Fin 32) (k : ℕ) : Vec Ideal S256x6144 .f32 := (outsAt0 V c (pt0 B k).val (pt0 B k).isLt).2.1
def acch0 (c : Dev nD) (B : Fin 32) (k : ℕ) : Vec Ideal S256x6144 .f32 := (outsAt0 V c (pt0 B k).val (pt0 B k).isLt).2.2

set_option maxHeartbeats 1000000 in
theorem acc0_zero (c : Dev nD) (B : Fin 32) :
    acci0 V c B 0 = k0_pay3 (F := Ideal) (iblk0 V c 0 (pt0 B 0)) (k0_pay1 (F := Ideal)) (iblk0 V c 1 (pt0 B 0))
    ∧ acch0 V c B 0 = k0_pay4 (F := Ideal) (htile0 V c (pt0 B 0)) (k0_pay2 (F := Ideal)) (iblk0 V c 3 (pt0 B 0)) := by
  have h0 : (pt0 B 0).val % 8 = 0 := by rw [pt0_val B 0 (by decide)]; omega
  have h1 : ¬(pt0 B 0).val % 8 = 7 := by omega
  unfold acci0 acch0
  rw [outsAt0_A V c (pt0 B 0) h0 h1]
  dsimp only
  exact ⟨soutA0_0_eq V c (pt0 B 0) h0 h1, soutA0_1_eq V c (pt0 B 0) h0 h1⟩

set_option maxHeartbeats 1000000 in
theorem acc0_succ (c : Dev nD) (B : Fin 32) (k : ℕ) (hk : k + 1 < 8) :
    acci0 V c B (k + 1) = k0_pay3 (F := Ideal) (iblk0 V c 0 (pt0 B (k + 1))) (acci0 V c B k) (iblk0 V c 1 (pt0 B (k + 1)))
    ∧ acch0 V c B (k + 1) = k0_pay4 (F := Ideal) (htile0 V c (pt0 B (k + 1))) (acch0 V c B k) (iblk0 V c 3 (pt0 B (k + 1))) := by
  have hv : (pt0 B (k + 1)).val = 8 * B.val + (k + 1) := pt0_val B (k + 1) hk
  have hv' : (pt0 B k).val = 8 * B.val + k := pt0_val B k (by omega)
  have h0 : ¬(pt0 B (k + 1)).val % 8 = 0 := by rw [hv]; omega
  have hprev : prev0 V c (pt0 B (k + 1)) = outsAt0 V c (pt0 B k).val (pt0 B k).isLt :=
    outsAt0_congr V c _ _ (by rw [hv, hv']; omega) _ _
  unfold acci0 acch0
  by_cases h1 : (pt0 B (k + 1)).val % 8 = 7
  · rw [outsAt0_C V c (pt0 B (k + 1)) h0 h1, hprev]
    dsimp only
    exact ⟨soutC0_0_eq V c (pt0 B (k + 1)) h0 h1 (outsAt0 V c (pt0 B k).val (pt0 B k).isLt).2.1 (outsAt0 V c (pt0 B k).val (pt0 B k).isLt).2.2, soutC0_1_eq V c (pt0 B (k + 1)) h0 h1 (outsAt0 V c (pt0 B k).val (pt0 B k).isLt).2.1 (outsAt0 V c (pt0 B k).val (pt0 B k).isLt).2.2⟩
  · rw [outsAt0_B V c (pt0 B (k + 1)) h0 h1, hprev]
    dsimp only
    exact ⟨soutB0_0_eq V c (pt0 B (k + 1)) h0 h1 (outsAt0 V c (pt0 B k).val (pt0 B k).isLt).2.1 (outsAt0 V c (pt0 B k).val (pt0 B k).isLt).2.2, soutB0_1_eq V c (pt0 B (k + 1)) h0 h1 (outsAt0 V c (pt0 B k).val (pt0 B k).isLt).2.1 (outsAt0 V c (pt0 B k).val (pt0 B k).isLt).2.2⟩

set_option maxHeartbeats 1000000 in
/-- What the output's staging buffer holds after the last contraction tile of batch tile `B`. -/
theorem outblk0_eq (c : Dev nD) (B : Fin 32) :
    (outsAt0 V c (pt0 B 7).val (pt0 B 7).isLt).1
      = k0_pay5 (F := Ideal) (acci0 V c B 7) (iblk0 V c 4 (pt0 B 7)) (acch0 V c B 7) (iblk0 V c 5 (pt0 B 7)) (iblk0 V c 2 (pt0 B 7)) := by
  have hv : (pt0 B 7).val = 8 * B.val + 7 := pt0_val B 7 (by decide)
  have h0 : ¬(pt0 B 7).val % 8 = 0 := by rw [hv]; omega
  have h1 : (pt0 B 7).val % 8 = 7 := by rw [hv]; omega
  have hprev : prev0 V c (pt0 B 7) = outsAt0 V c (pt0 B 6).val (pt0 B 6).isLt :=
    outsAt0_congr V c _ _ (by rw [hv, pt0_val B 6 (by decide)]; omega) _ _
  unfold acci0 acch0
  rw [outsAt0_C V c (pt0 B 7) h0 h1, hprev]
  dsimp only
  rw [outC0_6_eq V c (pt0 B 7) h0 h1, soutC0_0_eq V c (pt0 B 7) h0 h1, soutC0_1_eq V c (pt0 B 7) h0 h1]

/-- The hidden tile of the point of batch tile `B`, contraction tile `k`: columns `256·k …` of the batch tile's rows. -/
theorem htile0_at (c : Dev nD) (B : Fin 32) (k : ℕ) (hk : k < 8) (p c' : Fin 256) :
    htile0 V c (pt0 B k) (ix2 p c')
      = (V c main_v0 : S8192x2048.Idx → EReal) (ix2 (tileRow B p) (tileCol k hk c')) := by
  have hv := pt0_val B k hk
  have hc := (coords0 (pt0 B k)).2
  have e : (hrect0 (pt0 B k)).idx (ix2 p c') = ix2 p (tileCol k hk c') := by
    first | refine (hiddenTile0_idx (grid0.coords (pt0 B k)) p c').trans ?_ | refine (hiddenTile0_emb (grid0.coords (pt0 B k)) p c').trans ?_
    congr 1
    apply Fin.ext
    show 256 * (grid0.coords (pt0 B k) 1).val + c'.val = k * 256 + c'.val
    rw [hc, hv]; omega
  show (iblk0 V c 2 (pt0 B k) : Vec Ideal S256x2048 .f32) ((hrect0 (pt0 B k)).idx (ix2 p c')) = _
  rw [e]
  exact iblk0_2_at V c (pt0 B k) B k hk hv p (tileCol k hk c')

/-- THE BLOCK: after the last contraction tile of batch tile `B` the output's staging buffer holds, at row `p` and
    column `j`, the GRU cell of the arrays the region finds, at row `256·B + p`. -/
theorem block0_at (c : Dev nD) (B : Fin 32) (p : Fin 256) (j : Fin 2048) :
    (outsAt0 V c (pt0 B 7).val (pt0 B 7).isLt).1 (ix2 p j)
      = Cert.Spec.cell (V c main_arg0 : Cert.Spec.SX.Idx → EReal) (V c main_v0 : Cert.Spec.SX.Idx → EReal)
          (V c main_v2 : Cert.Spec.SW.Idx → EReal) (V c main_v3 : Cert.Spec.SW.Idx → EReal)
          (fun i => (V c main_v4 : S1x6144.Idx → EReal) (ix2 0 (i 0))) (fun i => (V c main_v5 : S1x6144.Idx → EReal) (ix2 0 (i 0)))
          (ix2 (tileRow B p) j) := by
  rw [outblk0_eq]
  exact cell0_tile_at (V c main_arg0) (V c main_v0) (V c main_v2) (V c main_v3)
    (fun i => (V c main_v4 : S1x6144.Idx → EReal) (ix2 0 (i 0))) (fun i => (V c main_v5 : S1x6144.Idx → EReal) (ix2 0 (i 0))) B
    (fun k => iblk0 V c 0 (pt0 B k)) (fun k => htile0 V c (pt0 B k))
    (fun k => iblk0 V c 1 (pt0 B k)) (fun k => iblk0 V c 3 (pt0 B k))
    (acci0 V c B) (acch0 V c B) (iblk0 V c 4 (pt0 B 7)) (iblk0 V c 5 (pt0 B 7)) (iblk0 V c 2 (pt0 B 7))
    (fun k hk p c' => iblk0_0_at V c (pt0 B k) B k hk (pt0_val B k hk) p c')
    (fun k hk p c' => htile0_at V c B k hk p c')
    (fun k hk q c' => iblk0_1_at V c (pt0 B k) B k hk (pt0_val B k hk) q c')
    (fun k hk q c' => iblk0_3_at V c (pt0 B k) B k hk (pt0_val B k hk) q c')
    (fun q => iblk0_4_at V c (pt0 B 7) q) (fun q => iblk0_5_at V c (pt0 B 7) q)
    (fun p j => iblk0_2_at V c (pt0 B 7) B 7 (by decide) (pt0_val B 7 (by decide)) p j)
    (acc0_zero V c B).1 (fun k hk => (acc0_succ V c B k hk).1)
    (acc0_zero V c B).2 (fun k hk => (acc0_succ V c B k hk).2) p j

end Cert.KernelIdeal.Fr

end
-- ==== Proof.KiR1RunA.lean ====
import proofs.«154160_j33036888441278_1_alg».proof.Proof.KiR1Base

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- (the run's proof term is large)
set_option maxHeartbeats 4000000 in
/-- The body on whole staging memrefs where the contraction tile is the first: the inputs' buffers at their
    contents and handed back as they were; the output's buffer handed back untouched; the two accumulators
    at anything, left with the pieces the body stored. The pieces are the witness the run finds. -/
noncomputable def kernelRun1_A (c : Dev nD) (i : grid1.Coords) (arg2 : Memref sig .tc .vmem S256x256 .f32) (harg2 : arg2.IsWhole) (arg3 : Memref sig .tc .vmem S6144x256 .bf16) (harg3 : arg3.IsWhole) (arg4 : Memref sig .tc .vmem S256x2048 .f32) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S256x2048 .f32) (harg8 : arg8.IsWhole) (arg9 : Memref sig .tc .vmem S256x6144 .f32) (harg9 : arg9.IsWhole) (arg10 : Memref sig .tc .vmem S256x6144 .f32) (harg10 : arg10.IsWhole) (hc0 : cond1_0 i) (hc1 : ¬cond1_1 i)
    (x0 : Vec F S256x256 .f32) (x1 : Vec F S6144x256 .bf16) (x2 : Vec F S256x2048 .f32) (x3 : Vec F S6144x256 .bf16) (x4 : Vec F S1x6144 .f32) (x5 : Vec F S1x6144 .f32) :
    Σ' (L6 : List (View.Piece (Elt F) S256x2048 .f32)) (LS0 : List (View.Piece (Elt F) S256x6144 .f32)), { LS1 : List (View.Piece (Elt F) S256x6144 .f32) //
      ∀ (xi6 : Vec F S256x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__gru_kernel i arg2 harg2 arg3 harg3 arg4 harg4 arg5 harg5 arg6 harg6 arg7 harg7 arg8 harg8 arg9 harg9 arg10 harg10) K } := by
  refine ⟨[], ?_, ?_, fun xi6 E K => ?run⟩
  case run =>
    simp only [cc1__gru_kernel_eq_skeleton]; unfold cc1__gru_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.KernelIdeal.Fr

end
-- ==== Proof.KiR1RunB.lean ====
import proofs.«154160_j33036888441278_1_alg».proof.Proof.KiR1RunA

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- (the run's proof term is large)
set_option maxHeartbeats 4000000 in
/-- The body on whole staging memrefs where the contraction tile is neither the first nor the last: the inputs' buffers at their
    contents and handed back as they were; the output's buffer handed back untouched; the two accumulators
    at what the point before left, left with the pieces the body stored. The pieces are the witness the run finds. -/
noncomputable def kernelRun1_B (c : Dev nD) (i : grid1.Coords) (arg2 : Memref sig .tc .vmem S256x256 .f32) (harg2 : arg2.IsWhole) (arg3 : Memref sig .tc .vmem S6144x256 .bf16) (harg3 : arg3.IsWhole) (arg4 : Memref sig .tc .vmem S256x2048 .f32) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S256x2048 .f32) (harg8 : arg8.IsWhole) (arg9 : Memref sig .tc .vmem S256x6144 .f32) (harg9 : arg9.IsWhole) (arg10 : Memref sig .tc .vmem S256x6144 .f32) (harg10 : arg10.IsWhole) (hc0 : ¬cond1_0 i) (hc1 : ¬cond1_1 i)
    (x0 : Vec F S256x256 .f32) (x1 : Vec F S6144x256 .bf16) (x2 : Vec F S256x2048 .f32) (x3 : Vec F S6144x256 .bf16) (x4 : Vec F S1x6144 .f32) (x5 : Vec F S1x6144 .f32) (xs0 xs1 : Vec F S256x6144 .f32) :
    Σ' (L6 : List (View.Piece (Elt F) S256x2048 .f32)) (LS0 : List (View.Piece (Elt F) S256x6144 .f32)), { LS1 : List (View.Piece (Elt F) S256x6144 .f32) //
      ∀ (xi6 : Vec F S256x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__gru_kernel i arg2 harg2 arg3 harg3 arg4 harg4 arg5 harg5 arg6 harg6 arg7 harg7 arg8 harg8 arg9 harg9 arg10 harg10) K } := by
  refine ⟨[], ?_, ?_, fun xi6 E K => ?run⟩
  case run =>
    simp only [cc1__gru_kernel_eq_skeleton]; unfold cc1__gru_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.KernelIdeal.Fr

end
-- ==== Proof.KiR1RunC.lean ====
import proofs.«154160_j33036888441278_1_alg».proof.Proof.KiR1RunB

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- (the run's proof term is large)
set_option maxHeartbeats 4000000 in
/-- The body on whole staging memrefs where the contraction tile is the last: the inputs' buffers at their
    contents and handed back as they were; the output's buffer at anything, left with the pieces the body stored; the two accumulators
    at what the point before left, left with the pieces the body stored. The pieces are the witness the run finds. -/
noncomputable def kernelRun1_C (c : Dev nD) (i : grid1.Coords) (arg2 : Memref sig .tc .vmem S256x256 .f32) (harg2 : arg2.IsWhole) (arg3 : Memref sig .tc .vmem S6144x256 .bf16) (harg3 : arg3.IsWhole) (arg4 : Memref sig .tc .vmem S256x2048 .f32) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S256x2048 .f32) (harg8 : arg8.IsWhole) (arg9 : Memref sig .tc .vmem S256x6144 .f32) (harg9 : arg9.IsWhole) (arg10 : Memref sig .tc .vmem S256x6144 .f32) (harg10 : arg10.IsWhole) (hc0 : ¬cond1_0 i) (hc1 : cond1_1 i)
    (x0 : Vec F S256x256 .f32) (x1 : Vec F S6144x256 .bf16) (x2 : Vec F S256x2048 .f32) (x3 : Vec F S6144x256 .bf16) (x4 : Vec F S1x6144 .f32) (x5 : Vec F S1x6144 .f32) (xs0 xs1 : Vec F S256x6144 .f32) :
    Σ' (L6 : List (View.Piece (Elt F) S256x2048 .f32)) (LS0 : List (View.Piece (Elt F) S256x6144 .f32)), { LS1 : List (View.Piece (Elt F) S256x6144 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__gru_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc1__gru_kernel_eq_skeleton]; unfold cc1__gru_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    iexists _; iexact HS1

end Cert.KernelIdeal.Fr

end
-- ==== Proof.KiR1Frame.lean ====
import proofs.«154160_j33036888441278_1_alg».proof.Proof.KiR1RunC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: what the accumulators and the output block hold point by point, and the body obligation -/

/-- The body's run at point `t`, on the memrefs the pipeline passes there and the input blocks read off `V`. -/
def runA1 (c : Dev nD) (t : Fin cfg1.N) (h0 : t.val % 8 = 0) (h1 : ¬t.val % 8 = 7) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)

/-- Its pieces for accumulator 0 tile the buffer, so they cover it. -/
theorem scoverA1_0 (c : Dev nD) (t : Fin cfg1.N) (h0 : t.val % 8 = 0) (h1 : ¬t.val % 8 = 7) (y : S256x6144.Idx) :
    ∃ pc ∈ (runA1 V c t h0 h1).2.1, y ∈ pc.1.set :=
  View.cover_of_tiledL (runA1 V c t h0 h1).2.1 S256x6144.size (by sl_kernel_rfl) y

/-- What it leaves in accumulator 0: its pieces read back. -/
def soutA1_0 (c : Dev nD) (t : Fin cfg1.N) (h0 : t.val % 8 = 0) (h1 : ¬t.val % 8 = 7) : Vec F S256x6144 .f32 :=
  VS1_0.read (Elt F) (VS1_0.writes (Elt F) VS1_0.junk (runA1 V c t h0 h1).2.1)

/-- Its pieces for accumulator 1 tile the buffer, so they cover it. -/
theorem scoverA1_1 (c : Dev nD) (t : Fin cfg1.N) (h0 : t.val % 8 = 0) (h1 : ¬t.val % 8 = 7) (y : S256x6144.Idx) :
    ∃ pc ∈ (runA1 V c t h0 h1).2.2.1, y ∈ pc.1.set :=
  View.cover_of_tiledL (runA1 V c t h0 h1).2.2.1 S256x6144.size (by sl_kernel_rfl) y

/-- What it leaves in accumulator 1: its pieces read back. -/
def soutA1_1 (c : Dev nD) (t : Fin cfg1.N) (h0 : t.val % 8 = 0) (h1 : ¬t.val % 8 = 7) : Vec F S256x6144 .f32 :=
  VS1_1.read (Elt F) (VS1_1.writes (Elt F) VS1_1.junk (runA1 V c t h0 h1).2.2.1)

/-- The body's run at point `t`, on the memrefs the pipeline passes there and the input blocks read off `V`. -/
def runB1 (c : Dev nD) (t : Fin cfg1.N) (h0 : ¬t.val % 8 = 0) (h1 : ¬t.val % 8 = 7) (xs0 xs1 : Vec F S256x6144 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) xs0 xs1

/-- Its pieces for accumulator 0 tile the buffer, so they cover it. -/
theorem scoverB1_0 (c : Dev nD) (t : Fin cfg1.N) (h0 : ¬t.val % 8 = 0) (h1 : ¬t.val % 8 = 7) (xs0 xs1 : Vec F S256x6144 .f32) (y : S256x6144.Idx) :
    ∃ pc ∈ (runB1 V c t h0 h1 xs0 xs1).2.1, y ∈ pc.1.set :=
  View.cover_of_tiledL (runB1 V c t h0 h1 xs0 xs1).2.1 S256x6144.size (by sl_kernel_rfl) y

/-- What it leaves in accumulator 0: its pieces read back. -/
def soutB1_0 (c : Dev nD) (t : Fin cfg1.N) (h0 : ¬t.val % 8 = 0) (h1 : ¬t.val % 8 = 7) (xs0 xs1 : Vec F S256x6144 .f32) : Vec F S256x6144 .f32 :=
  VS1_0.read (Elt F) (VS1_0.writes (Elt F) VS1_0.junk (runB1 V c t h0 h1 xs0 xs1).2.1)

/-- Its pieces for accumulator 1 tile the buffer, so they cover it. -/
theorem scoverB1_1 (c : Dev nD) (t : Fin cfg1.N) (h0 : ¬t.val % 8 = 0) (h1 : ¬t.val % 8 = 7) (xs0 xs1 : Vec F S256x6144 .f32) (y : S256x6144.Idx) :
    ∃ pc ∈ (runB1 V c t h0 h1 xs0 xs1).2.2.1, y ∈ pc.1.set :=
  View.cover_of_tiledL (runB1 V c t h0 h1 xs0 xs1).2.2.1 S256x6144.size (by sl_kernel_rfl) y

/-- What it leaves in accumulator 1: its pieces read back. -/
def soutB1_1 (c : Dev nD) (t : Fin cfg1.N) (h0 : ¬t.val % 8 = 0) (h1 : ¬t.val % 8 = 7) (xs0 xs1 : Vec F S256x6144 .f32) : Vec F S256x6144 .f32 :=
  VS1_1.read (Elt F) (VS1_1.writes (Elt F) VS1_1.junk (runB1 V c t h0 h1 xs0 xs1).2.2.1)

/-- The body's run at point `t`, on the memrefs the pipeline passes there and the input blocks read off `V`. -/
def runC1 (c : Dev nD) (t : Fin cfg1.N) (h0 : ¬t.val % 8 = 0) (h1 : t.val % 8 = 7) (xs0 xs1 : Vec F S256x6144 .f32) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) xs0 xs1

/-- Its pieces for accumulator 0 tile the buffer, so they cover it. -/
theorem scoverC1_0 (c : Dev nD) (t : Fin cfg1.N) (h0 : ¬t.val % 8 = 0) (h1 : t.val % 8 = 7) (xs0 xs1 : Vec F S256x6144 .f32) (y : S256x6144.Idx) :
    ∃ pc ∈ (runC1 V c t h0 h1 xs0 xs1).2.1, y ∈ pc.1.set :=
  View.cover_of_tiledL (runC1 V c t h0 h1 xs0 xs1).2.1 S256x6144.size (by sl_kernel_rfl) y

/-- What it leaves in accumulator 0: its pieces read back. -/
def soutC1_0 (c : Dev nD) (t : Fin cfg1.N) (h0 : ¬t.val % 8 = 0) (h1 : t.val % 8 = 7) (xs0 xs1 : Vec F S256x6144 .f32) : Vec F S256x6144 .f32 :=
  VS1_0.read (Elt F) (VS1_0.writes (Elt F) VS1_0.junk (runC1 V c t h0 h1 xs0 xs1).2.1)

/-- Its pieces for accumulator 1 tile the buffer, so they cover it. -/
theorem scoverC1_1 (c : Dev nD) (t : Fin cfg1.N) (h0 : ¬t.val % 8 = 0) (h1 : t.val % 8 = 7) (xs0 xs1 : Vec F S256x6144 .f32) (y : S256x6144.Idx) :
    ∃ pc ∈ (runC1 V c t h0 h1 xs0 xs1).2.2.1, y ∈ pc.1.set :=
  View.cover_of_tiledL (runC1 V c t h0 h1 xs0 xs1).2.2.1 S256x6144.size (by sl_kernel_rfl) y

/-- What it leaves in accumulator 1: its pieces read back. -/
def soutC1_1 (c : Dev nD) (t : Fin cfg1.N) (h0 : ¬t.val % 8 = 0) (h1 : t.val % 8 = 7) (xs0 xs1 : Vec F S256x6144 .f32) : Vec F S256x6144 .f32 :=
  VS1_1.read (Elt F) (VS1_1.writes (Elt F) VS1_1.junk (runC1 V c t h0 h1 xs0 xs1).2.2.1)

/-- At the last contraction tile the body's pieces for the output block tile it, so they cover it. -/
theorem coverC1_6 (c : Dev nD) (t : Fin cfg1.N) (h0 : ¬t.val % 8 = 0) (h1 : t.val % 8 = 7) (xs0 xs1 : Vec F S256x6144 .f32) (y : S256x2048.Idx) :
    ∃ pc ∈ (runC1 V c t h0 h1 xs0 xs1).1, y ∈ pc.1.set :=
  View.cover_of_tiledL (runC1 V c t h0 h1 xs0 xs1).1 S256x2048.size (by sl_kernel_rfl) y

/-- What it leaves in the output's staging buffer there. -/
def outC1_6 (c : Dev nD) (t : Fin cfg1.N) (h0 : ¬t.val % 8 = 0) (h1 : t.val % 8 = 7) (xs0 xs1 : Vec F S256x6144 .f32) : Vec F S256x2048 .f32 :=
  VO1_6.read (Elt F) (VO1_6.writes (Elt F) VO1_6.junk (runC1 V c t h0 h1 xs0 xs1).1)

/-- Where the output block is not stored its staging buffer's contents are never consulted: a placeholder. -/
def idle1_6 : Vec F S256x2048 .f32 := VO1_6.read (Elt F) (VO1_6.writes (Elt F) VO1_6.junk [])

/-- THE ACCUMULATION: after the body at position `n`, the output's staging buffer and the two accumulators. At a first
    contraction tile the accumulators start from zero; elsewhere they continue from what position `n - 1` left. -/
def outsAt1 (c : Dev nD) : (n : ℕ) → n < cfg1.N → Vec F S256x2048 .f32 × Vec F S256x6144 .f32 × Vec F S256x6144 .f32
  | 0, hn => (idle1_6, soutA1_0 V c ⟨0, hn⟩ (Nat.zero_mod _) (fun h => (by decide : ¬ (0 % 8 = 7)) h), soutA1_1 V c ⟨0, hn⟩ (Nat.zero_mod _) (fun h => (by decide : ¬ (0 % 8 = 7)) h))
  | n + 1, hn =>
    if h0 : (n + 1) % 8 = 0 then
      (idle1_6, soutA1_0 V c ⟨n + 1, hn⟩ h0 (fun h => by have h' : (n + 1) % 8 = 7 := h; omega), soutA1_1 V c ⟨n + 1, hn⟩ h0 (fun h => by have h' : (n + 1) % 8 = 7 := h; omega))
    else if h1 : (n + 1) % 8 = 7 then
      (outC1_6 V c ⟨n + 1, hn⟩ h0 h1 (outsAt1 c n (Nat.lt_of_succ_lt hn)).2.1 (outsAt1 c n (Nat.lt_of_succ_lt hn)).2.2,
        soutC1_0 V c ⟨n + 1, hn⟩ h0 h1 (outsAt1 c n (Nat.lt_of_succ_lt hn)).2.1 (outsAt1 c n (Nat.lt_of_succ_lt hn)).2.2,
        soutC1_1 V c ⟨n + 1, hn⟩ h0 h1 (outsAt1 c n (Nat.lt_of_succ_lt hn)).2.1 (outsAt1 c n (Nat.lt_of_succ_lt hn)).2.2)
    else
      (idle1_6,
        soutB1_0 V c ⟨n + 1, hn⟩ h0 h1 (outsAt1 c n (Nat.lt_of_succ_lt hn)).2.1 (outsAt1 c n (Nat.lt_of_succ_lt hn)).2.2,
        soutB1_1 V c ⟨n + 1, hn⟩ h0 h1 (outsAt1 c n (Nat.lt_of_succ_lt hn)).2.1 (outsAt1 c n (Nat.lt_of_succ_lt hn)).2.2)

/-- The contents before point `t` when it is not the first: what point `t - 1` left. -/
abbrev prev1 (c : Dev nD) (t : Fin cfg1.N) := outsAt1 V c (t.val - 1) (Nat.lt_of_le_of_lt (Nat.sub_le _ _) t.isLt)

theorem outsAt1_A (c : Dev nD) (t : Fin cfg1.N) (h0 : t.val % 8 = 0) (h1 : ¬t.val % 8 = 7) :
    outsAt1 V c t.val t.isLt = (idle1_6, soutA1_0 V c t h0 h1, soutA1_1 V c t h0 h1) := by
  obtain ⟨n, hn⟩ := t
  cases n with
  | zero => exact rfl
  | succ n => exact (dif_pos h0).trans rfl

theorem outsAt1_B (c : Dev nD) (t : Fin cfg1.N) (h0 : ¬t.val % 8 = 0) (h1 : ¬t.val % 8 = 7) :
    outsAt1 V c t.val t.isLt = (idle1_6, soutB1_0 V c t h0 h1 (prev1 V c t).2.1 (prev1 V c t).2.2, soutB1_1 V c t h0 h1 (prev1 V c t).2.1 (prev1 V c t).2.2) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (outC1_6 V c t h0 h1 (prev1 V c t).2.1 (prev1 V c t).2.2, soutC1_0 V c t h0 h1 (prev1 V c t).2.1 (prev1 V c t).2.2, soutC1_1 V c t h0 h1 (prev1 V c t).2.1 (prev1 V c t).2.2) := by
  obtain ⟨n, hn⟩ := t
  cases n with
  | zero => exact absurd (Nat.zero_mod _) h0
  | succ n => exact (dif_neg h0).trans ((dif_pos h1).trans rfl)

/-- The region invariant before position `n`: before the first point every scoped buffer no window stages at anything;
    afterwards the two accumulators at what the point before left, the other region's buffers at anything, and the
    generator register at some state. -/
def PhiS1 (c : Dev nD) : (n : ℕ) → n ≤ cfg1.N → sProp 𝕄
  | 0, _ => Pipeline.ΦA spec1 c
  | n + 1, hn => iprop(owns (c : Thread nD τ) scM1_0 fullShare (outsAt1 V c n hn).2.1 ∗ owns (c : Thread nD τ) scM1_1 fullShare (outsAt1 V c n hn).2.2 ∗ Oth1 c ∗ (∃ g, prngReg c g))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1_0 fullShare (outsAt1 V c n hn).2.1 ∗ owns (c : Thread nD τ) scM1_1 fullShare (outsAt1 V c n hn).2.2 ∗ Oth1 c ∗ (∃ g, prngReg c g)) := rfl

theorem PhiS1_pos (c : Dev nD) (n : ℕ) (h : n ≤ cfg1.N) (hz : n ≠ 0) :
    PhiS1 V c n h = iprop(owns (c : Thread nD τ) scM1_0 fullShare (outsAt1 V c (n - 1) (by omega)).2.1 ∗ owns (c : Thread nD τ) scM1_1 fullShare (outsAt1 V c (n - 1) (by omega)).2.2 ∗ Oth1 c ∗ (∃ g, prngReg c g)) := by
  cases n with
  | zero => exact absurd rfl hz
  | succ n => rfl

/-! ## The pipeline's proof data -/

/-- The arrays as the region finds them; after the body at point `t` each input's buffer at its block and the output's
    at `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 8000000 in
/-- The body at any point. The inputs' memrefs hold their blocks; the point's contraction tile says which run applies;
    the invariant hands the body the accumulators at what the point before left (at anything before the first point)
    and takes them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [show (dat1 V c).leavesExact 3 t = owns (c : Thread nD τ) (ms1_3 t) fullShare ((dat1 V c).after 3 t) from by
      unfold Dat.leavesExact; rw [liveAt1_3 t], after1_3]
  rw [show (dat1 V c).leavesExact 4 t = owns (c : Thread nD τ) (ms1_4 t) fullShare ((dat1 V c).after 4 t) from by
      unfold Dat.leavesExact; rw [liveAt1_4 t], after1_4]
  rw [show (dat1 V c).leavesExact 5 t = owns (c : Thread nD τ) (ms1_5 t) fullShare ((dat1 V c).after 5 t) from by
      unfold Dat.leavesExact; rw [liveAt1_5 t], after1_5]
  by_cases h0 : t.val % 8 = 0
  · have h1 : ¬t.val % 8 = 7 := by omega
    rw [Dat.leavesExact_idle (dat1 V c) 6 t (idleAt1_6 t (fun h => h1 ((hcond1_1 t).mp h))) (noFlush1_6 t (fun h => h1 ((hcond1_1 t).mp h)))]
    rw [outsAt1_A V c t h0 h1]
    unfold soutA1_0 soutA1_1; (try dsimp only)
    by_cases hz : t.val = 0
    · rw [PhiS1_castSucc V c t, PhiS1_zero V c _ _ hz]
      iintro ⟨HΦ, Ho, ⟨%d0, H0⟩, ⟨%d1, H1⟩, ⟨%d2, H2⟩, ⟨%d3, H3⟩, ⟨%d4, H4⟩, ⟨%d5, H5⟩, ⟨%d6, H6⟩⟩
      ihave HΦ' := PhiA1_split c $$ HΦ
      icases HΦ' with ⟨HS0, HS1, HOth, Hg⟩
      iapply ((runA1 V c t h0 h1).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 HOth Hg]
      · isplitl [HS0]
        · unfold owns; iexists _; isplitr
          swap; · iexact HS0
          ipureintro; exact View.read_writes_of_cover _ _ _ _ _ (scoverA1_0 V c t h0 h1)
        isplitl [HS1]
        · unfold owns; iexists _; isplitr
          swap; · iexact HS1
          ipureintro; exact View.read_writes_of_cover _ _ _ _ _ (scoverA1_1 V c t h0 h1)
        isplitl [HOth]; · iexact HOth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS1_castSucc V c t, PhiS1_pos V c _ _ hz]
      iintro ⟨⟨HS0, HS1, HOth, Hg⟩, Ho, ⟨%d0, H0⟩, ⟨%d1, H1⟩, ⟨%d2, H2⟩, ⟨%d3, H3⟩, ⟨%d4, H4⟩, ⟨%d5, H5⟩, ⟨%d6, H6⟩⟩
      iapply ((runA1 V c t h0 h1).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      iintro ⟨H0, H1, H2, H3, H4, H5, H6, ⟨%es0, HS0⟩, ⟨%es1, HS1⟩⟩
      isplitl [HS0 HS1 HOth Hg]
      · isplitl [HS0]
        · unfold owns; iexists _; isplitr
          swap; · iexact HS0
          ipureintro; exact View.read_writes_of_cover _ _ _ _ _ (scoverA1_0 V c t h0 h1)
        isplitl [HS1]
        · unfold owns; iexists _; isplitr
          swap; · iexact HS1
          ipureintro; exact View.read_writes_of_cover _ _ _ _ _ (scoverA1_1 V c t h0 h1)
        isplitl [HOth]; · iexact HOth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    by_cases h1 : t.val % 8 = 7
    · rw [show (dat1 V c).leavesExact 6 t = owns (c : Thread nD τ) (ms1_6 t) fullShare ((dat1 V c).after 6 t) from by
        unfold Dat.leavesExact; rw [liveAt1_6 t ((hcond1_1 t).mpr h1)], after1_6]
      rw [outsAt1_C V c t h0 h1]
      unfold outC1_6 soutC1_0 soutC1_1; (try dsimp only)
      rw [PhiS1_castSucc V c t, PhiS1_pos V c _ _ hz]
      iintro ⟨⟨HS0, HS1, HOth, Hg⟩, Ho, ⟨%d0, H0⟩, ⟨%d1, H1⟩, ⟨%d2, H2⟩, ⟨%d3, H3⟩, ⟨%d4, H4⟩, ⟨%d5, H5⟩, ⟨%d6, H6⟩⟩
      iapply ((runC1 V c t h0 h1 _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, ⟨%e6, H6⟩, ⟨%es0, HS0⟩, ⟨%es1, HS1⟩⟩
      isplitl [HS0 HS1 HOth Hg]
      · isplitl [HS0]
        · unfold owns; iexists _; isplitr
          swap; · iexact HS0
          ipureintro; exact View.read_writes_of_cover _ _ _ _ _ (scoverC1_0 V c t h0 h1 _ _)
        isplitl [HS1]
        · unfold owns; iexists _; isplitr
          swap; · iexact HS1
          ipureintro; exact View.read_writes_of_cover _ _ _ _ _ (scoverC1_1 V c t h0 h1 _ _)
        isplitl [HOth]; · iexact HOth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverC1_6 V c t h0 h1 _ _)
    · rw [Dat.leavesExact_idle (dat1 V c) 6 t (idleAt1_6 t (fun h => h1 ((hcond1_1 t).mp h))) (noFlush1_6 t (fun h => h1 ((hcond1_1 t).mp h)))]
      rw [outsAt1_B V c t h0 h1]
      unfold soutB1_0 soutB1_1; (try dsimp only)
      rw [PhiS1_castSucc V c t, PhiS1_pos V c _ _ hz]
      iintro ⟨⟨HS0, HS1, HOth, Hg⟩, Ho, ⟨%d0, H0⟩, ⟨%d1, H1⟩, ⟨%d2, H2⟩, ⟨%d3, H3⟩, ⟨%d4, H4⟩, ⟨%d5, H5⟩, ⟨%d6, H6⟩⟩
      iapply ((runB1 V c t h0 h1 _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 HOth Hg]
      · isplitl [HS0]
        · unfold owns; iexists _; isplitr
          swap; · iexact HS0
          ipureintro; exact View.read_writes_of_cover _ _ _ _ _ (scoverB1_0 V c t h0 h1 _ _)
        isplitl [HS1]
        · unfold owns; iexists _; isplitr
          swap; · iexact HS1
          ipureintro; exact View.read_writes_of_cover _ _ _ _ _ (scoverB1_1 V c t h0 h1 _ _)
        isplitl [HOth]; · iexact HOth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is handed is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the accumulators' contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 256 := N_1; omega)]
  iintro ⟨HS0, HS1, HOth, Hg⟩
  iapply PhiA1_join c
  isplitl [HS0]; · iexists _; iexact HS0
  isplitl [HS1]; · iexists _; iexact HS1
  isplitl [HOth]; · iexact HOth
  iexact Hg

end Cert.KernelIdeal.Fr

end
-- ==== Proof.KiR1Pieces.lean ====
import proofs.«154160_j33036888441278_1_alg».proof.Proof.KiR1Frame
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: what each run leaves, as the body's arithmetic of the point's input blocks

The input accumulator adds the product of the point's input tile and weight tile; the hidden accumulator adds the product
of columns `256·k … 256·k + 255` of the hidden block and its weight tile; at a first contraction tile both start from
zero; at the last the output block is the gating of the two accumulators, the bias rows and the whole hidden block. -/

theorem hz2 : (![0, 0] : Fin 2 → Nat) = fun _ => 0 := funext fun a => by fin_cases a <;> rfl

/-- The columns of the hidden block the body multiplies at point `t`. -/
abbrev hrect1 (t : Fin cfg1.N) : Rect S256x2048 :=
  Rect.unit (s := S256x2048) (k1_off1 (grid1.coords t)) S256x256.size (Facts₀.k1_off1_inb (grid1.coords t))

/-- The hidden tile at point `t`. -/
abbrev htile1 (c : Dev nD) (t : Fin cfg1.N) : Vec F S256x256 .f32 := View.ld (iblk1 V c 2 t) (hrect1 t)

theorem soutA1_0_eq (c : Dev nD) (t : Fin cfg1.N) (h0 : t.val % 8 = 0) (h1 : ¬t.val % 8 = 7) :
    soutA1_0 V c t h0 h1 = k1_pay3 (iblk1 V c 0 t) (k1_pay1 (F := F)) (iblk1 V c 1 t) := by
  unfold soutA1_0
  rw [View.read_writes_eq_canon _ _ _ (scoverA1_0 V c t h0 h1)]
  unfold runA1 kernelRun1_A
  dsimp only
  try sl_unfold_words
  rw [View.canon_cons_unit_zero hz2]
  simp only [View.readAt_eq_ld, (hs1_0 t).read_unread, (hs1_1 t).read_unread, (hs1_2 t).read_unread, (hs1_3 t).read_unread, (hs1_4 t).read_unread, (hs1_5 t).read_unread, (Memref.isWhole_whole _ : (scM1_0).IsWhole).read_unread, (Memref.isWhole_whole _ : (scM1_1).IsWhole).read_unread, Memref.IsWhole.read_unread, View.readCov_unit_zero (S := S256x6144) _ hz2, View.ld_unit_zero (S := S256x256) hz2, View.ld_unit_zero (S := S6144x256) hz2, View.ld_unit_zero (S := S256x6144) hz2, View.ld_unit_zero (S := S1x6144) hz2, View.ld_unit_zero (S := S256x2048) hz2]
  try rfl

theorem soutA1_1_eq (c : Dev nD) (t : Fin cfg1.N) (h0 : t.val % 8 = 0) (h1 : ¬t.val % 8 = 7) :
    soutA1_1 V c t h0 h1 = k1_pay4 (htile1 V c t) (k1_pay2 (F := F)) (iblk1 V c 3 t) := by
  unfold soutA1_1
  rw [View.read_writes_eq_canon _ _ _ (scoverA1_1 V c t h0 h1)]
  unfold runA1 kernelRun1_A
  dsimp only
  try sl_unfold_words
  rw [View.canon_cons_unit_zero hz2]
  simp only [View.readAt_eq_ld, (hs1_0 t).read_unread, (hs1_1 t).read_unread, (hs1_2 t).read_unread, (hs1_3 t).read_unread, (hs1_4 t).read_unread, (hs1_5 t).read_unread, (Memref.isWhole_whole _ : (scM1_0).IsWhole).read_unread, (Memref.isWhole_whole _ : (scM1_1).IsWhole).read_unread, Memref.IsWhole.read_unread, View.readCov_unit_zero (S := S256x6144) _ hz2, View.ld_unit_zero (S := S256x256) hz2, View.ld_unit_zero (S := S6144x256) hz2, View.ld_unit_zero (S := S256x6144) hz2, View.ld_unit_zero (S := S1x6144) hz2, View.ld_unit_zero (S := S256x2048) hz2]
  try rfl

theorem soutB1_0_eq (c : Dev nD) (t : Fin cfg1.N) (h0 : ¬t.val % 8 = 0) (h1 : ¬t.val % 8 = 7) (xs0 xs1 : Vec F S256x6144 .f32) :
    soutB1_0 V c t h0 h1 xs0 xs1 = k1_pay3 (iblk1 V c 0 t) xs0 (iblk1 V c 1 t) := by
  unfold soutB1_0
  rw [View.read_writes_eq_canon _ _ _ (scoverB1_0 V c t h0 h1 xs0 xs1)]
  unfold runB1 kernelRun1_B
  dsimp only
  try sl_unfold_words
  rw [View.canon_cons_unit_zero hz2]
  simp only [View.readAt_eq_ld, (hs1_0 t).read_unread, (hs1_1 t).read_unread, (hs1_2 t).read_unread, (hs1_3 t).read_unread, (hs1_4 t).read_unread, (hs1_5 t).read_unread, (Memref.isWhole_whole _ : (scM1_0).IsWhole).read_unread, (Memref.isWhole_whole _ : (scM1_1).IsWhole).read_unread, Memref.IsWhole.read_unread, View.readCov_unit_zero (S := S256x6144) _ hz2, View.ld_unit_zero (S := S256x256) hz2, View.ld_unit_zero (S := S6144x256) hz2, View.ld_unit_zero (S := S256x6144) hz2, View.ld_unit_zero (S := S1x6144) hz2, View.ld_unit_zero (S := S256x2048) hz2]
  try rfl

theorem soutB1_1_eq (c : Dev nD) (t : Fin cfg1.N) (h0 : ¬t.val % 8 = 0) (h1 : ¬t.val % 8 = 7) (xs0 xs1 : Vec F S256x6144 .f32) :
    soutB1_1 V c t h0 h1 xs0 xs1 = k1_pay4 (htile1 V c t) xs1 (iblk1 V c 3 t) := by
  unfold soutB1_1
  rw [View.read_writes_eq_canon _ _ _ (scoverB1_1 V c t h0 h1 xs0 xs1)]
  unfold runB1 kernelRun1_B
  dsimp only
  try sl_unfold_words
  rw [View.canon_cons_unit_zero hz2]
  simp only [View.readAt_eq_ld, (hs1_0 t).read_unread, (hs1_1 t).read_unread, (hs1_2 t).read_unread, (hs1_3 t).read_unread, (hs1_4 t).read_unread, (hs1_5 t).read_unread, (Memref.isWhole_whole _ : (scM1_0).IsWhole).read_unread, (Memref.isWhole_whole _ : (scM1_1).IsWhole).read_unread, Memref.IsWhole.read_unread, View.readCov_unit_zero (S := S256x6144) _ hz2, View.ld_unit_zero (S := S256x256) hz2, View.ld_unit_zero (S := S6144x256) hz2, View.ld_unit_zero (S := S256x6144) hz2, View.ld_unit_zero (S := S1x6144) hz2, View.ld_unit_zero (S := S256x2048) hz2]
  try rfl

theorem soutC1_0_eq (c : Dev nD) (t : Fin cfg1.N) (h0 : ¬t.val % 8 = 0) (h1 : t.val % 8 = 7) (xs0 xs1 : Vec F S256x6144 .f32) :
    soutC1_0 V c t h0 h1 xs0 xs1 = k1_pay3 (iblk1 V c 0 t) xs0 (iblk1 V c 1 t) := by
  unfold soutC1_0
  rw [View.read_writes_eq_canon _ _ _ (scoverC1_0 V c t h0 h1 xs0 xs1)]
  unfold runC1 kernelRun1_C
  dsimp only
  try sl_unfold_words
  rw [View.canon_cons_unit_zero hz2]
  simp only [View.readAt_eq_ld, (hs1_0 t).read_unread, (hs1_1 t).read_unread, (hs1_2 t).read_unread, (hs1_3 t).read_unread, (hs1_4 t).read_unread, (hs1_5 t).read_unread, (Memref.isWhole_whole _ : (scM1_0).IsWhole).read_unread, (Memref.isWhole_whole _ : (scM1_1).IsWhole).read_unread, Memref.IsWhole.read_unread, View.readCov_unit_zero (S := S256x6144) _ hz2, View.ld_unit_zero (S := S256x256) hz2, View.ld_unit_zero (S := S6144x256) hz2, View.ld_unit_zero (S := S256x6144) hz2, View.ld_unit_zero (S := S1x6144) hz2, View.ld_unit_zero (S := S256x2048) hz2]
  try rfl

theorem soutC1_1_eq (c : Dev nD) (t : Fin cfg1.N) (h0 : ¬t.val % 8 = 0) (h1 : t.val % 8 = 7) (xs0 xs1 : Vec F S256x6144 .f32) :
    soutC1_1 V c t h0 h1 xs0 xs1 = k1_pay4 (htile1 V c t) xs1 (iblk1 V c 3 t) := by
  unfold soutC1_1
  rw [View.read_writes_eq_canon _ _ _ (scoverC1_1 V c t h0 h1 xs0 xs1)]
  unfold runC1 kernelRun1_C
  dsimp only
  try sl_unfold_words
  rw [View.canon_cons_unit_zero hz2]
  simp only [View.readAt_eq_ld, (hs1_0 t).read_unread, (hs1_1 t).read_unread, (hs1_2 t).read_unread, (hs1_3 t).read_unread, (hs1_4 t).read_unread, (hs1_5 t).read_unread, (Memref.isWhole_whole _ : (scM1_0).IsWhole).read_unread, (Memref.isWhole_whole _ : (scM1_1).IsWhole).read_unread, Memref.IsWhole.read_unread, View.readCov_unit_zero (S := S256x6144) _ hz2, View.ld_unit_zero (S := S256x256) hz2, View.ld_unit_zero (S := S6144x256) hz2, View.ld_unit_zero (S := S256x6144) hz2, View.ld_unit_zero (S := S1x6144) hz2, View.ld_unit_zero (S := S256x2048) hz2]
  try rfl

theorem outC1_6_eq (c : Dev nD) (t : Fin cfg1.N) (h0 : ¬t.val % 8 = 0) (h1 : t.val % 8 = 7) (xs0 xs1 : Vec F S256x6144 .f32) :
    outC1_6 V c t h0 h1 xs0 xs1
      = k1_pay5 (k1_pay3 (iblk1 V c 0 t) xs0 (iblk1 V c 1 t)) (iblk1 V c 4 t)
          (k1_pay4 (htile1 V c t) xs1 (iblk1 V c 3 t)) (iblk1 V c 5 t) (iblk1 V c 2 t) := by
  unfold outC1_6
  rw [View.read_writes_eq_canon _ _ _ (coverC1_6 V c t h0 h1 xs0 xs1)]
  unfold runC1 kernelRun1_C
  dsimp only
  try sl_unfold_words
  rw [View.canon_cons_unit_zero hz2]
  simp only [View.readAt_eq_ld, (hs1_0 t).read_unread, (hs1_1 t).read_unread, (hs1_2 t).read_unread, (hs1_3 t).read_unread, (hs1_4 t).read_unread, (hs1_5 t).read_unread, (Memref.isWhole_whole _ : (scM1_0).IsWhole).read_unread, (Memref.isWhole_whole _ : (scM1_1).IsWhole).read_unread, Memref.IsWhole.read_unread, View.readCov_unit_zero (S := S256x6144) _ hz2, View.ld_unit_zero (S := S256x256) hz2, View.ld_unit_zero (S := S6144x256) hz2, View.ld_unit_zero (S := S256x6144) hz2, View.ld_unit_zero (S := S1x6144) hz2, View.ld_unit_zero (S := S256x2048) hz2]
  try rfl

end Cert.KernelIdeal.Fr

end
-- ==== Proof.KiR1Cell.lean ====
import proofs.«154160_j33036888441278_1_alg».proof.Proof.KiR1Pieces
import proofs.«154160_j33036888441278_1_alg».proof.Proof.Payload
import proofs.«154160_j33036888441278_1_alg».proof.Proof.BlocksAt
import proofs.«154160_j33036888441278_1_alg».proof.Proof.Spec

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.Bridge

variable (V : (c : Dev nD) → (b : Ref sig .tc) → Buf (Elt Ideal) ((c : Thread nD τ).loc b))

/-! # Region 1: the output block of a batch tile is the GRU cell of the arrays the region finds

Within one batch tile the eight contraction tiles are visited in order; the accumulators after the last hold the whole
contractions, and the block stored there is the cell's gating of them. -/

/-- The grid point of batch tile `B` and contraction tile `k` (`k` read as 7 beyond the last). -/
def pt1 (B : Fin 32) (k : ℕ) : Fin cfg1.N := ⟨8 * B.val + min k 7, by rw [show cfg1.N = 256 from N_1]; have := B.isLt; omega⟩

theorem pt1_val (B : Fin 32) (k : ℕ) (hk : k < 8) : (pt1 B k).val = 8 * B.val + k := by
  show 8 * B.val + min k 7 = _; omega

attribute [irreducible] pt1

theorem outsAt1_congr (c : Dev nD) (n n' : ℕ) (e : n = n') (h : n < cfg1.N) (h' : n' < cfg1.N) :
    outsAt1 V c n h = outsAt1 V c n' h' := by subst e; rfl

/-- The two accumulators after the point of batch tile `B`, contraction tile `k`. -/
def acci1 (c : Dev nD) (B : Fin 32) (k : ℕ) : Vec Ideal S256x6144 .f32 := (outsAt1 V c (pt1 B k).val (pt1 B k).isLt).2.1
def acch1 (c : Dev nD) (B : Fin 32) (k : ℕ) : Vec Ideal S256x6144 .f32 := (outsAt1 V c (pt1 B k).val (pt1 B k).isLt).2.2

set_option maxHeartbeats 1000000 in
theorem acc1_zero (c : Dev nD) (B : Fin 32) :
    acci1 V c B 0 = k1_pay3 (F := Ideal) (iblk1 V c 0 (pt1 B 0)) (k1_pay1 (F := Ideal)) (iblk1 V c 1 (pt1 B 0))
    ∧ acch1 V c B 0 = k1_pay4 (F := Ideal) (htile1 V c (pt1 B 0)) (k1_pay2 (F := Ideal)) (iblk1 V c 3 (pt1 B 0)) := by
  have h0 : (pt1 B 0).val % 8 = 0 := by rw [pt1_val B 0 (by decide)]; omega
  have h1 : ¬(pt1 B 0).val % 8 = 7 := by omega
  unfold acci1 acch1
  rw [outsAt1_A V c (pt1 B 0) h0 h1]
  dsimp only
  exact ⟨soutA1_0_eq V c (pt1 B 0) h0 h1, soutA1_1_eq V c (pt1 B 0) h0 h1⟩

set_option maxHeartbeats 1000000 in
theorem acc1_succ (c : Dev nD) (B : Fin 32) (k : ℕ) (hk : k + 1 < 8) :
    acci1 V c B (k + 1) = k1_pay3 (F := Ideal) (iblk1 V c 0 (pt1 B (k + 1))) (acci1 V c B k) (iblk1 V c 1 (pt1 B (k + 1)))
    ∧ acch1 V c B (k + 1) = k1_pay4 (F := Ideal) (htile1 V c (pt1 B (k + 1))) (acch1 V c B k) (iblk1 V c 3 (pt1 B (k + 1))) := by
  have hv : (pt1 B (k + 1)).val = 8 * B.val + (k + 1) := pt1_val B (k + 1) hk
  have hv' : (pt1 B k).val = 8 * B.val + k := pt1_val B k (by omega)
  have h0 : ¬(pt1 B (k + 1)).val % 8 = 0 := by rw [hv]; omega
  have hprev : prev1 V c (pt1 B (k + 1)) = outsAt1 V c (pt1 B k).val (pt1 B k).isLt :=
    outsAt1_congr V c _ _ (by rw [hv, hv']; omega) _ _
  unfold acci1 acch1
  by_cases h1 : (pt1 B (k + 1)).val % 8 = 7
  · rw [outsAt1_C V c (pt1 B (k + 1)) h0 h1, hprev]
    dsimp only
    exact ⟨soutC1_0_eq V c (pt1 B (k + 1)) h0 h1 (outsAt1 V c (pt1 B k).val (pt1 B k).isLt).2.1 (outsAt1 V c (pt1 B k).val (pt1 B k).isLt).2.2, soutC1_1_eq V c (pt1 B (k + 1)) h0 h1 (outsAt1 V c (pt1 B k).val (pt1 B k).isLt).2.1 (outsAt1 V c (pt1 B k).val (pt1 B k).isLt).2.2⟩
  · rw [outsAt1_B V c (pt1 B (k + 1)) h0 h1, hprev]
    dsimp only
    exact ⟨soutB1_0_eq V c (pt1 B (k + 1)) h0 h1 (outsAt1 V c (pt1 B k).val (pt1 B k).isLt).2.1 (outsAt1 V c (pt1 B k).val (pt1 B k).isLt).2.2, soutB1_1_eq V c (pt1 B (k + 1)) h0 h1 (outsAt1 V c (pt1 B k).val (pt1 B k).isLt).2.1 (outsAt1 V c (pt1 B k).val (pt1 B k).isLt).2.2⟩

set_option maxHeartbeats 1000000 in
/-- What the output's staging buffer holds after the last contraction tile of batch tile `B`. -/
theorem outblk1_eq (c : Dev nD) (B : Fin 32) :
    (outsAt1 V c (pt1 B 7).val (pt1 B 7).isLt).1
      = k1_pay5 (F := Ideal) (acci1 V c B 7) (iblk1 V c 4 (pt1 B 7)) (acch1 V c B 7) (iblk1 V c 5 (pt1 B 7)) (iblk1 V c 2 (pt1 B 7)) := by
  have hv : (pt1 B 7).val = 8 * B.val + 7 := pt1_val B 7 (by decide)
  have h0 : ¬(pt1 B 7).val % 8 = 0 := by rw [hv]; omega
  have h1 : (pt1 B 7).val % 8 = 7 := by rw [hv]; omega
  have hprev : prev1 V c (pt1 B 7) = outsAt1 V c (pt1 B 6).val (pt1 B 6).isLt :=
    outsAt1_congr V c _ _ (by rw [hv, pt1_val B 6 (by decide)]; omega) _ _
  unfold acci1 acch1
  rw [outsAt1_C V c (pt1 B 7) h0 h1, hprev]
  dsimp only
  rw [outC1_6_eq V c (pt1 B 7) h0 h1, soutC1_0_eq V c (pt1 B 7) h0 h1, soutC1_1_eq V c (pt1 B 7) h0 h1]

/-- The hidden tile of the point of batch tile `B`, contraction tile `k`: columns `256·k …` of the batch tile's rows. -/
theorem htile1_at (c : Dev nD) (B : Fin 32) (k : ℕ) (hk : k < 8) (p c' : Fin 256) :
    htile1 V c (pt1 B k) (ix2 p c')
      = (V c main_v1 : S8192x2048.Idx → EReal) (ix2 (tileRow B p) (tileCol k hk c')) := by
  have hv := pt1_val B k hk
  have hc := (coords1 (pt1 B k)).2
  have e : (hrect1 (pt1 B k)).idx (ix2 p c') = ix2 p (tileCol k hk c') := by
    first | refine (hiddenTile1_idx (grid1.coords (pt1 B k)) p c').trans ?_ | refine (hiddenTile1_emb (grid1.coords (pt1 B k)) p c').trans ?_
    congr 1
    apply Fin.ext
    show 256 * (grid1.coords (pt1 B k) 1).val + c'.val = k * 256 + c'.val
    rw [hc, hv]; omega
  show (iblk1 V c 2 (pt1 B k) : Vec Ideal S256x2048 .f32) ((hrect1 (pt1 B k)).idx (ix2 p c')) = _
  rw [e]
  exact iblk1_2_at V c (pt1 B k) B k hk hv p (tileCol k hk c')

/-- THE BLOCK: after the last contraction tile of batch tile `B` the output's staging buffer holds, at row `p` and
    column `j`, the GRU cell of the arrays the region finds, at row `256·B + p`. -/
theorem block1_at (c : Dev nD) (B : Fin 32) (p : Fin 256) (j : Fin 2048) :
    (outsAt1 V c (pt1 B 7).val (pt1 B 7).isLt).1 (ix2 p j)
      = Cert.Spec.cell (V c main_v6 : Cert.Spec.SX.Idx → EReal) (V c main_v1 : Cert.Spec.SX.Idx → EReal)
          (V c main_v7 : Cert.Spec.SW.Idx → EReal) (V c main_v8 : Cert.Spec.SW.Idx → EReal)
          (fun i => (V c main_v9 : S1x6144.Idx → EReal) (ix2 0 (i 0))) (fun i => (V c main_v10 : S1x6144.Idx → EReal) (ix2 0 (i 0)))
          (ix2 (tileRow B p) j) := by
  rw [outblk1_eq]
  exact cell1_tile_at (V c main_v6) (V c main_v1) (V c main_v7) (V c main_v8)
    (fun i => (V c main_v9 : S1x6144.Idx → EReal) (ix2 0 (i 0))) (fun i => (V c main_v10 : S1x6144.Idx → EReal) (ix2 0 (i 0))) B
    (fun k => iblk1 V c 0 (pt1 B k)) (fun k => htile1 V c (pt1 B k))
    (fun k => iblk1 V c 1 (pt1 B k)) (fun k => iblk1 V c 3 (pt1 B k))
    (acci1 V c B) (acch1 V c B) (iblk1 V c 4 (pt1 B 7)) (iblk1 V c 5 (pt1 B 7)) (iblk1 V c 2 (pt1 B 7))
    (fun k hk p c' => iblk1_0_at V c (pt1 B k) B k hk (pt1_val B k hk) p c')
    (fun k hk p c' => htile1_at V c B k hk p c')
    (fun k hk q c' => iblk1_1_at V c (pt1 B k) B k hk (pt1_val B k hk) q c')
    (fun k hk q c' => iblk1_3_at V c (pt1 B k) B k hk (pt1_val B k hk) q c')
    (fun q => iblk1_4_at V c (pt1 B 7) q) (fun q => iblk1_5_at V c (pt1 B 7) q)
    (fun p j => iblk1_2_at V c (pt1 B 7) B 7 (by decide) (pt1_val B 7 (by decide)) p j)
    (acc1_zero V c B).1 (fun k hk => (acc1_succ V c B k hk).1)
    (acc1_zero V c B).2 (fun k hk => (acc1_succ V c B k hk).2) p j

end Cert.KernelIdeal.Fr

end
-- ==== Proof.OutArray.lean ====
import proofs.«154160_j33036888441278_1_alg».proof.Proof.KiR0Frame
import proofs.«154160_j33036888441278_1_alg».proof.Proof.KiR1Frame
import Idealize.ShloMosaic.Lib.Pipeline.Value
import Idealize.ShloMosaic.Lib.ValueIdx

/-!
# From the stored blocks to the output array

Each cell's output array of 8192 rows is written back in 32 blocks of 256 rows, one per batch tile, at the point where
that tile's last contraction step has stored the block. The blocks tile the array: row `r` lies in batch tile
`r / 256`. So if every stored block is the corresponding block of a function `G` of the whole array, the array ends
holding `G`.
-/

set_option maxRecDepth 16384

noncomputable section

namespace Cert.Bridge

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Fr

variable {F : FTy → Type} [FloatOps F]
variable (V : (c : Dev nD) → (b : Ref sig .tc) → Buf (Elt F) ((c : Thread nD τ).loc b))

/-! ## Region 0: the first cell's output array -/

/-- The output window's block index: the batch tile, and the one column block. -/
theorem index0_6 : ∀ t : Fin cfg0.N, win0_6.index t 0 = t.val / 8 ∧ win0_6.index t 1 = 0 :=
  (by decide +kernel : ∀ t : Fin grid0.N, win0_6.index t 0 = t.val / 8 ∧ win0_6.index t 1 = 0)

/-- An index of the output array is in point `t`'s block iff each coordinate is in the block's range on its axis. -/
theorem mem_blk0_6 (t : Fin cfg0.N) (i : S8192x2048.Idx) :
    i ∈ ((cfg0.win 6).blk t).view.set
      ↔ ∀ a : Fin 2, win0_6.index t a * S256x2048.size a ≤ (i a).val ∧ (i a).val < win0_6.index t a * S256x2048.size a + S256x2048.size a := by
  show i ∈ ((View.whole main_v6).slice (win0_6.rect t)).set ↔ _
  rw [View.set_slice_whole, Rect.mem_set_unit]
  exact Iff.rfl

/-- What a last contraction tile writes back is its block of `G`. -/
theorem flushed0_6_eq (c : Dev nD) (G : S8192x2048.Idx → Elt F .f32)
    (hG : ∀ (t : Fin cfg0.N), t.val % 8 = 7 → ∀ (p : Fin 256) (j : Fin 2048),
      (outsAt0 V c t.val t.isLt).1 (ix2 p j)
        = G (ix2 ⟨(t.val / 8) * 256 + p.val, by have := t.isLt; have hN : cfg0.N = 256 := N_0; have := p.isLt; omega⟩ j))
    (t : Fin cfg0.N) (hf : (cfg0.win 6).flush t = true) :
    (dat0 V c).flushed 6 t = ((cfg0.win 6).blk t).view.read (Elt F) G := by
  have h7 := (flush0_6 t).mp hf
  have hi := index0_6 t
  show (cfg0.win 6).cut (grid0.coords t) ((dat0 V c).after 6 t) = _
  rw [after0_6]
  have key : ∀ y : S256x2048.Idx, (outsAt0 V c t.val t.isLt).1 y
      = (G : S8192x2048.Idx → Elt F .f32) (((cfg0.win 6).blk t).view.emb y) := by
    intro y
    obtain ⟨p, j, rfl⟩ : ∃ (p : Fin 256) (j : Fin 2048), y = ix2 p j := ⟨y 0, y 1, eq_ix2 y⟩
    rw [hG t h7 p j]
    refine congrArg G (funext fun a => Fin.ext ?_)
    match a with
    | ⟨0, _⟩ => show t.val / 8 * 256 + p.val = win0_6.index t 0 * 256 + 1 * p.val; rw [hi.1]; omega
    | ⟨1, _⟩ => show j.val = win0_6.index t 1 * 2048 + 1 * j.val; rw [hi.2]; omega
  funext y
  rw [View.read_apply]
  exact key y

/-- The output array after the region: `G`, when every last contraction tile's stored block is its block of `G`. -/
theorem final0 (c : Dev nD) (G : S8192x2048.Idx → Elt F .f32)
    (hG : ∀ (t : Fin cfg0.N), t.val % 8 = 7 → ∀ (p : Fin 256) (j : Fin 2048),
      (outsAt0 V c t.val t.isLt).1 (ix2 p j)
        = G (ix2 ⟨(t.val / 8) * 256 + p.val, by have := t.isLt; have hN : cfg0.N = 256 := N_0; have := p.isLt; omega⟩ j)) :
    (dat0 V c).arrAt 6 cfg0.N = G :=
  (dat0 V c).arrAt_eq_of_cover 6 G (flushed0_6_eq V c G hG) fun i => by
    have h0 : (i 0).val < 8192 := (i 0).isLt
    have h1 : (i 1).val < 2048 := (i 1).isLt
    obtain ⟨t, htv⟩ : ∃ t : Fin cfg0.N, t.val = 8 * ((i 0).val / 256) + 7 :=
      ⟨⟨8 * ((i 0).val / 256) + 7, by rw [show cfg0.N = 256 from N_0]; omega⟩, rfl⟩
    have hi := index0_6 t
    refine ⟨t, (flush0_6 t).mpr (by omega), ?_⟩
    rw [mem_blk0_6]
    intro a
    match a with
    | ⟨0, _⟩ => show win0_6.index t 0 * 256 ≤ (i 0).val ∧ (i 0).val < win0_6.index t 0 * 256 + 256; rw [hi.1]; omega
    | ⟨1, _⟩ => show win0_6.index t 1 * 2048 ≤ (i 1).val ∧ (i 1).val < win0_6.index t 1 * 2048 + 2048; rw [hi.2]; omega

/-! ## Region 1: the second cell's output array -/

/-- The output window's block index: the batch tile, and the one column block. -/
theorem index1_6 : ∀ t : Fin cfg1.N, win1_6.index t 0 = t.val / 8 ∧ win1_6.index t 1 = 0 :=
  (by decide +kernel : ∀ t : Fin grid1.N, win1_6.index t 0 = t.val / 8 ∧ win1_6.index t 1 = 0)

/-- An index of the output array is in point `t`'s block iff each coordinate is in the block's range on its axis. -/
theorem mem_blk1_6 (t : Fin cfg1.N) (i : S8192x2048.Idx) :
    i ∈ ((cfg1.win 6).blk t).view.set
      ↔ ∀ a : Fin 2, win1_6.index t a * S256x2048.size a ≤ (i a).val ∧ (i a).val < win1_6.index t a * S256x2048.size a + S256x2048.size a := by
  show i ∈ ((View.whole main_v11).slice (win1_6.rect t)).set ↔ _
  rw [View.set_slice_whole, Rect.mem_set_unit]
  exact Iff.rfl

/-- What a last contraction tile writes back is its block of `G`. -/
theorem flushed1_6_eq (c : Dev nD) (G : S8192x2048.Idx → Elt F .f32)
    (hG : ∀ (t : Fin cfg1.N), t.val % 8 = 7 → ∀ (p : Fin 256) (j : Fin 2048),
      (outsAt1 V c t.val t.isLt).1 (ix2 p j)
        = G (ix2 ⟨(t.val / 8) * 256 + p.val, by have := t.isLt; have hN : cfg1.N = 256 := N_1; have := p.isLt; omega⟩ j))
    (t : Fin cfg1.N) (hf : (cfg1.win 6).flush t = true) :
    (dat1 V c).flushed 6 t = ((cfg1.win 6).blk t).view.read (Elt F) G := by
  have h7 := (flush1_6 t).mp hf
  have hi := index1_6 t
  show (cfg1.win 6).cut (grid1.coords t) ((dat1 V c).after 6 t) = _
  rw [after1_6]
  have key : ∀ y : S256x2048.Idx, (outsAt1 V c t.val t.isLt).1 y
      = (G : S8192x2048.Idx → Elt F .f32) (((cfg1.win 6).blk t).view.emb y) := by
    intro y
    obtain ⟨p, j, rfl⟩ : ∃ (p : Fin 256) (j : Fin 2048), y = ix2 p j := ⟨y 0, y 1, eq_ix2 y⟩
    rw [hG t h7 p j]
    refine congrArg G (funext fun a => Fin.ext ?_)
    match a with
    | ⟨0, _⟩ => show t.val / 8 * 256 + p.val = win1_6.index t 0 * 256 + 1 * p.val; rw [hi.1]; omega
    | ⟨1, _⟩ => show j.val = win1_6.index t 1 * 2048 + 1 * j.val; rw [hi.2]; omega
  funext y
  rw [View.read_apply]
  exact key y

/-- The output array after the region: `G`, when every last contraction tile's stored block is its block of `G`. -/
theorem final1 (c : Dev nD) (G : S8192x2048.Idx → Elt F .f32)
    (hG : ∀ (t : Fin cfg1.N), t.val % 8 = 7 → ∀ (p : Fin 256) (j : Fin 2048),
      (outsAt1 V c t.val t.isLt).1 (ix2 p j)
        = G (ix2 ⟨(t.val / 8) * 256 + p.val, by have := t.isLt; have hN : cfg1.N = 256 := N_1; have := p.isLt; omega⟩ j)) :
    (dat1 V c).arrAt 6 cfg1.N = G :=
  (dat1 V c).arrAt_eq_of_cover 6 G (flushed1_6_eq V c G hG) fun i => by
    have h0 : (i 0).val < 8192 := (i 0).isLt
    have h1 : (i 1).val < 2048 := (i 1).isLt
    obtain ⟨t, htv⟩ : ∃ t : Fin cfg1.N, t.val = 8 * ((i 0).val / 256) + 7 :=
      ⟨⟨8 * ((i 0).val / 256) + 7, by rw [show cfg1.N = 256 from N_1]; omega⟩, rfl⟩
    have hi := index1_6 t
    refine ⟨t, (flush1_6 t).mpr (by omega), ?_⟩
    rw [mem_blk1_6]
    intro a
    match a with
    | ⟨0, _⟩ => show win1_6.index t 0 * 256 ≤ (i 0).val ∧ (i 0).val < win1_6.index t 0 * 256 + 256; rw [hi.1]; omega
    | ⟨1, _⟩ => show win1_6.index t 1 * 2048 ≤ (i 1).val ∧ (i 1).val < win1_6.index t 1 * 2048 + 2048; rw [hi.2]; omega

end Cert.Bridge

end
-- ==== Proof.KiMain.lean ====
import proofs.«154160_j33036888441278_1_alg».proof.Proof.KiR0Frame
import proofs.«154160_j33036888441278_1_alg».proof.Proof.KiR1Frame
import proofs.«154160_j33036888441278_1_alg».proof.Proof.Gen.KernelIdeal.Regions

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: the program's five segments from the launch to the return

Host operations, the first layer's region, host operations, the second layer's region, and the final concatenation.
The buffer contents at each boundary are a fold from the launch memory. -/

/-- Core `c`'s buffers at launch. -/
abbrev W0 : Dev nD → Valuation τ sig (Elt F) := fun c b => (s₀ m ρ).mem ((c : Dev nD), b)
/-- After the first host stretch: region 0's entry. -/
abbrev W1 : Dev nD → Valuation τ sig (Elt F) := fun c => StableHlo.after hostOps0 (W0 m ρ c)
abbrev En1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (En1 m ρ) c).arrAt w cfg0.N
theorem W2_arr (c : Dev nD) (w : Fin cfg0.W) :
    W2 m ρ c (Proc.devRef .tc (Pipeline.arrRef spec0 w)) = (dat0 (En1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Ex2 : (c : Dev nD) → (b : Ref sig .tc) → Buf (Elt F) ((c : Thread nD τ).loc b) := fun c b => W2 m ρ c b
theorem hF0 (c : Dev nD) (w : Fin cfg0.W) : (dat0 (En1 m ρ) c).arrAt w cfg0.N = Ex2 m ρ c (Pipeline.arrRef spec0 w) :=
  (W2_arr m ρ c w).symm
theorem hrest0 (c : Dev nD) : ∀ b, b ∉ Finset.univ.image (Pipeline.arrRef spec0) → Ex2 m ρ c b = En1 m ρ c b :=
  fun b hb => W2_of_ne m ρ c b fun w e => hb (Finset.mem_image.mpr ⟨w, Finset.mem_univ _, e⟩)

/-- After the second host stretch: region 1's entry. -/
abbrev W3 : Dev nD → Valuation τ sig (Elt F) := fun c => StableHlo.after hostOps1 (W2 m ρ c)
abbrev En3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (En3 m ρ) c).arrAt w cfg1.N
theorem W4_arr (c : Dev nD) (w : Fin cfg1.W) :
    W4 m ρ c (Proc.devRef .tc (Pipeline.arrRef spec1 w)) = (dat1 (En3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev Ex4 : (c : Dev nD) → (b : Ref sig .tc) → Buf (Elt F) ((c : Thread nD τ).loc b) := fun c b => W4 m ρ c b
theorem hF1 (c : Dev nD) (w : Fin cfg1.W) : (dat1 (En3 m ρ) c).arrAt w cfg1.N = Ex4 m ρ c (Pipeline.arrRef spec1 w) :=
  (W4_arr m ρ c w).symm
theorem hrest1 (c : Dev nD) : ∀ b, b ∉ Finset.univ.image (Pipeline.arrRef spec1) → Ex4 m ρ c b = En3 m ρ c b :=
  fun b hb => W4_of_ne m ρ c b fun w e => hb (Finset.mem_image.mpr ⟨w, Finset.mem_univ _, e⟩)

/-- After the last host stretch: the end. -/
abbrev W5 : Dev nD → Valuation τ sig (Elt F) := fun c => StableHlo.after hostOps2 (W4 m ρ c)

/-! ### The arguments end as launched: no host operation writes one and no region's output is one -/

/-- A buffer no host stretch writes and no region stages keeps its launch contents to the end. -/
theorem W5_untouched (c : Dev nD) (b : Ref sig .tc) (h2 : b ∉ hostOps2_W) (h4 : ∀ w, Pipeline.arrRef spec1 w ≠ b)
    (h3 : b ∉ hostOps1_W) (h2' : ∀ w, Pipeline.arrRef spec0 w ≠ b) (h1 : b ∉ hostOps0_W) :
    W5 m ρ c (Proc.devRef .tc b) = m ((c : Thread nD τ).loc b) :=
  calc W5 m ρ c (Proc.devRef .tc b)
    _ = W4 m ρ c (Proc.devRef .tc b) := StableHlo.after_of_writes_sub hostOps2 _ hostOps2_writes h2
    _ = W3 m ρ c (Proc.devRef .tc b) := W4_of_ne m ρ c b h4
    _ = W2 m ρ c (Proc.devRef .tc b) := StableHlo.after_of_writes_sub hostOps1 _ hostOps1_writes h3
    _ = W1 m ρ c (Proc.devRef .tc b) := W2_of_ne m ρ c b h2'
    _ = W0 m ρ c (Proc.devRef .tc b) := StableHlo.after_of_writes_sub hostOps0 _ hostOps0_writes h1
    _ = m ((c : Thread nD τ).loc b) := rfl

/-- The first argument is region 0's first input window's array: staged, never written back. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (En1 m ρ) c).arrAt_in 0 rfl _).trans (A_eq0 (En1 m ρ) c 0))
    _ = W0 m ρ c (Proc.devRef .tc main_arg0) := StableHlo.after_of_writes_sub hostOps0 _ hostOps0_writes (by decide)
    _ = m ((c : Thread nD τ).loc main_arg0) := rfl

/-! ## The proof data family and the thread state -/

abbrev admR : (p : Fin 2) → (pcfgs (F := F) p).Adm := fun p => (cfgs p).toPCfg_adm
/-- Each pipeline's proof data at its region's entry contents. -/
def pdatsR : (p : Fin 2) → (c : Dev nD) → Dat τ (Elt F) Unit ℕ (UR sig nD τ) ℕ (Pipeline.pin (pcfgs (F := F)) admR p) c
  | ⟨0, _⟩ => fun c => dat0 (En1 m ρ) c
  | ⟨1, _⟩ => fun c => dat1 (En3 m ρ) c
abbrev 𝒱R : Variants := Variants.none
abbrev LR : GSem nD τ sig → Finset Unit := fun _ => ∅
abbrev lvR : GSem nD τ sig → Unit → ℕ := fun _ _ => 0
/-- What rides beside the buffers through every segment: the generator register at some state and the core owing nothing. -/
abbrev Ride (c : Dev nD) : sProp 𝕄 := iprop((∃ g, prngReg c g) ∗ ∃ W, owes (c : Thread nD τ) (0 : CellTallies nD τ sig Unit) W)
/-- A host stretch as a segment over the unscoped references. -/
abbrev hsegR (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱R LR lvR :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Ride

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev TnR (c : Dev nD) : sProp 𝕄 := iprop(StableHlo.held (c : Thread nD τ) (Pipeline.ucRefs τ sig) (W5 m ρ c) ∗ ∃ g, prngReg c g)

set_option backward.isDefEq.respectTransparency.types false in
/-- Region 0 over the thread state: entered with every unscoped buffer at the boundary's contents, left with its
    windows' arrays at what the pipeline's write-backs leave and every other buffer as entered. Its arrays are split
    out of the unscoped buffers and put back at the exit; the generator register goes into the region's invariant and
    comes back; nothing is owed; the kernel has no semaphore of its own. -/
def reg0 : Pipeline.RegionSeg (pcfgs (F := F)) admR (pdatsR m ρ) () defs₀ 𝒱R LR lvR 0 where
  win := launch0.win.to₀
  block_pos := launch0.block_pos
  stage_whole := launch0.stage_whole
  K := PEmpty
  osem k := k.elim
  ho := Pipeline.OwnSemFacts.none _
  hbody c := (body_obligation0 (En1 m ρ) c).loose
  hwaits := Pipeline.hwaits_of_owed_zero _ _ _ _ LR lvR 0 fun _ _ => rfl
  pre c := iprop(StableHlo.held (c : Thread nD τ) (Pipeline.ucRefs τ sig) (W1 m ρ c) ∗ Ride c)
  post c := iprop(StableHlo.held (c : Thread nD τ) (Pipeline.ucRefs τ sig) (W2 m ρ c) ∗ Ride c)
  X c := iprop(∃ g, prngReg c g)
  Y c := iprop(∃ g, prngReg c g)
  Z c := Pipeline.unscopedRest (Ix := Unit) (Name := ℕ) (U := UR sig nD τ) (Lvl := ℕ) spec0 c (En1 m ρ c)
  hentry c := by
    rw [Pipeline.ownSems0_none]
    have hsplit := Pipeline.arrays_of_unscopedBufs (p := 0) (pcfgs (F := F)) admR (pdatsR m ρ) launch0.win launch0.arr_whole c
      ((pdatsR m ρ 0 c).share_full fun _ => rfl) (En1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    iintro ⟨Hp, -, Hr⟩
    iapply (show Pipeline.ΦA spec0 c ⊢ (pdatsR m ρ 0 c).Φ 0 from hin0 (En1 m ρ) c)
    unfold Pipeline.ΦA
    isplitl [Hr]; · iexact Hr
    iexact Hp
  hout c := by
    rw [Pipeline.ownSems0_none]
    iintro HΦ
    ihave HA := (show (pdatsR m ρ 0 c).Φ (Fin.last _) ⊢ Pipeline.ΦA spec0 c from hout0 (En1 m ρ) c) $$ HΦ
    unfold Pipeline.ΦA
    icases HA with ⟨Hr, Hp⟩
    isplitl [Hp]; · iexact Hp
    isplitr; · iempintro
    iexact Hr
  hexit c := by
    have hjoin := Pipeline.unscopedBufs_of_arrays (p := 0) (pcfgs (F := F)) admR (Ix := Unit) (Name := ℕ) (U := UR sig nD τ) (Lvl := ℕ)
      launch0.win launch0.arr_whole c (pdatsR m ρ) ((pdatsR m ρ 0 c).share_full fun _ => rfl)
      (En1 m ρ c) (Ex2 m ρ c) ((pdatsR m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the boundary's contents, left with its
    windows' arrays at what the pipeline's write-backs leave and every other buffer as entered. Its arrays are split
    out of the unscoped buffers and put back at the exit; the generator register goes into the region's invariant and
    comes back; nothing is owed; the kernel has no semaphore of its own. -/
def reg1 : Pipeline.RegionSeg (pcfgs (F := F)) admR (pdatsR m ρ) () defs₀ 𝒱R LR lvR 1 where
  win := launch1.win.to₀
  block_pos := launch1.block_pos
  stage_whole := launch1.stage_whole
  K := PEmpty
  osem k := k.elim
  ho := Pipeline.OwnSemFacts.none _
  hbody c := (body_obligation1 (En3 m ρ) c).loose
  hwaits := Pipeline.hwaits_of_owed_zero _ _ _ _ LR lvR 1 fun _ _ => rfl
  pre c := iprop(StableHlo.held (c : Thread nD τ) (Pipeline.ucRefs τ sig) (W3 m ρ c) ∗ Ride c)
  post c := iprop(StableHlo.held (c : Thread nD τ) (Pipeline.ucRefs τ sig) (W4 m ρ c) ∗ Ride c)
  X c := iprop(∃ g, prngReg c g)
  Y c := iprop(∃ g, prngReg c g)
  Z c := Pipeline.unscopedRest (Ix := Unit) (Name := ℕ) (U := UR sig nD τ) (Lvl := ℕ) spec1 c (En3 m ρ c)
  hentry c := by
    rw [Pipeline.ownSems0_none]
    have hsplit := Pipeline.arrays_of_unscopedBufs (p := 1) (pcfgs (F := F)) admR (pdatsR m ρ) launch1.win launch1.arr_whole c
      ((pdatsR m ρ 1 c).share_full fun _ => rfl) (En3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    iintro ⟨Hp, -, Hr⟩
    iapply (show Pipeline.ΦA spec1 c ⊢ (pdatsR m ρ 1 c).Φ 0 from hin1 (En3 m ρ) c)
    unfold Pipeline.ΦA
    isplitl [Hr]; · iexact Hr
    iexact Hp
  hout c := by
    rw [Pipeline.ownSems0_none]
    iintro HΦ
    ihave HA := (show (pdatsR m ρ 1 c).Φ (Fin.last _) ⊢ Pipeline.ΦA spec1 c from hout1 (En3 m ρ) c) $$ HΦ
    unfold Pipeline.ΦA
    icases HA with ⟨Hr, Hp⟩
    isplitl [Hp]; · iexact Hp
    isplitr; · iempintro
    iexact Hr
  hexit c := by
    have hjoin := Pipeline.unscopedBufs_of_arrays (p := 1) (pcfgs (F := F)) admR (Ix := Unit) (Name := ℕ) (U := UR sig nD τ) (Lvl := ℕ)
      launch1.win launch1.arr_whole c (pdatsR m ρ) ((pdatsR m ρ 1 c).share_full fun _ => rfl)
      (En3 m ρ c) (Ex4 m ρ c) ((pdatsR m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segsR : List (Pipeline.Seg (pcfgs (F := F)) admR (pdatsR m ρ) () defs₀ 𝒱R LR lvR) :=
  [ .host (hsegR hostOps0 hostOps0_sub hostOps0_fresh (W0 m ρ)),
    .region (reg0 m ρ),
    .host (hsegR hostOps1 hostOps1_sub hostOps1_fresh (W2 m ρ)),
    .region (reg1 m ρ),
    .host (hsegR hostOps2 hostOps2_sub hostOps2_fresh (W4 m ρ)) ]
theorem main_runR (c : Dev nD) : main (F := F) c = Pipeline.Seg.run (segsR m ρ) := (main_chain c).trans (by chain_rfl)

set_option backward.isDefEq.respectTransparency.types false in
/-- THE RUN. From any memory with zero counters, every weakly fair execution of the program on the TensorCores terminates,
    nothing faulting, and every final state has every unscoped buffer at the fold's last contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) admR (pdatsR m ρ) () cellOf_inj emb₁ defs₀ 𝒱R LR lvR m ρ main (segsR m ρ)
    (fun c Q => by rw [main_runR m ρ c])
    (by simp only [segsR, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Ride c)) (Tₙ := TnR m ρ)
    (hch := ⟨fun _ => .rfl, fun _ => .rfl, fun _ => .rfl, fun _ => .rfl, fun _ => .rfl, fun c => by
      show (iprop(StableHlo.held (c : Thread nD τ) (Pipeline.ucRefs τ sig) (W5 m ρ c) ∗ Ride c) : sProp 𝕄)
        ⊢ iprop(TnR m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach LR lvR fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- THE FRAME at any instance: every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (W5_main_arg0 m ρ c),
     (h c _ (mem_uc main_arg1 (by decide))).trans (W5_untouched m ρ c main_arg1 (by decide) (by decide) (by decide) (by decide) (by decide)),
     (h c _ (mem_uc main_arg2 (by decide))).trans (W5_untouched m ρ c main_arg2 (by decide) (by decide) (by decide) (by decide) (by decide)),
     (h c _ (mem_uc main_arg3 (by decide))).trans (W5_untouched m ρ c main_arg3 (by decide) (by decide) (by decide) (by decide) (by decide)),
     (h c _ (mem_uc main_arg4 (by decide))).trans (W5_untouched m ρ c main_arg4 (by decide) (by decide) (by decide) (by decide) (by decide)),
     (h c _ (mem_uc main_arg5 (by decide))).trans (W5_untouched m ρ c main_arg5 (by decide) (by decide) (by decide) (by decide) (by decide)),
     (h c _ (mem_uc main_arg6 (by decide))).trans (W5_untouched m ρ c main_arg6 (by decide) (by decide) (by decide) (by decide) (by decide)),
     (h c _ (mem_uc main_arg7 (by decide))).trans (W5_untouched m ρ c main_arg7 (by decide) (by decide) (by decide) (by decide) (by decide)),
     (h c _ (mem_uc main_arg8 (by decide))).trans (W5_untouched m ρ c main_arg8 (by decide) (by decide) (by decide) (by decide) (by decide)),
     (h c _ (mem_uc main_arg9 (by decide))).trans (W5_untouched m ρ c main_arg9 (by decide) (by decide) (by decide) (by decide) (by decide))⟩)
    (run_all m ρ)

end Cert.KernelIdeal.Fr

end
-- ==== Proof.HostSide.lean ====
import proofs.«154160_j33036888441278_1_alg».proof.Proof.Gen.KernelIdeal.Launch
import proofs.«154160_j33036888441278_1_alg».proof.Proof.Spec
import Idealize.ShloMosaic.Lib.Pipeline.Value
import Idealize.ShloMosaic.Lib.ValueIdx

/-!
# The kernel program's host operations over the extended reals

Around its two cells the kernel program runs a few host operations: before the first cell it slices the state into
its left and right halves, narrows the first layer's two weight matrices to the shorter float format, and lays the
first layer's two bias vectors as single rows; before the second cell it does the same with the second layer's
weights and biases; after it, it joins the two cells' outputs along the columns. Over the extended reals narrowing is
the identity, a slice of the state is one of its halves, a vector laid as a row reads the vector, and the join is
`Cert.Spec.beside`. Each lemma is stated for an arbitrary valuation of the buffers before the stretch.
-/

noncomputable section

namespace Cert.KernelIdeal.Host

open Idealize.ShloMosaic Idealize.ShloMosaic.ValueIdx
open Cert.KernelIdeal Cert.KernelIdeal.Gen Cert.Spec

/-! ## The layout operations, for any proof of their side condition -/

/-- The slice of the state's columns `0 .. 2047` is its left half. -/
theorem sliceL_eq (s : SS.Idx → EReal) (h : SS.Slices ![0, 0] SX) : extractStridedSlice SX ![0, 0] s h = stateL s := by
  funext i
  obtain ⟨b, j, rfl⟩ : ∃ b j, i = ix2 b j := ⟨i 0, i 1, eq_ix2 i⟩
  exact extractStridedSlice_apply ![0, 0] s h (ix2 b j) (ix2 b ⟨j.val, by have := j.isLt; omega⟩) (fun a => match a with
    | ⟨0, _⟩ => by show b.val = 0 + b.val; omega
    | ⟨1, _⟩ => by show j.val = 0 + j.val; omega)

/-- The slice of the state's columns `2048 .. 4095` is its right half. -/
theorem sliceR_eq (s : SS.Idx → EReal) (h : SS.Slices ![0, 2048] SX) : extractStridedSlice SX ![0, 2048] s h = stateR s := by
  funext i
  obtain ⟨b, j, rfl⟩ : ∃ b j, i = ix2 b j := ⟨i 0, i 1, eq_ix2 i⟩
  exact extractStridedSlice_apply ![0, 2048] s h (ix2 b j) (ix2 b ⟨j.val + 2048, by have := j.isLt; omega⟩) (fun a => match a with
    | ⟨0, _⟩ => by show b.val = 0 + b.val; omega
    | ⟨1, _⟩ => by show j.val + 2048 = 2048 + j.val; omega)

/-- A bias vector laid as a single row reads, at `(0, q)`, the vector at `q`. -/
theorem row_at (v : SB.Idx → EReal) (h : SB.ShapeCasts ⟨2, ![1, 6144]⟩) (q : Fin 6144) :
    shapeCast ⟨2, ![1, 6144]⟩ v h (ix2 (0 : Fin 1) q) = v (ix1 q) := by
  refine shapeCast_apply v h (ix2 (0 : Fin 1) q) (ix1 q) ?_
  rw [Shape.rowMajor_val_one, Shape.rowMajor_val_two]
  show q.val = 0 * 6144 + q.val
  omega

/-- Two arrays joined along the columns. -/
theorem join_eq (a b : SX.Idx → EReal) (h : Shape.Concatenates [SX, SX] SS 1) :
    concatenate SS 1 [⟨SX, a⟩, ⟨SX, b⟩] h = beside a b := by
  funext i
  unfold beside
  split
  · rename_i hlt
    exact concatenate_pair_apply_left (1 : Fin 2) a b h i rfl (ix2 (i 0) ⟨(i 1).val, hlt⟩) (fun ax => match ax with
      | ⟨0, _⟩ => rfl
      | ⟨1, _⟩ => rfl)
  · rename_i hge
    exact concatenate_pair_apply_right (1 : Fin 2) a b h i rfl rfl
      (ix2 (i 0) ⟨(i 1).val - 2048, by have := idx2_lt1 i; omega⟩) (fun ax hne => match ax with
        | ⟨0, _⟩ => rfl
        | ⟨1, _⟩ => absurd rfl hne)
      (by show (i 1).val - 2048 + 2048 = (i 1).val; omega)

/-! ## Before the first cell -/

variable (X : Valuation τ sig (Elt Ideal))

/-- The first cell's hidden input is the left half of the state. -/
theorem ops0_v0 :
    (StableHlo.after hostOps0 X (Proc.devRef .tc main_v0) : S8192x2048.Idx → EReal)
      = stateL (X (Proc.devRef .tc main_arg1)) := by
  have e : (StableHlo.after hostOps0 X (Proc.devRef .tc main_v0) : S8192x2048.Idx → EReal)
      = extractStridedSlice S8192x2048 ![0, 0] (X (Proc.devRef .tc main_arg1)) slices_S8192x4096_S8192x2048_0_0 := by
    after_results
  rw [e]
  exact sliceL_eq _ _

/-- The second cell's hidden input is the right half of the state. -/
theorem ops0_v1 :
    (StableHlo.after hostOps0 X (Proc.devRef .tc main_v1) : S8192x2048.Idx → EReal)
      = stateR (X (Proc.devRef .tc main_arg1)) := by
  have e : (StableHlo.after hostOps0 X (Proc.devRef .tc main_v1) : S8192x2048.Idx → EReal)
      = extractStridedSlice S8192x2048 ![0, 2048] (X (Proc.devRef .tc main_arg1)) slices_S8192x4096_S8192x2048_0_2048 := by
    after_results
  rw [e]
  exact sliceR_eq _ _

/-- The narrowed input weights of the first layer are the weights. -/
theorem ops0_v2 :
    (StableHlo.after hostOps0 X (Proc.devRef .tc main_v2) : S6144x2048.Idx → EReal)
      = (X (Proc.devRef .tc main_arg2) : S6144x2048.Idx → EReal) := by
  after_results; rfl

/-- The narrowed hidden weights of the first layer are the weights. -/
theorem ops0_v3 :
    (StableHlo.after hostOps0 X (Proc.devRef .tc main_v3) : S6144x2048.Idx → EReal)
      = (X (Proc.devRef .tc main_arg3) : S6144x2048.Idx → EReal) := by
  after_results; rfl

/-- The first layer's input bias laid as a row. -/
theorem ops0_v4 (q : Fin 6144) :
    (StableHlo.after hostOps0 X (Proc.devRef .tc main_v4) : S1x6144.Idx → EReal) (ix2 (0 : Fin 1) q)
      = (X (Proc.devRef .tc main_arg4) : S6144.Idx → EReal) (ix1 q) := by
  have e : (StableHlo.after hostOps0 X (Proc.devRef .tc main_v4) : S1x6144.Idx → EReal)
      = shapeCast S1x6144 (X (Proc.devRef .tc main_arg4) : S6144.Idx → EReal) shapeCasts_S6144_S1x6144 := by
    after_results; rfl
  rw [e]
  exact row_at _ _ q

/-- The first layer's hidden bias laid as a row. -/
theorem ops0_v5 (q : Fin 6144) :
    (StableHlo.after hostOps0 X (Proc.devRef .tc main_v5) : S1x6144.Idx → EReal) (ix2 (0 : Fin 1) q)
      = (X (Proc.devRef .tc main_arg5) : S6144.Idx → EReal) (ix1 q) := by
  have e : (StableHlo.after hostOps0 X (Proc.devRef .tc main_v5) : S1x6144.Idx → EReal)
      = shapeCast S1x6144 (X (Proc.devRef .tc main_arg5) : S6144.Idx → EReal) shapeCasts_S6144_S1x6144 := by
    after_results; rfl
  rw [e]
  exact row_at _ _ q

/-! ## Before the second cell -/

/-- The narrowed input weights of the second layer are the weights. -/
theorem ops1_v7 :
    (StableHlo.after hostOps1 X (Proc.devRef .tc main_v7) : S6144x2048.Idx → EReal)
      = (X (Proc.devRef .tc main_arg6) : S6144x2048.Idx → EReal) := by
  after_results; rfl

/-- The narrowed hidden weights of the second layer are the weights. -/
theorem ops1_v8 :
    (StableHlo.after hostOps1 X (Proc.devRef .tc main_v8) : S6144x2048.Idx → EReal)
      = (X (Proc.devRef .tc main_arg7) : S6144x2048.Idx → EReal) := by
  after_results; rfl

/-- The second layer's input bias laid as a row. -/
theorem ops1_v9 (q : Fin 6144) :
    (StableHlo.after hostOps1 X (Proc.devRef .tc main_v9) : S1x6144.Idx → EReal) (ix2 (0 : Fin 1) q)
      = (X (Proc.devRef .tc main_arg8) : S6144.Idx → EReal) (ix1 q) := by
  have e : (StableHlo.after hostOps1 X (Proc.devRef .tc main_v9) : S1x6144.Idx → EReal)
      = shapeCast S1x6144 (X (Proc.devRef .tc main_arg8) : S6144.Idx → EReal) shapeCasts_S6144_S1x6144 := by
    after_results; rfl
  rw [e]
  exact row_at _ _ q

/-- The second layer's hidden bias laid as a row. -/
theorem ops1_v10 (q : Fin 6144) :
    (StableHlo.after hostOps1 X (Proc.devRef .tc main_v10) : S1x6144.Idx → EReal) (ix2 (0 : Fin 1) q)
      = (X (Proc.devRef .tc main_arg9) : S6144.Idx → EReal) (ix1 q) := by
  have e : (StableHlo.after hostOps1 X (Proc.devRef .tc main_v10) : S1x6144.Idx → EReal)
      = shapeCast S1x6144 (X (Proc.devRef .tc main_arg9) : S6144.Idx → EReal) shapeCasts_S6144_S1x6144 := by
    after_results; rfl
  rw [e]
  exact row_at _ _ q

/-! ## After the second cell -/

/-- The result is the two cells' outputs side by side. -/
theorem ops2_v12 :
    (StableHlo.after hostOps2 X (Proc.devRef .tc main_v12) : S8192x4096.Idx → EReal)
      = beside (X (Proc.devRef .tc main_v6)) (X (Proc.devRef .tc main_v11)) := by
  have e : (StableHlo.after hostOps2 X (Proc.devRef .tc main_v12) : S8192x4096.Idx → EReal)
      = concatenate S8192x4096 1 [⟨S8192x2048, (X (Proc.devRef .tc main_v6) : S8192x2048.Idx → EReal)⟩,
          ⟨S8192x2048, (X (Proc.devRef .tc main_v11) : S8192x2048.Idx → EReal)⟩]
          concatenates_S8192x2048_S8192x2048_S8192x4096_d1 := by
    after_results
  rw [e]
  exact join_eq _ _ _

end Cert.KernelIdeal.Host

end
-- ==== Proof.EntryFacts.lean ====
import proofs.«154160_j33036888441278_1_alg».proof.Proof.KiMain
import proofs.«154160_j33036888441278_1_alg».proof.Proof.HostSide

/-!
# What the two cells are entered with, and what the program returns, over the extended reals

The first cell is entered with the input as launched, the left half of the state, the first layer's weights and its
biases laid as rows. The second cell is entered with the first cell's output, the right half of the state, the second
layer's weights and its biases laid as rows. The program returns the two cells' outputs side by side. Each fact follows
the buffer through the stretches that do not write it back to the launch memory.
-/

set_option maxRecDepth 16384

noncomputable section

namespace Cert.KernelIdeal.Fr

open Idealize.ShloMosaic Idealize.ShloMosaic.TcCoe Idealize.ShloMosaic.ValueIdx
open Idealize.SL.Sem
open Cert.KernelIdeal Cert.KernelIdeal.Gen

variable (m : (ℓ : Loc nD τ sig) → Buf (Elt Ideal) ℓ) (ρ : Dev nD → PrngReg)

/-! ## A buffer the first stretch does not write, at the first cell's entry and at the second's -/

/-- At the first cell's entry a buffer the first host stretch does not write is as launched. -/
theorem W1_launch (c : Dev nD) (b : Ref sig .tc) (h1 : b ∉ hostOps0_W) :
    W1 m ρ c (Proc.devRef .tc b) = m ((c : Thread nD τ).loc b) :=
  calc W1 m ρ c (Proc.devRef .tc b)
    _ = W0 m ρ c (Proc.devRef .tc b) := StableHlo.after_of_writes_sub hostOps0 _ hostOps0_writes h1
    _ = m ((c : Thread nD τ).loc b) := rfl

/-- At the first cell's exit a buffer neither the first host stretch nor the first cell writes is as launched. -/
theorem W2_launch (c : Dev nD) (b : Ref sig .tc) (h2 : ∀ w, Pipeline.arrRef spec0 w ≠ b) (h1 : b ∉ hostOps0_W) :
    W2 m ρ c (Proc.devRef .tc b) = m ((c : Thread nD τ).loc b) :=
  (W2_of_ne m ρ c b h2).trans (W1_launch m ρ c b h1)

/-! ## The first cell's entry -/

theorem En1_main_arg0 (c : Dev nD) :
    (En1 m ρ c main_arg0 : Spec.SX.Idx → EReal) = m ((c : Thread nD τ).loc main_arg0) :=
  W1_launch m ρ c main_arg0 (by decide)

theorem En1_main_v0 (c : Dev nD) :
    (En1 m ρ c main_v0 : Spec.SX.Idx → EReal) = Cert.Spec.stateL (m ((c : Thread nD τ).loc main_arg1)) :=
  Host.ops0_v0 (W0 m ρ c)

theorem En1_main_v2 (c : Dev nD) :
    (En1 m ρ c main_v2 : S6144x2048.Idx → EReal) = (m ((c : Thread nD τ).loc main_arg2) : S6144x2048.Idx → EReal) :=
  Host.ops0_v2 (W0 m ρ c)

theorem En1_main_v3 (c : Dev nD) :
    (En1 m ρ c main_v3 : S6144x2048.Idx → EReal) = (m ((c : Thread nD τ).loc main_arg3) : S6144x2048.Idx → EReal) :=
  Host.ops0_v3 (W0 m ρ c)

theorem En1_main_v4 (c : Dev nD) (q : Fin 6144) :
    (En1 m ρ c main_v4 : S1x6144.Idx → EReal) (ix2 (0 : Fin 1) q)
      = (m ((c : Thread nD τ).loc main_arg4) : S6144.Idx → EReal) (ix1 q) :=
  Host.ops0_v4 (W0 m ρ c) q

theorem En1_main_v5 (c : Dev nD) (q : Fin 6144) :
    (En1 m ρ c main_v5 : S1x6144.Idx → EReal) (ix2 (0 : Fin 1) q)
      = (m ((c : Thread nD τ).loc main_arg5) : S6144.Idx → EReal) (ix1 q) :=
  Host.ops0_v5 (W0 m ρ c) q

/-! ## The second cell's entry -/

/-- The second cell's input is what the first cell leaves in its output array. -/
theorem En3_main_v6 (c : Dev nD) :
    En3 m ρ c main_v6 = (dat0 (En1 m ρ) c).arrAt 6 cfg0.N :=
  calc W3 m ρ c (Proc.devRef .tc main_v6)
    _ = W2 m ρ c (Proc.devRef .tc main_v6) := StableHlo.after_of_writes_sub hostOps1 _ hostOps1_writes (by decide)
    _ = (dat0 (En1 m ρ) c).arrAt 6 cfg0.N := W2_arr m ρ c 6

theorem En3_main_v1 (c : Dev nD) :
    (En3 m ρ c main_v1 : Spec.SX.Idx → EReal) = Cert.Spec.stateR (m ((c : Thread nD τ).loc main_arg1)) :=
  calc W3 m ρ c (Proc.devRef .tc main_v1)
    _ = W2 m ρ c (Proc.devRef .tc main_v1) := StableHlo.after_of_writes_sub hostOps1 _ hostOps1_writes (by decide)
    _ = W1 m ρ c (Proc.devRef .tc main_v1) := W2_of_ne m ρ c main_v1 (by decide)
    _ = Cert.Spec.stateR (m ((c : Thread nD τ).loc main_arg1)) := Host.ops0_v1 (W0 m ρ c)

theorem En3_main_v7 (c : Dev nD) :
    (En3 m ρ c main_v7 : S6144x2048.Idx → EReal) = (m ((c : Thread nD τ).loc main_arg6) : S6144x2048.Idx → EReal) :=
  (Host.ops1_v7 (W2 m ρ c)).trans (W2_launch m ρ c main_arg6 (by decide) (by decide))

theorem En3_main_v8 (c : Dev nD) :
    (En3 m ρ c main_v8 : S6144x2048.Idx → EReal) = (m ((c : Thread nD τ).loc main_arg7) : S6144x2048.Idx → EReal) :=
  (Host.ops1_v8 (W2 m ρ c)).trans (W2_launch m ρ c main_arg7 (by decide) (by decide))

theorem En3_main_v9 (c : Dev nD) (q : Fin 6144) :
    (En3 m ρ c main_v9 : S1x6144.Idx → EReal) (ix2 (0 : Fin 1) q)
      = (m ((c : Thread nD τ).loc main_arg8) : S6144.Idx → EReal) (ix1 q) :=
  (Host.ops1_v9 (W2 m ρ c) q).trans (congrFun (W2_launch m ρ c main_arg8 (by decide) (by decide)) (ix1 q))

theorem En3_main_v10 (c : Dev nD) (q : Fin 6144) :
    (En3 m ρ c main_v10 : S1x6144.Idx → EReal) (ix2 (0 : Fin 1) q)
      = (m ((c : Thread nD τ).loc main_arg9) : S6144.Idx → EReal) (ix1 q) :=
  (Host.ops1_v10 (W2 m ρ c) q).trans (congrFun (W2_launch m ρ c main_arg9 (by decide) (by decide)) (ix1 q))

/-! ## The result -/

/-- At the second cell's exit its input array still holds the first cell's output. -/
theorem W4_main_v6 (c : Dev nD) :
    W4 m ρ c (Proc.devRef .tc main_v6) = (dat0 (En1 m ρ) c).arrAt 6 cfg0.N :=
  calc W4 m ρ c (Proc.devRef .tc main_v6)
    _ = (dat1 (En3 m ρ) c).arrAt 0 cfg1.N := W4_arr m ρ c 0
    _ = En3 m ρ c main_v6 := ((dat1 (En3 m ρ) c).arrAt_in 0 rfl _).trans (A_eq1 (En3 m ρ) c 0)
    _ = (dat0 (En1 m ρ) c).arrAt 6 cfg0.N := En3_main_v6 m ρ c

/-- The program's result is the two cells' outputs side by side. -/
theorem W5_main_v12 (c : Dev nD) :
    (W5 m ρ c (Proc.devRef .tc main_v12) : Spec.SS.Idx → EReal)
      = Cert.Spec.beside ((dat0 (En1 m ρ) c).arrAt 6 cfg0.N) ((dat1 (En3 m ρ) c).arrAt 6 cfg1.N) := by
  have e := Host.ops2_v12 (W4 m ρ c)
  rw [W4_main_v6 m ρ c, W4_arr m ρ c 6] at e
  exact e

end Cert.KernelIdeal.Fr

end
-- ==== Proof.KiValue.lean ====
import proofs.«154160_j33036888441278_1_alg».proof.Proof.KiR0Cell
import proofs.«154160_j33036888441278_1_alg».proof.Proof.KiR1Cell
import proofs.«154160_j33036888441278_1_alg».proof.Proof.OutArray
import proofs.«154160_j33036888441278_1_alg».proof.Proof.EntryFacts
import proofs.«154160_j33036888441278_1_alg».proof.Proof.Spec

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.Bridge

/-! # The kernel program's result over the extended reals

Each region's output array is the GRU cell of the arrays it finds: every row block of it is what the last contraction
tile of its batch tile stores. The first region finds the arguments (the left half of the state, the weights read in
another float format, the biases as rows); the second finds the first region's output, the right half of the state and
the second layer's weights and biases. The program's result is the two outputs side by side. -/

section
variable (V : (c : Dev nD) → (b : Ref sig .tc) → Buf (Elt Ideal) ((c : Thread nD τ).loc b))

/-- Region 0's output array, whatever contents `V` the region is entered with. -/
theorem layer_arr0 (c : Dev nD) :
    ((dat0 V c).arrAt 6 cfg0.N : Cert.Spec.SX.Idx → EReal)
      = Cert.Spec.cell (V c main_arg0 : Cert.Spec.SX.Idx → EReal) (V c main_v0 : Cert.Spec.SX.Idx → EReal)
          (V c main_v2 : Cert.Spec.SW.Idx → EReal) (V c main_v3 : Cert.Spec.SW.Idx → EReal)
          (fun i => (V c main_v4 : S1x6144.Idx → EReal) (ix2 0 (i 0))) (fun i => (V c main_v5 : S1x6144.Idx → EReal) (ix2 0 (i 0))) :=
  final0 V c _ fun t ht p j => by
    have hN : cfg0.N = 256 := N_0
    have hB : t.val / 8 < 32 := by have := t.isLt; omega
    have e : outsAt0 V c t.val t.isLt = outsAt0 V c (pt0 ⟨t.val / 8, hB⟩ 7).val (pt0 ⟨t.val / 8, hB⟩ 7).isLt :=
      outsAt0_congr V c _ _ (by rw [pt0_val ⟨t.val / 8, hB⟩ 7 (by decide)]; show t.val = 8 * (t.val / 8) + 7; omega) _ _
    rw [e]
    exact block0_at V c ⟨t.val / 8, hB⟩ p j

/-- Region 1's output array, whatever contents `V` the region is entered with. -/
theorem layer_arr1 (c : Dev nD) :
    ((dat1 V c).arrAt 6 cfg1.N : Cert.Spec.SX.Idx → EReal)
      = Cert.Spec.cell (V c main_v6 : Cert.Spec.SX.Idx → EReal) (V c main_v1 : Cert.Spec.SX.Idx → EReal)
          (V c main_v7 : Cert.Spec.SW.Idx → EReal) (V c main_v8 : Cert.Spec.SW.Idx → EReal)
          (fun i => (V c main_v9 : S1x6144.Idx → EReal) (ix2 0 (i 0))) (fun i => (V c main_v10 : S1x6144.Idx → EReal) (ix2 0 (i 0))) :=
  final1 V c _ fun t ht p j => by
    have hN : cfg1.N = 256 := N_1
    have hB : t.val / 8 < 32 := by have := t.isLt; omega
    have e : outsAt1 V c t.val t.isLt = outsAt1 V c (pt1 ⟨t.val / 8, hB⟩ 7).val (pt1 ⟨t.val / 8, hB⟩ 7).isLt :=
      outsAt1_congr V c _ _ (by rw [pt1_val ⟨t.val / 8, hB⟩ 7 (by decide)]; show t.val = 8 * (t.val / 8) + 7; omega) _ _
    rw [e]
    exact block1_at V c ⟨t.val / 8, hB⟩ p j

end

variable (m : (ℓ : Loc nD τ sig) → Buf (Elt Ideal) ℓ) (ρ : Dev nD → PrngReg)

/-- A bias read as the row the host lays it out in is the bias. -/
theorem bias_row (v : S1x6144.Idx → EReal) (b : Cert.Spec.SB.Idx → EReal) (h : ∀ q : Fin 6144, v (ix2 (0 : Fin 1) q) = b (ix1 q)) :
    (fun i : Cert.Spec.SB.Idx => v (ix2 0 (i 0))) = b :=
  funext fun i => (h (i 0)).trans (congrArg b (eq_ix1 i).symm)

/-- The first region's output array is the first layer's output. -/
theorem arr0_eq (c : Dev nD) :
    ((dat0 (En1 m ρ) c).arrAt 6 cfg0.N : Cert.Spec.SX.Idx → EReal)
      = Cert.Spec.layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [layer_arr0 (En1 m ρ) c, En1_main_arg0 m ρ c, En1_main_v0 m ρ c, En1_main_v2 m ρ c, En1_main_v3 m ρ c,
    bias_row _ _ (En1_main_v4 m ρ c), bias_row _ _ (En1_main_v5 m ρ c)]
  rfl

/-- The second region's output array is the second layer's output. -/
theorem arr1_eq (c : Dev nD) :
    ((dat1 (En3 m ρ) c).arrAt 6 cfg1.N : Cert.Spec.SX.Idx → EReal)
      = Cert.Spec.layer2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [layer_arr1 (En3 m ρ) c, En3_main_v6 m ρ c, arr0_eq m ρ c, En3_main_v1 m ρ c, En3_main_v7 m ρ c, En3_main_v8 m ρ c,
    bias_row _ _ (En3_main_v9 m ρ c), bias_row _ _ (En3_main_v10 m ρ c)]
  rfl

/-- THE VALUE RUN: every weakly fair execution of the kernel program terminates with its result at the two-layer GRU of
    the argument arrays, and the arguments unchanged. -/
theorem value_run : θ_run defs (onTc (τ := τ) (main (F := Ideal))) ⟨m, fun _ => 0, ρ⟩ (fun r => ∀ c : Dev nD,
      r.2.mem ((c.tc : Thread nD τ).loc main_v12)
        = Cert.Spec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_v12 (by decide))).trans ((W5_main_v12 m ρ c).trans (by rw [arr0_eq m ρ c, arr1_eq m ρ c]; rfl)),
     (h c _ (mem_uc main_arg0 (by decide))).trans (W5_main_arg0 m ρ c),
     (h c _ (mem_uc main_arg1 (by decide))).trans (W5_untouched m ρ c main_arg1 (by decide) (by decide) (by decide) (by decide) (by decide)),
     (h c _ (mem_uc main_arg2 (by decide))).trans (W5_untouched m ρ c main_arg2 (by decide) (by decide) (by decide) (by decide) (by decide)),
     (h c _ (mem_uc main_arg3 (by decide))).trans (W5_untouched m ρ c main_arg3 (by decide) (by decide) (by decide) (by decide) (by decide)),
     (h c _ (mem_uc main_arg4 (by decide))).trans (W5_untouched m ρ c main_arg4 (by decide) (by decide) (by decide) (by decide) (by decide)),
     (h c _ (mem_uc main_arg5 (by decide))).trans (W5_untouched m ρ c main_arg5 (by decide) (by decide) (by decide) (by decide) (by decide)),
     (h c _ (mem_uc main_arg6 (by decide))).trans (W5_untouched m ρ c main_arg6 (by decide) (by decide) (by decide) (by decide) (by decide)),
     (h c _ (mem_uc main_arg7 (by decide))).trans (W5_untouched m ρ c main_arg7 (by decide) (by decide) (by decide) (by decide) (by decide)),
     (h c _ (mem_uc main_arg8 (by decide))).trans (W5_untouched m ρ c main_arg8 (by decide) (by decide) (by decide) (by decide) (by decide)),
     (h c _ (mem_uc main_arg9 (by decide))).trans (W5_untouched m ρ c main_arg9 (by decide) (by decide) (by decide) (by decide) (by decide))⟩)
    (run_all (F := Ideal) m ρ)

end Cert.KernelIdeal.Fr

end
-- ==== Proof.LibPlainProduct.lean ====
import Idealize.ShloMosaic.Lib.StackMember
import Idealize.ShloMosaic.Lib.IdealHost
import Idealize.ShloMosaic.Lib.Pipeline.Value

/-!
# Plain matrix products, a transpose, and the logistic function spelled out, read at an index over the extended reals

A dot-dimensions record that contracts the first operand's second axis with the second operand's first axis and has
no batch axis is the plain product of an `m × k` by a `k × n` matrix, whatever proof of well-formedness it carries.
For such a record the host's `dot_general` at `(a, b)` is the sum over the contracted coordinate `c` of
`A (a, c) * B (c, b)`, and a kernel's `matmul` into an accumulator is the accumulator's entry plus that sum. A transposed
matrix at `(a, b)` is the matrix at `(b, a)`. And the reference's expansion of the logistic function into negate,
exponential, add and divide, with its two ones broadcast from a scalar constant, is `Ideal.logistic` of the element.
-/

namespace PlainProduct

open Idealize.ShloMosaic Idealize.ShloMosaic.ValueIdx

/-- The host's product, for any record that is the plain one. -/
theorem dotGeneral_at {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    Host.dotGeneral d prec A B (ix2 a b) = ∑ c : Fin k, A (ix2 a c) * B (ix2 c b) := by
  subst hd
  exact StackMember.dotGeneral_plain_apply prec A B a b

/-- A kernel's product into an accumulator, for any record that is the plain one: the accumulator's entry plus the
    sum. -/
theorem matmul_at {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (acc : FVec Ideal ⟨2, ![m, n]⟩ .f32) (a : Fin m) (b : Fin n) :
    matmul d prec A B acc (ix2 a b) = acc (ix2 a b) + ∑ c : Fin k, A (ix2 a c) * B (ix2 c b) := by
  have h := dotGeneral_at d hd prec A B a b
  show FloatOps.matmul d prec A B acc (ix2 a b) = _
  rw [Ideal.matmul_apply]
  refine congrArg (acc (ix2 a b) + ·) ?_
  rw [← h]
  show _ = FloatOps.dotGeneral d prec _ A B (ix2 a b)
  rw [Ideal.dotGeneral_apply]

/-- The reference's logistic function, spelled `1 / (1 + exp (-s))` with the ones broadcast from the scalar constant
    `1.0`, is the logistic function of the element. -/
theorem logistic_spelled_at {T : Shape} (h : (⟨0, ![]⟩ : Shape).BroadcastsInDim T ![]) (s : FVec Ideal T .f32) (i : T.Idx) :
    Host.divf (broadcastInDim T ![] h (constant (F := Ideal) ⟨0, ![]⟩ .f32 0x3F800000#32))
      (addf (broadcastInDim T ![] h (constant (F := Ideal) ⟨0, ![]⟩ .f32 0x3F800000#32)) (Host.exp (Host.negf s))) i
      = Ideal.logistic (s i) := by
  rw [hostDivf_apply, addf_apply, broadcastInDim_scalar_apply, constant_apply, Ideal.ofBits_one_f32]
  rfl

end PlainProduct
-- ==== Proof.LibHostLayout.lean ====
/-
  Host-side layout operations and two host operations read at an index, over arrays of any extents: a vector laid as a
  single row, a single row repeated down the rows, a vector stood up as a column, a column repeated along the columns
  (each a broadcast that names which axes of the result the operand's axes become), one member cut out of a stack of
  matrices, the host's square root of an entry, and the host's sum over the entries of each row from an initial value
  that is zero, which over the extended reals is the sum of the row. Each lemma says which single entry (or which row)
  of the operand an entry of the result reads.
-/
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Idealize.ShloMosaic.HostLayout

open Idealize.ShloMosaic Idealize.ShloMosaic.ValueIdx

variable {α : Type}

/-- A vector `[b]` laid as the single row `[1, b]` reads, at `(u, j)`, the vector at `j`. -/
theorem bcast_b_1b_apply {b : ℕ} (x : (⟨1, ![b]⟩ : Shape).Idx → α)
    (h : (⟨1, ![b]⟩ : Shape).BroadcastsInDim ⟨2, ![1, b]⟩ (![1] : Fin 1 → Fin 2)) (u : Fin 1) (j : Fin b) :
    broadcastInDim ⟨2, ![1, b]⟩ ![1] h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- The single row `[1, b]` repeated down `a` rows reads, at `(p, j)`, the row at `j`. -/
theorem bcast_1b_ab_apply {a b : ℕ} (x : (⟨2, ![1, b]⟩ : Shape).Idx → α)
    (h : (⟨2, ![1, b]⟩ : Shape).BroadcastsInDim ⟨2, ![a, b]⟩ (![0, 1] : Fin 2 → Fin 2)) (p : Fin a) (j : Fin b) :
    broadcastInDim ⟨2, ![a, b]⟩ ![0, 1] h x (ix2 p j) = x (ix2 (0 : Fin 1) j) := by
  refine broadcastInDim_apply _ h x (ix2 p j) (ix2 (0 : Fin 1) j) fun ax => ?_
  match ax with
  | ⟨0, _⟩ => rfl
  | ⟨1, _⟩ =>
    show j.val = if b = 1 then 0 else j.val
    split
    · have := j.isLt; omega
    · rfl

/-- A vector `[a]` stood up as the column `[a, 1]` reads, at `(p, u)`, the vector at `p`. -/
theorem bcast_a_a1_apply {a : ℕ} (x : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A column `[a, 1]` repeated along `b` columns reads, at `(p, j)`, the column's entry of row `p`. -/
theorem bcast_a1_ab_apply {a b : ℕ} (x : (⟨2, ![a, 1]⟩ : Shape).Idx → α)
    (h : (⟨2, ![a, 1]⟩ : Shape).BroadcastsInDim ⟨2, ![a, b]⟩ (![0, 1] : Fin 2 → Fin 2)) (p : Fin a) (j : Fin b) :
    broadcastInDim ⟨2, ![a, b]⟩ ![0, 1] h x (ix2 p j) = x (ix2 p (0 : Fin 1)) := by
  refine broadcastInDim_apply _ h x (ix2 p j) (ix2 p (0 : Fin 1)) fun ax => ?_
  match ax with
  | ⟨0, _⟩ =>
    show p.val = if a = 1 then 0 else p.val
    split
    · have := p.isLt; omega
    · rfl
  | ⟨1, _⟩ => rfl

/-- Member `o` cut out of a stack `[n0, n1, n2]` reads, at `(u, p, q)`, the stack at `(o, p, q)`. -/
theorem slice3_axis0_apply {n0 n1 n2 : ℕ} (o : ℕ) (X : (⟨3, ![n0, n1, n2]⟩ : Shape).Idx → α)
    (h : (⟨3, ![n0, n1, n2]⟩ : Shape).Slices ![o, 0, 0] ⟨3, ![1, n1, n2]⟩)
    (u : Fin 1) (p : Fin n1) (q : Fin n2) (k : Fin n0) (hk : k.val = o) :
    extractStridedSlice ⟨3, ![1, n1, n2]⟩ ![o, 0, 0] X h (ix3 u p q) = X (ix3 k p q) :=
  extractStridedSlice_apply _ _ _ _ _ (fun ax => by
    match ax with
    | ⟨0, _⟩ =>
      show k.val = o + u.val
      have := u.isLt; omega
    | ⟨1, _⟩ => exact (Nat.zero_add _).symm
    | ⟨2, _⟩ => exact (Nat.zero_add _).symm)

/-- The host's square root at an index is the square root of the entry. -/
theorem hostSqrt_apply {s : Shape} {φ : FTy} (x : FVec Ideal s φ) (i : s.Idx) : Host.sqrt x i = Ideal.sqrt (x i) := rfl

/-- The host's sum over the rows' entries, from an initial value that is zero, read at row `p`: the sum of the row. -/
theorem hostRowSum_apply {a b : ℕ} {u : Shape} (x : FVec Ideal ⟨2, ![a, b]⟩ .f32) (init : u.Idx → Ideal .f32)
    (h' : (⟨2, ![a, b]⟩ : Shape).ReducesTo [1] ⟨1, ![a]⟩) (hu : 0 < u.numel) (h0 : init (Shape.Idx.first hu) = 0)
    (p : Fin a) : Host.reduceAdd x init h' hu (ix1 p) = ∑ k : Fin b, x (ix2 p k) := by
  have h : (⟨2, ![a, b]⟩ : Shape).Reduces [1] ⟨1, ![a]⟩ := ⟨h'.1, Nat.one_pos, h'.2⟩
  show Ideal.hostReduceAdd h' x _ (ix1 p) = _
  rw [Ideal.hostReduceAdd_single h' h, h0, zero_add]
  exact Finset.sum_congr rfl fun k _ => congrArg x (funext fun ax => Fin.ext (by
    match ax with
    | ⟨0, _⟩ => rfl
    | ⟨1, _⟩ => rfl))

end Idealize.ShloMosaic.HostLayout

end
-- ==== Proof.RefSidePre.lean ====
import proofs.«154160_j33036888441278_1_alg».proof.Proof.Gen.ReferenceIdeal.Read
import proofs.«154160_j33036888441278_1_alg».proof.Proof.Spec
import proofs.«154160_j33036888441278_1_alg».proof.Proof.LibPlainProduct
import proofs.«154160_j33036888441278_1_alg».proof.Proof.LibHostLayout

/-!
# The reference's pre-activations, read at an index

The reference forms each layer's pre-activations as a matrix product of the input with the transposed weight
matrix, plus the bias vector laid as one row and repeated down the rows. Entry `(b, j)` of that array is
`Cert.Spec.pre`: the sum over `k` of `x (b, k) * W (j, k)`, plus `bias j`. A slice of 2048 columns starting at
column `g * 2048` reads, at `(b, j)`, column `g * 2048 + j` of the sliced array.
-/

noncomputable section

namespace Cert.RefSide

open Idealize.ShloMosaic Idealize.ShloMosaic.ValueIdx Idealize.ShloMosaic.HostLayout
open Cert.ReferenceIdeal Cert.ReferenceIdeal.Gen Cert.Spec

/-- The transposed weight matrix at `(k, j)` is the weight matrix at `(j, k)`. -/
theorem transposeW_at (W : SW.Idx → EReal) (k : Fin 2048) (j : Fin 6144) :
    transpose (α := EReal) S2048x6144 [1, 0] W transposes_S6144x2048_S2048x6144_1_0 (ix2 k j) = W (ix2 j k) := by
  refine transpose_apply [1, 0] W transposes_S6144x2048_S2048x6144_1_0 (ix2 k j) (ix2 j k) (fun b => ?_)
  match b with
  | ⟨0, _⟩ => rfl
  | ⟨1, _⟩ => rfl

/-- One layer's pre-activation array at `(b, j)`. -/
theorem preact_at (x : SX.Idx → EReal) (W : SW.Idx → EReal) (bias : SB.Idx → EReal) (b : Fin 8192) (j : Fin 6144) :
    addf (F := Ideal) (φ := .f32) (s := S8192x6144)
        (Host.dotGeneral (φ₁ := .f32) (φ₂ := .f32) dot_S8192x2048_S2048x6144_S8192x6144_1_0_0_1_n_n none x
          (transpose S2048x6144 [1, 0] W transposes_S6144x2048_S2048x6144_1_0))
        (broadcastInDim S8192x6144 ![0, 1] bcast_S1x6144_S8192x6144_0_1
          (broadcastInDim S1x6144 ![1] bcast_S6144_S1x6144_1 bias)) (ix2 b j)
      = pre x W bias b j := by
  rw [addf_apply, PlainProduct.dotGeneral_at dot_S8192x2048_S2048x6144_S8192x6144_1_0_0_1_n_n rfl none, bcast_1b_ab_apply, bcast_b_1b_apply]
  unfold pre
  congr 1
  exact Finset.sum_congr rfl fun k _ => by rw [transposeW_at]

end Cert.RefSide

end
-- ==== Proof.RefSideCell.lean ====
import proofs.«154160_j33036888441278_1_alg».proof.Proof.RefSidePre

/-!
# One GRU cell of the reference, read at an index

From the two pre-activation arrays `gi`, `gh` (6144 columns: reset, update, candidate) and the hidden array `h`, the
reference slices the three column blocks of each, forms `r = σ(gi_r + gh_r)`, `z = σ(gi_z + gh_z)` with `σ` spelled
`1 / (1 + exp (-s))`, `n = tanh (gi_n + r * gh_n)`, and returns `(1 - z) * n + z * h`. Entry `(b, j)` of that array is
`Cert.Spec.gate` of the six pre-activation entries in columns `j`, `2048 + j`, `4096 + j` and of `h (b, j)`.
-/

noncomputable section

namespace Cert.RefSide

open Idealize.ShloMosaic Idealize.ShloMosaic.ValueIdx Idealize.ShloMosaic.HostLayout
open Cert.ReferenceIdeal Cert.ReferenceIdeal.Gen Cert.Spec

/-- The reset block: columns `0 .. 2047`. -/
theorem slice0_at (A : S8192x6144.Idx → EReal) (b : Fin 8192) (j : Fin 2048) :
    extractStridedSlice S8192x2048 ![0, 0] A slices_S8192x6144_S8192x2048_0_0 (ix2 b j) = A (ix2 b (row 0 j)) :=
  extractStridedSlice_apply ![0, 0] A slices_S8192x6144_S8192x2048_0_0 (ix2 b j) (ix2 b (row 0 j)) (fun a => match a with
    | ⟨0, _⟩ => by show b.val = 0 + b.val; omega
    | ⟨1, _⟩ => by show 0 * 2048 + j.val = 0 + j.val; omega)

/-- The update block: columns `2048 .. 4095`. -/
theorem slice1_at (A : S8192x6144.Idx → EReal) (b : Fin 8192) (j : Fin 2048) :
    extractStridedSlice S8192x2048 ![0, 2048] A slices_S8192x6144_S8192x2048_0_2048 (ix2 b j) = A (ix2 b (row 1 j)) :=
  extractStridedSlice_apply ![0, 2048] A slices_S8192x6144_S8192x2048_0_2048 (ix2 b j) (ix2 b (row 1 j)) (fun a => match a with
    | ⟨0, _⟩ => by show b.val = 0 + b.val; omega
    | ⟨1, _⟩ => by show 1 * 2048 + j.val = 2048 + j.val; omega)

/-- The candidate block: columns `4096 .. 6143`. -/
theorem slice2_at (A : S8192x6144.Idx → EReal) (b : Fin 8192) (j : Fin 2048) :
    extractStridedSlice S8192x2048 ![0, 4096] A slices_S8192x6144_S8192x2048_0_4096 (ix2 b j) = A (ix2 b (row 2 j)) :=
  extractStridedSlice_apply ![0, 4096] A slices_S8192x6144_S8192x2048_0_4096 (ix2 b j) (ix2 b (row 2 j)) (fun a => match a with
    | ⟨0, _⟩ => by show b.val = 0 + b.val; omega
    | ⟨1, _⟩ => by show 2 * 2048 + j.val = 4096 + j.val; omega)

/-- The array of ones the reference broadcasts from its scalar constant. -/
abbrev ones : FVec Ideal S8192x2048 .f32 :=
  broadcastInDim S8192x2048 ![] bcast_S_S8192x2048 (constant (F := Ideal) S_ .f32 0x3F800000#32)

theorem ones_at (i : S8192x2048.Idx) : ones i = 1 := by
  unfold ones
  rw [broadcastInDim_scalar_apply, constant_apply, Ideal.ofBits_one_f32]

/-- The logistic function as the reference spells it. -/
abbrev logisticT (s : FVec Ideal S8192x2048 .f32) : FVec Ideal S8192x2048 .f32 :=
  Host.divf ones (addf ones (Host.exp (Host.negf s)))

theorem logisticT_at (s : FVec Ideal S8192x2048 .f32) (i : S8192x2048.Idx) : logisticT s i = Ideal.logistic (s i) :=
  PlainProduct.logistic_spelled_at bcast_S_S8192x2048 s i

/-- One layer's pre-activation array, as the reference computes it. -/
abbrev preactT (x : FVec Ideal S8192x2048 .f32) (W : FVec Ideal S6144x2048 .f32) (bias : FVec Ideal S6144 .f32) :
    FVec Ideal S8192x6144 .f32 :=
  addf (Host.dotGeneral dot_S8192x2048_S2048x6144_S8192x6144_1_0_0_1_n_n none x
      (transpose S2048x6144 [1, 0] W transposes_S6144x2048_S2048x6144_1_0))
    (broadcastInDim S8192x6144 ![0, 1] bcast_S1x6144_S8192x6144_0_1 (broadcastInDim S1x6144 ![1] bcast_S6144_S1x6144_1 bias))

theorem preactT_at (x : FVec Ideal S8192x2048 .f32) (W : FVec Ideal S6144x2048 .f32) (bias : FVec Ideal S6144 .f32)
    (b : Fin 8192) (j : Fin 6144) : preactT x W bias (ix2 b j) = pre x W bias b j :=
  preact_at x W bias b j

/-- One cell's output array, as the reference computes it from the pre-activations and the hidden array. -/
abbrev cellT (gi gh : FVec Ideal S8192x6144 .f32) (h : FVec Ideal S8192x2048 .f32) : FVec Ideal S8192x2048 .f32 :=
  addf
    (mulf
      (subf ones
        (logisticT (addf (extractStridedSlice S8192x2048 ![0, 2048] gi slices_S8192x6144_S8192x2048_0_2048)
          (extractStridedSlice S8192x2048 ![0, 2048] gh slices_S8192x6144_S8192x2048_0_2048))))
      (Host.tanh
        (addf (extractStridedSlice S8192x2048 ![0, 4096] gi slices_S8192x6144_S8192x2048_0_4096)
          (mulf
            (logisticT (addf (extractStridedSlice S8192x2048 ![0, 0] gi slices_S8192x6144_S8192x2048_0_0)
              (extractStridedSlice S8192x2048 ![0, 0] gh slices_S8192x6144_S8192x2048_0_0)))
            (extractStridedSlice S8192x2048 ![0, 4096] gh slices_S8192x6144_S8192x2048_0_4096)))))
    (mulf
      (logisticT (addf (extractStridedSlice S8192x2048 ![0, 2048] gi slices_S8192x6144_S8192x2048_0_2048)
        (extractStridedSlice S8192x2048 ![0, 2048] gh slices_S8192x6144_S8192x2048_0_2048)))
      h)

/-- The host's hyperbolic tangent at an index. -/
theorem hostTanh_at (s : FVec Ideal S8192x2048 .f32) (i : S8192x2048.Idx) : Host.tanh s i = Ideal.tanh (s i) := rfl

/-- Entry `(b, j)` of the cell's output is the gating of the six pre-activation entries and the hidden entry. -/
theorem cellT_at (gi gh : FVec Ideal S8192x6144 .f32) (h : FVec Ideal S8192x2048 .f32) (b : Fin 8192) (j : Fin 2048) :
    cellT gi gh h (ix2 b j)
      = gate (gi (ix2 b (row 0 j))) (gh (ix2 b (row 0 j))) (gi (ix2 b (row 1 j))) (gh (ix2 b (row 1 j)))
          (gi (ix2 b (row 2 j))) (gh (ix2 b (row 2 j))) (h (ix2 b j)) := by
  unfold gate cellT
  rw [addf_apply, mulf_apply, mulf_apply, subf_apply, ones_at, logisticT_at, hostTanh_at, addf_apply, addf_apply, mulf_apply,
    logisticT_at, addf_apply, slice0_at, slice0_at, slice1_at, slice1_at, slice2_at, slice2_at]

end Cert.RefSide

end
-- ==== Proof.RefSide.lean ====
import proofs.«154160_j33036888441278_1_alg».proof.Proof.RefSideCell

/-!
# The reference program computes `Cert.Spec.result`

The reference's first cell takes the input, the left half of the state and the first layer's weights and biases; its
second cell takes the first cell's output, the right half of the state and the second layer's weights and biases; the
result is the two outputs joined along the columns. Each cell is the term read in the module on one cell, at the
pre-activation arrays read in the module on pre-activations, so the whole result is `Cert.Spec.result` of the ten
arguments, and every weakly fair execution of the reference ends with its result buffer holding that function.
-/

noncomputable section

namespace Cert.RefSide

open Idealize.ShloMosaic Idealize.ShloMosaic.ValueIdx Idealize.ShloMosaic.HostLayout Idealize.ShloMosaic.TcCoe Idealize.SL.Sem
open Cert.ReferenceIdeal Cert.ReferenceIdeal.Gen Cert.Spec

/-- The slice of the state's columns `0 .. 2047` is its left half. -/
theorem stateL_eq (s : FVec Ideal S8192x4096 .f32) :
    extractStridedSlice S8192x2048 ![0, 0] s slices_S8192x4096_S8192x2048_0_0 = stateL s := by
  funext i
  obtain ⟨b, j, rfl⟩ : ∃ b j, i = ix2 b j := ⟨i 0, i 1, eq_ix2 i⟩
  exact extractStridedSlice_apply ![0, 0] s slices_S8192x4096_S8192x2048_0_0 (ix2 b j)
    (ix2 b ⟨j.val, by have := j.isLt; omega⟩) (fun a => match a with
      | ⟨0, _⟩ => by show b.val = 0 + b.val; omega
      | ⟨1, _⟩ => by show j.val = 0 + j.val; omega)

/-- The slice of the state's columns `2048 .. 4095` is its right half. -/
theorem stateR_eq (s : FVec Ideal S8192x4096 .f32) :
    extractStridedSlice S8192x2048 ![0, 2048] s slices_S8192x4096_S8192x2048_0_2048 = stateR s := by
  funext i
  obtain ⟨b, j, rfl⟩ : ∃ b j, i = ix2 b j := ⟨i 0, i 1, eq_ix2 i⟩
  exact extractStridedSlice_apply ![0, 2048] s slices_S8192x4096_S8192x2048_0_2048 (ix2 b j)
    (ix2 b ⟨j.val + 2048, by have := j.isLt; omega⟩) (fun a => match a with
      | ⟨0, _⟩ => by show b.val = 0 + b.val; omega
      | ⟨1, _⟩ => by show j.val + 2048 = 2048 + j.val; omega)

/-- The cell term at the two pre-activation arrays is one GRU cell. -/
theorem cellT_preact_eq (x h : FVec Ideal S8192x2048 .f32) (Wih Whh : FVec Ideal S6144x2048 .f32)
    (bih bhh : FVec Ideal S6144 .f32) :
    cellT (preactT x Wih bih) (preactT h Whh bhh) h = cell x h Wih Whh bih bhh := by
  funext i
  obtain ⟨b, j, rfl⟩ : ∃ b j, i = ix2 b j := ⟨i 0, i 1, eq_ix2 i⟩
  rw [cellT_at]
  simp only [preactT_at]
  rfl

/-- Two arrays joined along the columns. -/
theorem beside_eq (a b : FVec Ideal S8192x2048 .f32) :
    concatenate S8192x4096 1 [⟨S8192x2048, a⟩, ⟨S8192x2048, b⟩] concatenates_S8192x2048_S8192x2048_S8192x4096_d1
      = beside a b := by
  funext i
  unfold beside
  split
  · rename_i h
    exact concatenate_pair_apply_left (1 : Fin 2) a b concatenates_S8192x2048_S8192x2048_S8192x4096_d1 i rfl
      (ix2 (i 0) ⟨(i 1).val, h⟩) (fun ax => match ax with
        | ⟨0, _⟩ => rfl
        | ⟨1, _⟩ => rfl)
  · rename_i h
    exact concatenate_pair_apply_right (1 : Fin 2) a b concatenates_S8192x2048_S8192x2048_S8192x4096_d1 i rfl rfl
      (ix2 (i 0) ⟨(i 1).val - 2048, by have := idx2_lt1 i; omega⟩) (fun ax hne => match ax with
        | ⟨0, _⟩ => rfl
        | ⟨1, _⟩ => absurd rfl hne)
      (by show (i 1).val - 2048 + 2048 = (i 1).val; omega)

/-- The reference's first cell as the cell term. -/
theorem v39_eq (x0 : FVec Ideal S8192x2048 .f32) (x1 : FVec Ideal S8192x4096 .f32) (x2 x3 : FVec Ideal S6144x2048 .f32)
    (x4 x5 : FVec Ideal S6144 .f32) :
    Read.val_main_v39 (F := Ideal) x0 x1 x2 x3 x4 x5
      = cellT (preactT x0 x2 x4)
          (preactT (extractStridedSlice S8192x2048 ![0, 0] x1 slices_S8192x4096_S8192x2048_0_0) x3 x5)
          (extractStridedSlice S8192x2048 ![0, 0] x1 slices_S8192x4096_S8192x2048_0_0) := rfl

/-- The reference's first cell is the first layer. -/
theorem layer1_eq (x0 : FVec Ideal S8192x2048 .f32) (x1 : FVec Ideal S8192x4096 .f32) (x2 x3 : FVec Ideal S6144x2048 .f32)
    (x4 x5 : FVec Ideal S6144 .f32) :
    Read.val_main_v39 (F := Ideal) x0 x1 x2 x3 x4 x5 = layer1 x0 x1 x2 x3 x4 x5 := by
  rw [v39_eq, stateL_eq, cellT_preact_eq]
  rfl

/-- The reference's second cell as the cell term, fed by the first cell's output. -/
theorem v77_eq (x0 : FVec Ideal S8192x2048 .f32) (x1 : FVec Ideal S8192x4096 .f32) (x2 x3 : FVec Ideal S6144x2048 .f32)
    (x4 x5 : FVec Ideal S6144 .f32) (x6 x7 : FVec Ideal S6144x2048 .f32) (x8 x9 : FVec Ideal S6144 .f32) :
    Read.val_main_v77 (F := Ideal) x0 x1 x2 x3 x4 x5 x6 x7 x8 x9
      = cellT (preactT (Read.val_main_v39 (F := Ideal) x0 x1 x2 x3 x4 x5) x6 x8)
          (preactT (extractStridedSlice S8192x2048 ![0, 2048] x1 slices_S8192x4096_S8192x2048_0_2048) x7 x9)
          (extractStridedSlice S8192x2048 ![0, 2048] x1 slices_S8192x4096_S8192x2048_0_2048) := rfl

/-- The reference's second cell is the second layer. -/
theorem layer2_eq (x0 : FVec Ideal S8192x2048 .f32) (x1 : FVec Ideal S8192x4096 .f32) (x2 x3 : FVec Ideal S6144x2048 .f32)
    (x4 x5 : FVec Ideal S6144 .f32) (x6 x7 : FVec Ideal S6144x2048 .f32) (x8 x9 : FVec Ideal S6144 .f32) :
    Read.val_main_v77 (F := Ideal) x0 x1 x2 x3 x4 x5 x6 x7 x8 x9 = layer2 x0 x1 x2 x3 x4 x5 x6 x7 x8 x9 := by
  rw [v77_eq, stateR_eq, cellT_preact_eq, layer1_eq]
  rfl

/-- The reference's result, as a function of its ten arguments, is `Cert.Spec.result`. -/
theorem ref_value (a0 : FVec Ideal S8192x2048 .f32) (a1 : FVec Ideal S8192x4096 .f32) (a2 a3 : FVec Ideal S6144x2048 .f32)
    (a4 a5 : FVec Ideal S6144 .f32) (a6 a7 : FVec Ideal S6144x2048 .f32) (a8 a9 : FVec Ideal S6144 .f32) :
    Read.val_main_v78 (F := Ideal) a0 a1 a2 a3 a4 a5 a6 a7 a8 a9 = result a0 a1 a2 a3 a4 a5 a6 a7 a8 a9 := by
  unfold Read.val_main_v78 result
  rw [beside_eq, layer1_eq, layer2_eq]

/-- Every weakly fair execution of the reference, from any memory with zero counters, terminates with the result
    buffer holding `Cert.Spec.result` of the arguments' launch contents, and the arguments unchanged. -/
theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ fun r => ∀ c : Dev nD,
      r.2.mem ((c.tc : Thread nD τ).loc main_v78)
        = result (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9) :=
  (θ_run defs _ _).mono (fun _ h c =>
      ⟨(h c).1.trans ((Read.val_main_v78_eq m' c).trans (ref_value _ _ _ _ _ _ _ _ _ _)), (h c).2⟩)
    (Value.run m' ρ')

end Cert.RefSide

end
-- ==== Proof.lean ====
/- Two stacked GRU cells as a Pallas kernel per layer against their plain jnp reference.

   Each layer's kernel walks a grid of 32 batch tiles by 8 contraction tiles. At every point it adds one tile's
   products into two accumulators it keeps between points (zeroed at a first contraction tile); at a last contraction
   tile it adds the biases, gates, and stores the batch tile's block of the output. Over the extended reals the
   accumulated tiles are the whole contraction — a sum regrouped, which needs no finiteness — and the gating is the
   reference's, operation for operation (the reference's logistic function spelled with negate, exponential, add and
   divide is the kernel's logistic); a change of float format is the identity there. So both programs compute
   `Cert.Spec.result` of their arguments, entry by entry.

   The frames: the program is five segments — host operations, the first region, host operations, the second region,
   the concatenation — and each region's body is run once per case of its two conditions (first contraction tile,
   last contraction tile, neither), the invariant naming the accumulators' contents point by point. The same text
   serves the word-level program and its idealization, at either instance. The idealization rewrote no operation, so
   `preserves` has nothing to state. -/
import proofs.«154160_j33036888441278_1_alg».proof.Defs
import proofs.«154160_j33036888441278_1_alg».proof.Proof.Gen.Kernel
import proofs.«154160_j33036888441278_1_alg».proof.Proof.Gen.KernelIdeal
import proofs.«154160_j33036888441278_1_alg».proof.Proof.Gen.ReferenceIdeal
import proofs.«154160_j33036888441278_1_alg».proof.Proof.Gen.Pre_finite_inputs
import proofs.«154160_j33036888441278_1_alg».proof.Proof.KnMain
import proofs.«154160_j33036888441278_1_alg».proof.Proof.KiValue
import proofs.«154160_j33036888441278_1_alg».proof.Proof.RefSide
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m g _ => Cert.Kernel.Fr.frame_all (F := Bits) m g

/-- So does its idealization. -/
theorem frame_ki : Cert.frame_KernelIdeal := fun m g _ => Cert.KernelIdeal.Fr.frame_all (F := Ideal) m g

/-- The reference has no kernel: its frame is its run with the result dropped. -/
theorem frame_ri : Cert.frame_ReferenceIdeal := fun m g _ =>
  (θ_run Cert.ReferenceIdeal.defs _ _).mono (fun _ h c => (h c).2) (Cert.RefSide.ref_run m g)

/-- Over the extended reals both programs end with the two-layer GRU of their arguments, which agree. -/
theorem algebraic : Cert.algebraic_KernelIdeal_ReferenceIdeal := by
  intro m g m' g' _ hagree
  refine ⟨fun c => Cert.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.KernelIdeal.Fr.value_run m g, ?_⟩
  refine (θ_run Cert.ReferenceIdeal.defs _ _).mono (fun _ h c => ⟨(h c).1.trans ?_, (h c).2⟩) (Cert.RefSide.ref_run m' g')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
